-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S4096x1 : Shape := ⟨2, ![4096, 1]⟩
abbrev S_ : Shape := ⟨0, ![]⟩
abbrev S512x512 : Shape := ⟨2, ![512, 512]⟩
abbrev S256x512 : Shape := ⟨2, ![256, 512]⟩
abbrev S512x4096 : Shape := ⟨2, ![512, 4096]⟩
abbrev S256x4096 : Shape := ⟨2, ![256, 4096]⟩

abbrev nBuf : Space → Nat
  | .hbm => 27
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .i32⟩
  | .hbm, ⟨3, _⟩ => ⟨S1x4096, .i32⟩
  | .hbm, ⟨4, _⟩ => ⟨S4096x1, .i32⟩
  | .hbm, ⟨5, _⟩ => ⟨S4096x4096, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .bf16⟩
  | .hbm, ⟨25, _⟩ => ⟨S4096x4096, .bf16⟩
  | .hbm, ⟨26, _⟩ => ⟨S8192x4096, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S256x512, .f32⟩
  | .local _ .vmem, ⟨8, _⟩ => ⟨S256x512, .f32⟩
  | .local _ .vmem, ⟨9, _⟩ => ⟨S512x4096, .bf16⟩
  | .local _ .vmem, ⟨10, _⟩ => ⟨S512x4096, .bf16⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![8, 8, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.addi arg0 arg2
  let c1_i32 : BitVec 32 := 1#32
  let v1 : BitVec 32 := Scalar.subi v0 c1_i32
  let c0_i32 : BitVec 32 := 0#32
  let c7_i32 : BitVec 32 := 7#32
  let v2 : BitVec 32 := Scalar.maxsi c0_i32 v1
  let v3 : BitVec 32 := Scalar.minsi c7_i32 v2
  let c0_i32_0 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.addi arg0 arg2
  let c1_i32 : BitVec 32 := 1#32
  let v1 : BitVec 32 := Scalar.subi v0 c1_i32
  let c0_i32 : BitVec 32 := 0#32
  let c7_i32 : BitVec 32 := 7#32
  let v2 : BitVec 32 := Scalar.maxsi c0_i32 v1
  let v3 : BitVec 32 := Scalar.minsi c7_i32 v2
  let c0_i32_0 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![32, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x512_S256x512_0_0 : ∀ a, (![0, 0] : Fin 2 → Nat) a + S256x512.size a ≤ S256x512.size a
  h_S256x512 : 0 < S256x512.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  dot_S512x512_S512x512_S512x512_1_1_0_0_n_n_wf : DotDims.WF S512x512 S512x512 S512x512 [1] [1] [0] [0] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .bf16 = 32 ∨ (Rect.block (s := S4096x4096) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .bf16 = 32 ∨ (Rect.block (s := S4096x4096) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S8192x4096.size a
  hwx1_0 : ∀ i : grid1.Coords, EltTy.bits .f32 = 32 ∨ (Rect.block (s := S8192x4096) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S8192x4096.size a
  hwx1_2 : ∀ i : grid1.Coords, EltTy.bits .f32 = 32 ∨ (Rect.block (s := S8192x4096) S256x4096.size (cc1_transform_2 i) (hinb1_2 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_v17) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

abbrev win1_0 : Pipeline.Window sig grid1 :=
  Pipeline.Window.ofSpec (Memref.whole main_arg0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S4096x1 : Shape := ⟨2, ![4096, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .i32⟩
  | .hbm, ⟨3, _⟩ => ⟨S1x4096, .i32⟩
  | .hbm, ⟨4, _⟩ => ⟨S4096x1, .i32⟩
  | .hbm, ⟨5, _⟩ => ⟨S4096x4096, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S8192x4096, .f32⟩
  | .hbm, ⟨25, _⟩ => ⟨S4096x4096, .f32⟩
  | .hbm, ⟨26, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KB.R0Kit.lean ====
/-
  The first pallas_call (the banded product  T = W · Bᵀ  over an 8 × 8 × 3 grid: row block, column block, and an offset
  kb = 0, 1, 2 standing for the neighbouring block  row block + kb - 1  of the contracted axis), seen from any contents `V`
  of the core's buffers at the region's entry: each window's block at a grid point, the three branch conditions of the body
  in closed form over the grid (the accumulator is cleared at offset 0, the product is added where the neighbouring block lies
  inside the matrix, the output is stored at offset 2), where the output window is idle, and the memrefs the body is run on.
  A grid point `t` has row block `t / 24`, column block `(t / 3) % 8` and offset `t % 3`.
-/
import proofs.«167009_j2078764171786_2_alg».proof.Proof.Gen.Kernel.Launch
import proofs.«167009_j2078764171786_2_alg».proof.Proof.Gen.Kernel.Skeleton
import proofs.«167009_j2078764171786_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data whose
    array is `V`'s and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The accumulator is cleared: the offset (grid coordinate 2) is 0. -/
abbrev cond0 (i : grid0.Coords) : Prop := (Scalar.cmpi .ne (Scalar.extui (Scalar.cmpi .eq (BitVec.ofNat 32 (i 2).val) 0#32)) 0#32) = 1#1
theorem hcond0 : ∀ t : Fin cfg0.N, cond0 (grid0.coords t) ↔ t.val % 3 = 0 :=
  (by decide +kernel : ∀ t : Fin grid0.N, cond0 (grid0.coords t) ↔ t.val % 3 = 0)

/-- The product is added: the neighbouring block  row block + offset - 1  lies in `[0, 7]`. -/
abbrev cond1 (i : grid0.Coords) : Prop := (Scalar.cmpi .ne (Scalar.extui (Scalar.andi (Scalar.cmpi .sge (Scalar.subi (Scalar.addi (BitVec.ofNat 32 (i 0).val) (BitVec.ofNat 32 (i 2).val)) 1#32) 0#32) (Scalar.cmpi .sle (Scalar.subi (Scalar.addi (BitVec.ofNat 32 (i 0).val) (BitVec.ofNat 32 (i 2).val)) 1#32) 7#32))) 0#32) = 1#1
theorem hcond1 : ∀ t : Fin cfg0.N, cond1 (grid0.coords t) ↔ (1 ≤ t.val / 24 + t.val % 3 ∧ t.val / 24 + t.val % 3 ≤ 8) :=
  (by decide +kernel : ∀ t : Fin grid0.N, cond1 (grid0.coords t) ↔ (1 ≤ t.val / 24 + t.val % 3 ∧ t.val / 24 + t.val % 3 ≤ 8))

/-- The output is stored: the offset is the last, 2. -/
abbrev cond2 (i : grid0.Coords) : Prop := k0_cond3 i = 1#1
theorem hcond2 : ∀ t : Fin cfg0.N, cond2 (grid0.coords t) ↔ t.val % 3 = 2 :=
  (by decide +kernel : ∀ t : Fin grid0.N, cond2 (grid0.coords t) ↔ t.val % 3 = 2)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem idleAt_2 : ∀ t : Fin cfg0.N, ¬cond2 (grid0.coords t) → cfg0.idle 2 (grid0.coords t) = true := by decide +kernel
theorem noFlush_2 : ∀ t : Fin cfg0.N, ¬cond2 (grid0.coords t) → (cfg0.win 2).flush t = false := by decide +kernel
theorem liveAt_2 : ∀ t : Fin cfg0.N, cond2 (grid0.coords t) → cfg0.idle 2 (grid0.coords t) = false := by decide +kernel

/-! ## The memrefs the body is run on -/

abbrev VO : View sig .tc .vmem S512x512 .bf16 := (Memref.whole cc0_stg2_0 : Memref sig .tc .vmem S512x512 .bf16).view
abbrev ms_0 (t : Fin cfg0.N) : Memref sig .tc .vmem S512x512 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S512x512 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x512 .bf16 := win0_2.stage (cfg0.slots t 2)
abbrev hs_2 (t : Fin cfg0.N) : (ms_2 t).IsWhole := hstage0_2 ((cfg0.slots t 2).cast nbuf0_2)
/-- The accumulator: a whole scoped buffer of the kernel's own, carried between the three offsets of one output block. -/
abbrev scM : Memref sig .tc .vmem S512x512 .f32 := Memref.whole cc0_scratch0
abbrev VS : View sig .tc .vmem S512x512 .f32 := scM.view

/-- The core's scoped buffers that are neither a staging buffer of this call nor its accumulator (the second call's staging
    buffers and accumulator), each whole at some contents, behind a first conjunct `S` (the accumulator's). -/
abbrev restWith (c : Dev nD) (S : sProp 𝕄) : sProp 𝕄 :=
  iprop(S ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's invariant with the accumulator as a memref owned at some contents. -/
theorem PhiA_eq (c : Dev nD) :
    (Pipeline.ΦA spec0 c : sProp 𝕄)
      = iprop(restWith c iprop(∃ d, owns (c : Thread nD τ) scM fullShare d) ∗ (∃ r, prngReg c r)) := by
  unfold Pipeline.ΦA; rw [scopedRest0_eq]; simp only [scM, owns_whole]; try rfl

end Cert.Kernel.R0

end
-- ==== Proof.KB.R0RunA.lean ====
/-
  The banded product's body run over a symbolic grid point in one of its five control cases (the run finds the pieces the
  body's stores leave in the output's staging buffer and in the accumulator).
-/
import proofs.«167009_j2078764171786_2_alg».proof.Proof.KB.R0Kit

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: offset 0 with the neighbouring block inside the matrix: the accumulator is cleared, then the block's product added; the output window is passed through untouched. The accumulator may hold anything before. -/
noncomputable def kernelRun_A (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : cond1 i) (hc2 : ¬cond2 i)
    (x0 : Vec F S512x512 .bf16) (x1 : Vec F S512x512 .f32) :
    { LS : List (View.Piece (Elt F) S512x512 .f32) //
      ∀ (y2 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare y2 ∗ (∃ d, owns (c : Thread nD τ) arg6 fullShare d)
            ∗ (iprop(owns (c : Thread nD τ) arg3 fullShare x0 ∗ owns (c : Thread nD τ) arg4 fullShare x1 ∗ owns (c : Thread nD τ) arg5 fullShare y2 ∗ (∃ f, arg6.view.loc (c : Thread nD τ) ↦[arg6.view.set]{fullShare} arg6.view.writes (Elt F) f LS)) -∗ K ⟨⟩))
          ⊢ wp frame (wpE (defs₀ (F := F)) Variants.none c none) E (cc0__banded_t_kernel i arg3 harg3 arg4 harg4 arg5 harg5 arg6 harg6) K } := by
  refine ⟨?_, fun y2 E K => ?run⟩
  case run =>
    simp only [cc0__banded_t_kernel_eq_skeleton]; unfold cc0__banded_t_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists f2; isplitr; · ipureintro; exact hf2
      iexact H2
    iexists _; iexact HS

end Cert.Kernel.R0

end
-- ==== Proof.KB.R0RunB.lean ====
/-
  The banded product's body run over a symbolic grid point in one of its five control cases (the run finds the pieces the
  body's stores leave in the output's staging buffer and in the accumulator).
-/
import proofs.«167009_j2078764171786_2_alg».proof.Proof.KB.R0RunA

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: offset 0 with the neighbouring block outside the matrix (row block 0): the accumulator is cleared and nothing added; the output window is passed through untouched. -/
noncomputable def kernelRun_B (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : ¬cond1 i) (hc2 : ¬cond2 i)
    (x0 : Vec F S512x512 .bf16) (x1 : Vec F S512x512 .f32) :
    { LS : List (View.Piece (Elt F) S512x512 .f32) //
      ∀ (y2 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare y2 ∗ (∃ d, owns (c : Thread nD τ) arg6 fullShare d)
            ∗ (iprop(owns (c : Thread nD τ) arg3 fullShare x0 ∗ owns (c : Thread nD τ) arg4 fullShare x1 ∗ owns (c : Thread nD τ) arg5 fullShare y2 ∗ (∃ f, arg6.view.loc (c : Thread nD τ) ↦[arg6.view.set]{fullShare} arg6.view.writes (Elt F) f LS)) -∗ K ⟨⟩))
          ⊢ wp frame (wpE (defs₀ (F := F)) Variants.none c none) E (cc0__banded_t_kernel i arg3 harg3 arg4 harg4 arg5 harg5 arg6 harg6) K } := by
  refine ⟨?_, fun y2 E K => ?run⟩
  case run =>
    simp only [cc0__banded_t_kernel_eq_skeleton]; unfold cc0__banded_t_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists f2; isplitr; · ipureintro; exact hf2
      iexact H2
    iexists _; iexact HS

end Cert.Kernel.R0

end
-- ==== Proof.KB.R0RunC.lean ====
/-
  The banded product's body run over a symbolic grid point in one of its five control cases (the run finds the pieces the
  body's stores leave in the output's staging buffer and in the accumulator).
-/
import proofs.«167009_j2078764171786_2_alg».proof.Proof.KB.R0RunB

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: offset 1 (the diagonal block, always inside): the product is added to what the point before left (`xs`); the output window is passed through untouched. -/
noncomputable def kernelRun_C (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : ¬cond2 i)
    (x0 : Vec F S512x512 .bf16) (x1 : Vec F S512x512 .f32) (xs : Vec F S512x512 .f32) :
    { LS : List (View.Piece (Elt F) S512x512 .f32) //
      ∀ (y2 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare xs
            ∗ (iprop(owns (c : Thread nD τ) arg3 fullShare x0 ∗ owns (c : Thread nD τ) arg4 fullShare x1 ∗ owns (c : Thread nD τ) arg5 fullShare y2 ∗ (∃ f, arg6.view.loc (c : Thread nD τ) ↦[arg6.view.set]{fullShare} arg6.view.writes (Elt F) f LS)) -∗ K ⟨⟩))
          ⊢ wp frame (wpE (defs₀ (F := F)) Variants.none c none) E (cc0__banded_t_kernel i arg3 harg3 arg4 harg4 arg5 harg5 arg6 harg6) K } := by
  refine ⟨?_, fun y2 E K => ?run⟩
  case run =>
    simp only [cc0__banded_t_kernel_eq_skeleton]; unfold cc0__banded_t_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists f2; isplitr; · ipureintro; exact hf2
      iexact H2
    iexists _; iexact HS

end Cert.Kernel.R0

end
-- ==== Proof.KB.R0RunD.lean ====
/-
  The banded product's body run over a symbolic grid point in one of its five control cases (the run finds the pieces the
  body's stores leave in the output's staging buffer and in the accumulator).
-/
import proofs.«167009_j2078764171786_2_alg».proof.Proof.KB.R0RunC

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case D: offset 2 with the neighbouring block inside the matrix: the product is added to what the point before left (`xs`), then the accumulator stored (converted) into the output window. -/
noncomputable def kernelRun_D (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i)
    (x0 : Vec F S512x512 .bf16) (x1 : Vec F S512x512 .f32) (xs : Vec F S512x512 .f32) :
    Σ' (L2 : List (View.Piece (Elt F) S512x512 .bf16)), { LS : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__banded_t_kernel i arg3 harg3 arg4 harg4 arg5 harg5 arg6 harg6) K } := by
  refine ⟨?_, ?_, fun E K => ?run⟩
  case run =>
    simp only [cc0__banded_t_kernel_eq_skeleton]; unfold cc0__banded_t_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.R0

end
-- ==== Proof.KB.R0RunE.lean ====
/-
  The banded product's body run over a symbolic grid point in one of its five control cases (the run finds the pieces the
  body's stores leave in the output's staging buffer and in the accumulator).
-/
import proofs.«167009_j2078764171786_2_alg».proof.Proof.KB.R0RunD

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case E: offset 2 with the neighbouring block outside the matrix (row block 7): nothing is added; the accumulator, as the point before left it (`xs`) and left as it is, is stored (converted) into the output window. -/
noncomputable def kernelRun_E (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : ¬cond1 i) (hc2 : cond2 i)
    (x0 : Vec F S512x512 .bf16) (x1 : Vec F S512x512 .f32) (xs : Vec F S512x512 .f32) :
    { L2 : List (View.Piece (Elt F) S512x512 .bf16) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xs) -∗ K ⟨⟩))
          ⊢ wp frame (wpE (defs₀ (F := F)) Variants.none c none) E (cc0__banded_t_kernel i arg3 harg3 arg4 harg4 arg5 harg5 arg6 harg6) K } := by
  refine ⟨?_, fun E K => ?run⟩
  case run =>
    simp only [cc0__banded_t_kernel_eq_skeleton]; unfold cc0__banded_t_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; isplitr; · ipureintro; exact harg6.read_unread _
    iexact HS

end Cert.Kernel.R0

end
-- ==== Proof.KB.R0Outs.lean ====
/-
  What the banded product leaves, case by case and point by point.  Per control case: the accumulator's contents after the
  body (its pieces read back; they tile the buffer, so they cover it) and, in the two storing cases, the output's staging
  buffer.  Point by point (`outsAt`): the pair (output staging buffer, accumulator) after the body at position `n` of the
  grid's walk, by recursion on `n` — an offset-0 point starts from a cleared accumulator, every other point from what the
  point before left.  Then the region's invariant (the accumulator is tracked from offset 0 to offset 2 of one output block
  and forgotten between output blocks) and the pipeline's proof data.
-/
import proofs.«167009_j2078764171786_2_alg».proof.Proof.KB.R0RunE

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Per case -/

/-- The pieces case A (offset 0, neighbouring block inside) leaves in the accumulator tile it, so they cover it. -/
theorem scover_A (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : cond1 i) (hc2 : ¬cond2 i) (x0 : Vec F S512x512 .bf16) (x1 : Vec F S512x512 .f32) (y : S512x512.Idx) :
    ∃ pc ∈ (kernelRun_A c i arg3 harg3 arg4 harg4 arg5 harg5 arg6 harg6 hc0 hc1 hc2 x0 x1).1, y ∈ pc.1.set :=
  View.cover_of_tiledL (kernelRun_A c i arg3 harg3 arg4 harg4 arg5 harg5 arg6 harg6 hc0 hc1 hc2 x0 x1).1 S512x512.size (by sl_kernel_rfl) y

/-- What case A leaves in the accumulator: the cleared buffer plus the block's product. -/
def sout_A (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : cond1 i) (hc2 : ¬cond2 i) (x0 : Vec F S512x512 .bf16) (x1 : Vec F S512x512 .f32) : Vec F S512x512 .f32 :=
  VS.read (Elt F) (VS.writes (Elt F) VS.junk (kernelRun_A c i arg3 harg3 arg4 harg4 arg5 harg5 arg6 harg6 hc0 hc1 hc2 x0 x1).1)

/-- The pieces case B (offset 0, neighbouring block outside) leaves in the accumulator cover it. -/
theorem scover_B (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : ¬cond1 i) (hc2 : ¬cond2 i) (x0 : Vec F S512x512 .bf16) (x1 : Vec F S512x512 .f32) (y : S512x512.Idx) :
    ∃ pc ∈ (kernelRun_B c i arg3 harg3 arg4 harg4 arg5 harg5 arg6 harg6 hc0 hc1 hc2 x0 x1).1, y ∈ pc.1.set :=
  View.cover_of_tiledL (kernelRun_B c i arg3 harg3 arg4 harg4 arg5 harg5 arg6 harg6 hc0 hc1 hc2 x0 x1).1 S512x512.size (by sl_kernel_rfl) y

/-- What case B leaves in the accumulator: the cleared buffer. -/
def sout_B (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : ¬cond1 i) (hc2 : ¬cond2 i) (x0 : Vec F S512x512 .bf16) (x1 : Vec F S512x512 .f32) : Vec F S512x512 .f32 :=
  VS.read (Elt F) (VS.writes (Elt F) VS.junk (kernelRun_B c i arg3 harg3 arg4 harg4 arg5 harg5 arg6 harg6 hc0 hc1 hc2 x0 x1).1)

/-- The pieces case C (offset 1) leaves in the accumulator cover it. -/
theorem scover_C (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : ¬cond2 i) (x0 : Vec F S512x512 .bf16) (x1 : Vec F S512x512 .f32) (xs : Vec F S512x512 .f32) (y : S512x512.Idx) :
    ∃ pc ∈ (kernelRun_C c i arg3 harg3 arg4 harg4 arg5 harg5 arg6 harg6 hc0 hc1 hc2 x0 x1 xs).1, y ∈ pc.1.set :=
  View.cover_of_tiledL (kernelRun_C c i arg3 harg3 arg4 harg4 arg5 harg5 arg6 harg6 hc0 hc1 hc2 x0 x1 xs).1 S512x512.size (by sl_kernel_rfl) y

/-- What case C leaves in the accumulator: the block's product added to what the point before left. -/
def sout_C (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : ¬cond2 i) (x0 : Vec F S512x512 .bf16) (x1 : Vec F S512x512 .f32) (xs : Vec F S512x512 .f32) : Vec F S512x512 .f32 :=
  VS.read (Elt F) (VS.writes (Elt F) VS.junk (kernelRun_C c i arg3 harg3 arg4 harg4 arg5 harg5 arg6 harg6 hc0 hc1 hc2 x0 x1 xs).1)

/-- The pieces case D (offset 2, neighbouring block inside) stores into the output window tile its block, so they cover it. -/
theorem cover_D (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i) (x0 : Vec F S512x512 .bf16) (x1 : Vec F S512x512 .f32) (xs : Vec F S512x512 .f32) (y : S512x512.Idx) :
    ∃ pc ∈ (kernelRun_D c i arg3 harg3 arg4 harg4 arg5 harg5 arg6 harg6 hc0 hc1 hc2 x0 x1 xs).1, y ∈ pc.1.set :=
  View.cover_of_tiledL (kernelRun_D c i arg3 harg3 arg4 harg4 arg5 harg5 arg6 harg6 hc0 hc1 hc2 x0 x1 xs).1 S512x512.size (by sl_kernel_rfl) y

/-- What case D leaves in the output window's staging buffer: the converted sum. -/
def out_D (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i) (x0 : Vec F S512x512 .bf16) (x1 : Vec F S512x512 .f32) (xs : Vec F S512x512 .f32) : Vec F S512x512 .bf16 :=
  VO.read (Elt F) (VO.writes (Elt F) VO.junk (kernelRun_D c i arg3 harg3 arg4 harg4 arg5 harg5 arg6 harg6 hc0 hc1 hc2 x0 x1 xs).1)

/-- The pieces case D leaves in the accumulator cover it. -/
theorem scover_D (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i) (x0 : Vec F S512x512 .bf16) (x1 : Vec F S512x512 .f32) (xs : Vec F S512x512 .f32) (y : S512x512.Idx) :
    ∃ pc ∈ (kernelRun_D c i arg3 harg3 arg4 harg4 arg5 harg5 arg6 harg6 hc0 hc1 hc2 x0 x1 xs).2.1, y ∈ pc.1.set :=
  View.cover_of_tiledL (kernelRun_D c i arg3 harg3 arg4 harg4 arg5 harg5 arg6 harg6 hc0 hc1 hc2 x0 x1 xs).2.1 S512x512.size (by sl_kernel_rfl) y

/-- What case D leaves in the accumulator: the block's product added to what the point before left. -/
def sout_D (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i) (x0 : Vec F S512x512 .bf16) (x1 : Vec F S512x512 .f32) (xs : Vec F S512x512 .f32) : Vec F S512x512 .f32 :=
  VS.read (Elt F) (VS.writes (Elt F) VS.junk (kernelRun_D c i arg3 harg3 arg4 harg4 arg5 harg5 arg6 harg6 hc0 hc1 hc2 x0 x1 xs).2.1)

/-- The pieces case E (offset 2, neighbouring block outside) stores into the output window cover it. -/
theorem cover_E (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : ¬cond1 i) (hc2 : cond2 i) (x0 : Vec F S512x512 .bf16) (x1 : Vec F S512x512 .f32) (xs : Vec F S512x512 .f32) (y : S512x512.Idx) :
    ∃ pc ∈ (kernelRun_E c i arg3 harg3 arg4 harg4 arg5 harg5 arg6 harg6 hc0 hc1 hc2 x0 x1 xs).1, y ∈ pc.1.set :=
  View.cover_of_tiledL (kernelRun_E c i arg3 harg3 arg4 harg4 arg5 harg5 arg6 harg6 hc0 hc1 hc2 x0 x1 xs).1 S512x512.size (by sl_kernel_rfl) y

/-- What case E leaves in the output window's staging buffer: the converted accumulator, as the point before left it. -/
def out_E (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : ¬cond1 i) (hc2 : cond2 i) (x0 : Vec F S512x512 .bf16) (x1 : Vec F S512x512 .f32) (xs : Vec F S512x512 .f32) : Vec F S512x512 .bf16 :=
  VO.read (Elt F) (VO.writes (Elt F) VO.junk (kernelRun_E c i arg3 harg3 arg4 harg4 arg5 harg5 arg6 harg6 hc0 hc1 hc2 x0 x1 xs).1)

/-- A placeholder for the output window's staging buffer at the points where the body stores nothing into it (the window is
    idle there and not written back; nothing consults it). -/
def idleOut : Vec F S512x512 .bf16 := VO.read (Elt F) VO.junk

/-! ## Point by point -/

/-- The pair (output staging buffer, accumulator) after the body at position `n` of the grid's walk.  At offset 0 the
    accumulator is cleared (and the neighbouring block's product added where that block lies inside the matrix); at
    offset 1 the product is added to what the point before left; at offset 2 the product is added where the block lies
    inside, the accumulator is otherwise left as it is, and its (converted) contents are stored into the output window. -/
def outsAt (c : Dev nD) : (n : ℕ) → n < cfg0.N → Vec F S512x512 .bf16 × Vec F S512x512 .f32
  | 0, hn => (idleOut, sout_B c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond0 ⟨0, hn⟩).mpr (Nat.zero_mod _)) (fun h => (fun h => by (try dsimp only at h); omega) ((hcond1 ⟨0, hn⟩).mp h)) (fun h => (fun h => by (try dsimp only at h); omega) ((hcond2 ⟨0, hn⟩).mp h)) (iblk V c 0 ⟨0, hn⟩) (iblk V c 1 ⟨0, hn⟩))
  | n + 1, hn =>
    if h0 : (n + 1) % 3 = 0 then
      if h1 : 1 ≤ (n + 1) / 24 + (n + 1) % 3 ∧ (n + 1) / 24 + (n + 1) % 3 ≤ 8 then
        (idleOut, sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond0 ⟨n + 1, hn⟩).mpr h0) ((hcond1 ⟨n + 1, hn⟩).mpr h1) (fun h => (fun h => by (try dsimp only at h); omega) ((hcond2 ⟨n + 1, hn⟩).mp h)) (iblk V c 0 ⟨n + 1, hn⟩) (iblk V c 1 ⟨n + 1, hn⟩))
      else
        (idleOut, sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond0 ⟨n + 1, hn⟩).mpr h0) (fun h => h1 ((hcond1 ⟨n + 1, hn⟩).mp h)) (fun h => (fun h => by (try dsimp only at h); omega) ((hcond2 ⟨n + 1, hn⟩).mp h)) (iblk V c 0 ⟨n + 1, hn⟩) (iblk V c 1 ⟨n + 1, hn⟩))
    else
      if h2 : (n + 1) % 3 = 2 then
        if h1 : 1 ≤ (n + 1) / 24 + (n + 1) % 3 ∧ (n + 1) / 24 + (n + 1) % 3 ≤ 8 then
          (out_D c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) ((hcond1 ⟨n + 1, hn⟩).mpr h1) ((hcond2 ⟨n + 1, hn⟩).mpr h2) (iblk V c 0 ⟨n + 1, hn⟩) (iblk V c 1 ⟨n + 1, hn⟩) (outsAt c n (Nat.lt_of_succ_lt hn)).2,
           sout_D c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) ((hcond1 ⟨n + 1, hn⟩).mpr h1) ((hcond2 ⟨n + 1, hn⟩).mpr h2) (iblk V c 0 ⟨n + 1, hn⟩) (iblk V c 1 ⟨n + 1, hn⟩) (outsAt c n (Nat.lt_of_succ_lt hn)).2)
        else
          (out_E c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) (fun h => h1 ((hcond1 ⟨n + 1, hn⟩).mp h)) ((hcond2 ⟨n + 1, hn⟩).mpr h2) (iblk V c 0 ⟨n + 1, hn⟩) (iblk V c 1 ⟨n + 1, hn⟩) (outsAt c n (Nat.lt_of_succ_lt hn)).2,
           (outsAt c n (Nat.lt_of_succ_lt hn)).2)
      else
        (idleOut, sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) ((hcond1 ⟨n + 1, hn⟩).mpr (by have hN : n + 1 < 192 := lt_of_lt_of_eq hn (show cfg0.N = 192 from N_0); (try dsimp only); omega)) (fun h => h2 ((hcond2 ⟨n + 1, hn⟩).mp h)) (iblk V c 0 ⟨n + 1, hn⟩) (iblk V c 1 ⟨n + 1, hn⟩) (outsAt c n (Nat.lt_of_succ_lt hn)).2)

/-- `outsAt` at offset 0 with the neighbouring block inside: the accumulator cleared, then the block's product. -/
theorem outsAt_A (c : Dev nD) (t : Fin cfg0.N) (h0 : t.val % 3 = 0) (h1 : 1 ≤ t.val / 24 + t.val % 3 ∧ t.val / 24 + t.val % 3 ≤ 8) :
    outsAt V c t.val t.isLt = (idleOut, sout_A c (grid0.coords t) (ms_0 t) (hs_0 t) (ms_1 t) (hs_1 t) (ms_2 t) (hs_2 t) scM (Memref.isWhole_whole _) ((hcond0 t).mpr h0) ((hcond1 t).mpr h1) (fun h => absurd ((hcond2 t).mp h) (by omega)) (iblk V c 0 t) (iblk V c 1 t)) := by
  obtain ⟨n, hn⟩ := t
  cases n with
  | zero => exact (by exfalso; (try dsimp only at h1); omega)
  | succ n => exact (dif_pos h0).trans ((dif_pos h1).trans rfl)

/-- `outsAt` at offset 0 with the neighbouring block outside: the accumulator cleared. -/
theorem outsAt_B (c : Dev nD) (t : Fin cfg0.N) (h0 : t.val % 3 = 0) (h1 : ¬(1 ≤ t.val / 24 + t.val % 3 ∧ t.val / 24 + t.val % 3 ≤ 8)) :
    outsAt V c t.val t.isLt = (idleOut, sout_B c (grid0.coords t) (ms_0 t) (hs_0 t) (ms_1 t) (hs_1 t) (ms_2 t) (hs_2 t) scM (Memref.isWhole_whole _) ((hcond0 t).mpr h0) (fun h => h1 ((hcond1 t).mp h)) (fun h => absurd ((hcond2 t).mp h) (by omega)) (iblk V c 0 t) (iblk V c 1 t)) := by
  obtain ⟨n, hn⟩ := t
  cases n with
  | zero => exact rfl
  | succ n => exact (dif_pos h0).trans ((dif_neg h1).trans rfl)

/-- `outsAt` at offset 1: the block's product added to what the point before left. -/
theorem outsAt_C (c : Dev nD) (t : Fin cfg0.N) (h0 : ¬t.val % 3 = 0) (h2 : ¬t.val % 3 = 2) :
    outsAt V c t.val t.isLt = (idleOut, sout_C c (grid0.coords t) (ms_0 t) (hs_0 t) (ms_1 t) (hs_1 t) (ms_2 t) (hs_2 t) scM (Memref.isWhole_whole _) (fun h => h0 ((hcond0 t).mp h)) ((hcond1 t).mpr (by have hN : t.val < 192 := lt_of_lt_of_eq t.isLt (show cfg0.N = 192 from N_0); omega)) (fun h => h2 ((hcond2 t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h2).trans rfl)

/-- `outsAt` at offset 2 with the neighbouring block inside: the product added, and the sum stored into the output window. -/
theorem outsAt_D (c : Dev nD) (t : Fin cfg0.N) (h0 : ¬t.val % 3 = 0) (h1 : 1 ≤ t.val / 24 + t.val % 3 ∧ t.val / 24 + t.val % 3 ≤ 8) (h2 : t.val % 3 = 2) :
    outsAt V c t.val t.isLt = (out_D c (grid0.coords t) (ms_0 t) (hs_0 t) (ms_1 t) (hs_1 t) (ms_2 t) (hs_2 t) scM (Memref.isWhole_whole _) (fun h => h0 ((hcond0 t).mp h)) ((hcond1 t).mpr h1) ((hcond2 t).mpr h2) (iblk V c 0 t) (iblk V c 1 t) (outsAt V c (t.val - 1) (Nat.lt_of_le_of_lt (Nat.sub_le _ _) t.isLt)).2,
      sout_D c (grid0.coords t) (ms_0 t) (hs_0 t) (ms_1 t) (hs_1 t) (ms_2 t) (hs_2 t) scM (Memref.isWhole_whole _) (fun h => h0 ((hcond0 t).mp h)) ((hcond1 t).mpr h1) ((hcond2 t).mpr h2) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans ((dif_pos h1).trans rfl))

/-- `outsAt` at offset 2 with the neighbouring block outside: the accumulator, left as the point before left it, stored into
    the output window. -/
theorem outsAt_E (c : Dev nD) (t : Fin cfg0.N) (h0 : ¬t.val % 3 = 0) (h1 : ¬(1 ≤ t.val / 24 + t.val % 3 ∧ t.val / 24 + t.val % 3 ≤ 8)) (h2 : t.val % 3 = 2) :
    outsAt V c t.val t.isLt = (out_E c (grid0.coords t) (ms_0 t) (hs_0 t) (ms_1 t) (hs_1 t) (ms_2 t) (hs_2 t) scM (Memref.isWhole_whole _) (fun h => h0 ((hcond0 t).mp h)) (fun h => h1 ((hcond1 t).mp h)) ((hcond2 t).mpr h2) (iblk V c 0 t) (iblk V c 1 t) (outsAt V c (t.val - 1) (Nat.lt_of_le_of_lt (Nat.sub_le _ _) t.isLt)).2,
      (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans ((dif_neg h1).trans rfl))

/-! ## The region's invariant -/

/-- Before position `n`: before an offset-0 point (and after the last point) the class's invariant (every scoped buffer the
    pipeline does not stage at anything, the generator register at some state); before an offset-1 or offset-2 point, the
    same with the accumulator at what the point before left. -/
def PhiS (c : Dev nD) : (n : ℕ) → n ≤ cfg0.N → sProp 𝕄
  | 0, _ => Pipeline.ΦA spec0 c
  | n + 1, hn => if (n + 1) % 3 = 0 then Pipeline.ΦA spec0 c
      else iprop(restWith c (owns (c : Thread nD τ) scM fullShare ((outsAt V c n hn).2)) ∗ (∃ r, prngReg c r))

theorem PhiS_first (c : Dev nD) (n : ℕ) (h : n ≤ cfg0.N) (hz : n % 3 = 0) : PhiS V c n h = Pipeline.ΦA spec0 c := by
  cases n with
  | zero => rfl
  | succ n => exact if_pos hz

theorem PhiS_succ (c : Dev nD) (n : ℕ) (hn : n < cfg0.N) (hz : ¬(n + 1) % 3 = 0) :
    PhiS V c (n + 1) hn = iprop(restWith c (owns (c : Thread nD τ) scM fullShare ((outsAt V c n hn).2)) ∗ (∃ r, prngReg c r)) :=
  if_neg hz

theorem PhiS_inside (c : Dev nD) (n : ℕ) (h : n ≤ cfg0.N) (hz : ¬n % 3 = 0) :
    PhiS V c n h = iprop(restWith c (owns (c : Thread nD τ) scM fullShare ((outsAt V c (n - 1) (by omega)).2)) ∗ (∃ r, prngReg c r)) := by
  cases n with
  | zero => exact absurd (Nat.zero_mod _) hz
  | succ n => exact if_neg hz

/-! ## The pipeline's proof data -/

/-- The proof data of the first pallas_call's pipeline on core `c`: the arrays as the region finds them; after the body at a
    point each input's buffer at its block and the output's at `outsAt`'s first component; the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

end Cert.Kernel.R0

end
-- ==== Proof.KB.R0Body.lean ====
/-
  The banded product's body obligation: at every point of the 8 × 8 × 3 grid the body, run on the windows' current staging
  buffers and the accumulator as the region's invariant hands it, returns the invariant at the next point and every window's
  buffer at what the proof data says it then holds.  One run per control case (offset 0 with the neighbouring block inside
  or outside, offset 1, offset 2 with the neighbouring block inside or outside), selected by the closed forms of the
  body's three conditions.
-/
import proofs.«167009_j2078764171786_2_alg».proof.Proof.KB.R0Outs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`: the invariant, what the core owes, and each window's current staging buffer. -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point.  The inputs' staging buffers hold their blocks; the closed forms of the three conditions say which
    of the five cases the point is in.  At offset 0 the invariant hands the accumulator at anything and takes it back at
    the point's contents; at offset 1 it hands it at what the point before left and takes it back at the point's contents; at
    offset 2 it hands it at what the point before left and takes it back at anything, the output's staging buffer being
    covered by the stored pieces.  Where nothing is stored into the output window, its buffer is handed back as found. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, Phi_castSucc V c t]
  have hN : t.val < 192 := lt_of_lt_of_eq t.isLt (show cfg0.N = 192 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 3 = 0
  · have hnc2 : ¬cond2 (grid0.coords t) := fun h => absurd ((hcond2 t).mp h) (by omega)
    rw [Dat.leavesExact_idle (dat V c) 2 t (idleAt_2 t hnc2) (noFlush_2 t hnc2)]
    rw [PhiS_first V c _ _ h0, PhiA_eq, PhiS_succ V c _ _ (by omega)]
    by_cases h1 : 1 ≤ t.val / 24 + t.val % 3 ∧ t.val / 24 + t.val % 3 ≤ 8
    · rw [outsAt_A V c t h0 h1]
      unfold sout_A; (try dsimp only)
      iintro ⟨⟨⟨HS, HR⟩, Hg⟩, Ho, ⟨%d0, H0⟩, ⟨%d1, H1⟩, ⟨%d2, H2⟩⟩
      iapply ((kernelRun_A c (grid0.coords t) _ _ _ _ _ _ _ _ ((hcond0 t).mpr h0) ((hcond1 t).mpr h1) hnc2 (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_A c _ _ _ _ _ _ _ _ _ _ _ _ _ _)
          iexact HR
        iexact Hg
      isplitl [Ho]; · iexact Ho
      isplitl [H0]; · iexact H0
      isplitl [H1]; · iexact H1
      iexists _; iexact H2
    · rw [outsAt_B V c t h0 h1]
      unfold sout_B; (try dsimp only)
      iintro ⟨⟨⟨HS, HR⟩, Hg⟩, Ho, ⟨%d0, H0⟩, ⟨%d1, H1⟩, ⟨%d2, H2⟩⟩
      iapply ((kernelRun_B c (grid0.coords t) _ _ _ _ _ _ _ _ ((hcond0 t).mpr h0) (fun h => h1 ((hcond1 t).mp h)) hnc2 (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2
  · by_cases h2 : t.val % 3 = 2
    · have hc2 : cond2 (grid0.coords t) := (hcond2 t).mpr h2
      rw [show (dat V c).leavesExact 2 t = owns (c : Thread nD τ) (ms_2 t) fullShare ((dat V c).after 2 t) from by
        unfold Dat.leavesExact; rw [liveAt_2 t hc2], after_2]
      rw [PhiS_inside V c _ _ h0, PhiS_first V c _ _ (by omega : (t.val + 1) % 3 = 0), PhiA_eq]
      by_cases h1 : 1 ≤ t.val / 24 + t.val % 3 ∧ t.val / 24 + t.val % 3 ≤ 8
      · rw [outsAt_D V c t h0 h1 h2]
        unfold out_D; (try dsimp only)
        iintro ⟨⟨⟨HS, HR⟩, Hg⟩, Ho, ⟨%d0, H0⟩, ⟨%d1, H1⟩, ⟨%d2, H2⟩⟩
        iapply ((kernelRun_D c (grid0.coords t) _ _ _ _ _ _ _ _ (fun h => h0 ((hcond0 t).mp h)) ((hcond1 t).mpr h1) hc2 (iblk V c 0 t) (iblk V c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS HR Hg]
        · isplitl [HS HR]
          · isplitl [HS]
            · iexists _; unfold owns; iexists _; isplitr
              swap; · iexact HS
              ipureintro; rfl
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover_D c _ _ _ _ _ _ _ _ _ _ _ _ _ _ _)
      · rw [outsAt_E V c t h0 h1 h2]
        unfold out_E; (try dsimp only)
        iintro ⟨⟨⟨HS, HR⟩, Hg⟩, Ho, ⟨%d0, H0⟩, ⟨%d1, H1⟩, ⟨%d2, H2⟩⟩
        iapply ((kernelRun_E c (grid0.coords t) _ _ _ _ _ _ _ _ (fun h => h0 ((hcond0 t).mp h)) (fun h => h1 ((hcond1 t).mp h)) hc2 (iblk V c 0 t) (iblk V c 1 t) _).2 Set.univ _)
        isplitl [H0]; · iexact H0
        isplitl [H1]; · iexact H1
        isplitl [H2]; · iexists _; iexact H2
        isplitl [HS]; · iexact HS
        iintro ⟨H0, H1, ⟨%e2, H2⟩, HS⟩
        isplitl [HS HR Hg]
        · isplitl [HS HR]
          · isplitl [HS]
            · iexists _; iexact HS
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover_E c _ _ _ _ _ _ _ _ _ _ _ _ _ _ _)
    · have hnc2 : ¬cond2 (grid0.coords t) := fun h => h2 ((hcond2 t).mp h)
      rw [Dat.leavesExact_idle (dat V c) 2 t (idleAt_2 t hnc2) (noFlush_2 t hnc2)]
      rw [PhiS_inside V c _ _ h0, PhiS_succ V c _ _ (by omega)]
      rw [outsAt_C V c t h0 h2]
      unfold sout_C; (try dsimp only)
      iintro ⟨⟨⟨HS, HR⟩, Hg⟩, Ho, ⟨%d0, H0⟩, ⟨%d1, H1⟩, ⟨%d2, H2⟩⟩
      iapply ((kernelRun_C c (grid0.coords t) _ _ _ _ _ _ _ _ (fun h => h0 ((hcond0 t).mp h)) ((hcond1 t).mpr (by omega)) hnc2 (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_C c _ _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_first V c 0 _ (Nat.zero_mod _)]
  try exact Idealize.SL.BI.Entails.refl _

/-- After the last point (an offset-2 point: the number of points is a multiple of 3) the invariant is the class's again. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_first V c _ _ (by rw [Fin.val_last]; have : cfg0.N = 192 := N_0; omega)]
  try exact Idealize.SL.BI.Entails.refl _

end Cert.Kernel.R0

end
-- ==== Proof.KB.R1Kit.lean ====
/-
  The second pallas_call (the dense product  out = A · T, accumulated over 8 blocks of the contracted axis), seen from any
  contents `V` of the core's buffers at the region's entry: each window's block at a grid point, the branch conditions of the
  body in closed form over the 32 × 8 grid (the accumulator is cleared at the first block of a row of the grid and the
  output stored at the last), where the output window is idle, and the staging and scratch memrefs the body is run on.
-/
import proofs.«167009_j2078764171786_2_alg».proof.Proof.Gen.Kernel.Launch
import proofs.«167009_j2078764171786_2_alg».proof.Proof.Gen.Kernel.Skeleton
import proofs.«167009_j2078764171786_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is `V`'s and
    whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The accumulator is cleared: the contraction's block index (grid coordinate 1) is 0. -/
abbrev cond0 (i : grid1.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg1.N, cond0 (grid1.coords t) ↔ t.val % 8 = 0 :=
  (by decide +kernel : ∀ t : Fin grid1.N, cond0 (grid1.coords t) ↔ t.val % 8 = 0)

/-- The output is stored: the contraction's block index is the last, 7. -/
abbrev cond1 (i : grid1.Coords) : Prop := k1_cond2 i = 1#1
/-- It holds at the points ≡ 7 (mod 8). -/
theorem hcond1 : ∀ t : Fin cfg1.N, cond1 (grid1.coords t) ↔ t.val % 8 = 7 :=
  (by decide +kernel : ∀ t : Fin grid1.N, cond1 (grid1.coords t) ↔ t.val % 8 = 7)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
/-- Where the output is not stored the output window is idle, and its block is not written back there. -/
theorem idleAt_2 : ∀ t : Fin cfg1.N, ¬cond1 (grid1.coords t) → cfg1.idle 2 (grid1.coords t) = true := by decide +kernel
theorem noFlush_2 : ∀ t : Fin cfg1.N, ¬cond1 (grid1.coords t) → (cfg1.win 2).flush t = false := by decide +kernel
theorem liveAt_2 : ∀ t : Fin cfg1.N, cond1 (grid1.coords t) → cfg1.idle 2 (grid1.coords t) = false := by decide +kernel

/-! ## The memrefs the body is run on -/

/-- One staging buffer of the output window, through which its contents are stated. -/
abbrev VO : View sig .tc .vmem S256x4096 .f32 := (Memref.whole cc1_stg2_0 : Memref sig .tc .vmem S256x4096 .f32).view
abbrev ms_0 (t : Fin cfg1.N) : Memref sig .tc .vmem S256x512 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S512x4096 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S256x4096 .f32 := win1_2.stage (cfg1.slots t 2)
abbrev hs_2 (t : Fin cfg1.N) : (ms_2 t).IsWhole := hstage1_2 ((cfg1.slots t 2).cast nbuf1_2)
/-- The accumulator: a whole scoped buffer of the kernel's own, carried between points. -/
abbrev scM : Memref sig .tc .vmem S256x4096 .f32 := Memref.whole cc1_scratch0
abbrev VS : View sig .tc .vmem S256x4096 .f32 := scM.view

/-- The core's scoped buffers that are neither a staging buffer of this call nor its accumulator (the first call's staging buffers
    and accumulator), each whole at some contents, in front of a last conjunct `S` (the accumulator's). -/
abbrev restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ S)

/-- The region's invariant with the accumulator as a memref owned at some contents. -/
theorem PhiA_eq (c : Dev nD) :
    (Pipeline.ΦA spec1 c : sProp 𝕄)
      = iprop(restWith c iprop(∃ d, owns (c : Thread nD τ) scM fullShare d) ∗ (∃ r, prngReg c r)) := by
  unfold Pipeline.ΦA; rw [scopedRest1_eq]; simp only [scM, owns_whole]; try rfl

end Cert.Kernel.R1

end
-- ==== Proof.KB.R1RunA.lean ====
/-
  The dense product's body run over a symbolic grid point in one of its three control cases (the run finds the pieces the
  body's stores leave in the accumulator and, where it stores it, in the output's staging buffer).
-/
import proofs.«167009_j2078764171786_2_alg».proof.Proof.KB.R1Kit

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: the contraction's first block: the accumulator is cleared, then the block's product added; the output window is passed through untouched. The accumulator may hold anything before. -/
noncomputable def kernelRun_A (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : cond0 i) (hc1 : ¬cond1 i)
    (x0 : Vec F S256x512 .f32) (x1 : Vec F S512x4096 .bf16) :
    { LS : List (View.Piece (Elt F) S256x4096 .f32) //
      ∀ (y2 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare y2 ∗ (∃ d, owns (c : Thread nD τ) arg5 fullShare d)
            ∗ (iprop(owns (c : Thread nD τ) arg2 fullShare x0 ∗ owns (c : Thread nD τ) arg3 fullShare x1 ∗ owns (c : Thread nD τ) arg4 fullShare y2 ∗ (∃ f, arg5.view.loc (c : Thread nD τ) ↦[arg5.view.set]{fullShare} arg5.view.writes (Elt F) f LS)) -∗ K ⟨⟩))
          ⊢ wp frame (wpE (defs₀ (F := F)) Variants.none c none) E (cc1__dense_out_kernel i arg2 harg2 arg3 harg3 arg4 harg4 arg5 harg5) K } := by
  refine ⟨?_, fun y2 E K => ?run⟩
  case run =>
    simp only [cc1__dense_out_kernel_eq_skeleton]; unfold cc1__dense_out_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists f2; isplitr; · ipureintro; exact hf2
      iexact H2
    iexists _; iexact HS

end Cert.Kernel.R1

end
-- ==== Proof.KB.R1RunB.lean ====
/-
  The dense product's body run over a symbolic grid point in one of its three control cases (the run finds the pieces the
  body's stores leave in the accumulator and, where it stores it, in the output's staging buffer).
-/
import proofs.«167009_j2078764171786_2_alg».proof.Proof.KB.R1RunA

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: a middle block: the product is added to what the point before left (`xs`); the output window is passed through untouched. -/
noncomputable def kernelRun_B (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : ¬cond1 i)
    (x0 : Vec F S256x512 .f32) (x1 : Vec F S512x4096 .bf16) (xs : Vec F S256x4096 .f32) :
    { LS : List (View.Piece (Elt F) S256x4096 .f32) //
      ∀ (y2 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare xs
            ∗ (iprop(owns (c : Thread nD τ) arg2 fullShare x0 ∗ owns (c : Thread nD τ) arg3 fullShare x1 ∗ owns (c : Thread nD τ) arg4 fullShare y2 ∗ (∃ f, arg5.view.loc (c : Thread nD τ) ↦[arg5.view.set]{fullShare} arg5.view.writes (Elt F) f LS)) -∗ K ⟨⟩))
          ⊢ wp frame (wpE (defs₀ (F := F)) Variants.none c none) E (cc1__dense_out_kernel i arg2 harg2 arg3 harg3 arg4 harg4 arg5 harg5) K } := by
  refine ⟨?_, fun y2 E K => ?run⟩
  case run =>
    simp only [cc1__dense_out_kernel_eq_skeleton]; unfold cc1__dense_out_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists f2; isplitr; · ipureintro; exact hf2
      iexact H2
    iexists _; iexact HS

end Cert.Kernel.R1

end
-- ==== Proof.KB.R1RunC.lean ====
/-
  The dense product's body run over a symbolic grid point in one of its three control cases (the run finds the pieces the
  body's stores leave in the accumulator and, where it stores it, in the output's staging buffer).
-/
import proofs.«167009_j2078764171786_2_alg».proof.Proof.KB.R1RunB

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: the last block: the product is added to what the point before left (`xs`), then the accumulator is stored into the output window. -/
noncomputable def kernelRun_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : cond1 i)
    (x0 : Vec F S256x512 .f32) (x1 : Vec F S512x4096 .bf16) (xs : Vec F S256x4096 .f32) :
    Σ' (L2 : List (View.Piece (Elt F) S256x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__dense_out_kernel i arg2 harg2 arg3 harg3 arg4 harg4 arg5 harg5) K } := by
  refine ⟨?_, ?_, fun E K => ?run⟩
  case run =>
    simp only [cc1__dense_out_kernel_eq_skeleton]; unfold cc1__dense_out_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.Kernel.R1

end
-- ==== Proof.KB.R1Outs.lean ====
/-
  What the dense product leaves, case by case and point by point.  Per control case: the accumulator's contents after the body
  (its pieces read back; they tile the buffer, so they cover it) and, in the storing case, the output's staging buffer.  Point by
  point (`outsAt`): the pair (output staging buffer, accumulator) after the body at position `n` of the grid's walk, by
  recursion on `n` — the first block of a row of the grid starts from a cleared accumulator, every other block from what
  the point before left.  Then the region's invariant (the accumulator is tracked from the first block of a row to the last
  and forgotten across rows) and the pipeline's proof data.
-/
import proofs.«167009_j2078764171786_2_alg».proof.Proof.KB.R1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Per case -/

theorem scover_A (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : cond0 i) (hc1 : ¬cond1 i) (x0 : Vec F S256x512 .f32) (x1 : Vec F S512x4096 .bf16) (y : S256x4096.Idx) :
    ∃ pc ∈ (kernelRun_A c i arg2 harg2 arg3 harg3 arg4 harg4 arg5 harg5 hc0 hc1 x0 x1).1, y ∈ pc.1.set :=
  View.cover_of_tiledL (kernelRun_A c i arg2 harg2 arg3 harg3 arg4 harg4 arg5 harg5 hc0 hc1 x0 x1).1 S256x4096.size (by sl_kernel_rfl) y

/-- What case A leaves in the accumulator. -/
def sout_A (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : cond0 i) (hc1 : ¬cond1 i) (x0 : Vec F S256x512 .f32) (x1 : Vec F S512x4096 .bf16) : Vec F S256x4096 .f32 :=
  VS.read (Elt F) (VS.writes (Elt F) VS.junk (kernelRun_A c i arg2 harg2 arg3 harg3 arg4 harg4 arg5 harg5 hc0 hc1 x0 x1).1)

theorem scover_B (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : ¬cond1 i) (x0 : Vec F S256x512 .f32) (x1 : Vec F S512x4096 .bf16) (xs : Vec F S256x4096 .f32) (y : S256x4096.Idx) :
    ∃ pc ∈ (kernelRun_B c i arg2 harg2 arg3 harg3 arg4 harg4 arg5 harg5 hc0 hc1 x0 x1 xs).1, y ∈ pc.1.set :=
  View.cover_of_tiledL (kernelRun_B c i arg2 harg2 arg3 harg3 arg4 harg4 arg5 harg5 hc0 hc1 x0 x1 xs).1 S256x4096.size (by sl_kernel_rfl) y

/-- What case B leaves in the accumulator. -/
def sout_B (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : ¬cond1 i) (x0 : Vec F S256x512 .f32) (x1 : Vec F S512x4096 .bf16) (xs : Vec F S256x4096 .f32) : Vec F S256x4096 .f32 :=
  VS.read (Elt F) (VS.writes (Elt F) VS.junk (kernelRun_B c i arg2 harg2 arg3 harg3 arg4 harg4 arg5 harg5 hc0 hc1 x0 x1 xs).1)

theorem cover_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : cond1 i) (x0 : Vec F S256x512 .f32) (x1 : Vec F S512x4096 .bf16) (xs : Vec F S256x4096 .f32) (y : S256x4096.Idx) :
    ∃ pc ∈ (kernelRun_C c i arg2 harg2 arg3 harg3 arg4 harg4 arg5 harg5 hc0 hc1 x0 x1 xs).1, y ∈ pc.1.set :=
  View.cover_of_tiledL (kernelRun_C c i arg2 harg2 arg3 harg3 arg4 harg4 arg5 harg5 hc0 hc1 x0 x1 xs).1 S256x4096.size (by sl_kernel_rfl) y

/-- What case C leaves in the output window's staging buffer. -/
def out_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : cond1 i) (x0 : Vec F S256x512 .f32) (x1 : Vec F S512x4096 .bf16) (xs : Vec F S256x4096 .f32) : Vec F S256x4096 .f32 :=
  VO.read (Elt F) (VO.writes (Elt F) VO.junk (kernelRun_C c i arg2 harg2 arg3 harg3 arg4 harg4 arg5 harg5 hc0 hc1 x0 x1 xs).1)

theorem scover_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : cond1 i) (x0 : Vec F S256x512 .f32) (x1 : Vec F S512x4096 .bf16) (xs : Vec F S256x4096 .f32) (y : S256x4096.Idx) :
    ∃ pc ∈ (kernelRun_C c i arg2 harg2 arg3 harg3 arg4 harg4 arg5 harg5 hc0 hc1 x0 x1 xs).2.1, y ∈ pc.1.set :=
  View.cover_of_tiledL (kernelRun_C c i arg2 harg2 arg3 harg3 arg4 harg4 arg5 harg5 hc0 hc1 x0 x1 xs).2.1 S256x4096.size (by sl_kernel_rfl) y

/-- What case C leaves in the accumulator. -/
def sout_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : cond1 i) (x0 : Vec F S256x512 .f32) (x1 : Vec F S512x4096 .bf16) (xs : Vec F S256x4096 .f32) : Vec F S256x4096 .f32 :=
  VS.read (Elt F) (VS.writes (Elt F) VS.junk (kernelRun_C c i arg2 harg2 arg3 harg3 arg4 harg4 arg5 harg5 hc0 hc1 x0 x1 xs).2.1)

/-- A placeholder for the output window's staging buffer at the points where the body stores nothing into it (the window is
    idle there and not written back; nothing consults it). -/
def idleOut : Vec F S256x4096 .f32 := VO.read (Elt F) VO.junk

/-! ## Point by point -/

/-- The pair (output staging buffer, accumulator) after the body at position `n`. -/
def outsAt (c : Dev nD) : (n : ℕ) → n < cfg1.N → Vec F S256x4096 .f32 × Vec F S256x4096 .f32
  | 0, hn => (idleOut, sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩))
  | n + 1, hn =>
    if h0 : (n + 1) % 8 = 0 then
      (idleOut, sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩))
    else
      if h1 : (n + 1) % 8 = 7 then
        (out_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (outsAt c n (Nat.lt_of_succ_lt hn)).2,
         sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (outsAt c n (Nat.lt_of_succ_lt hn)).2)
      else
        (idleOut, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (outsAt c n (Nat.lt_of_succ_lt hn)).2)

/-- `outsAt` at a first block: the accumulator cleared, then the block's product. -/
theorem outsAt_A (c : Dev nD) (t : Fin cfg1.N) (h0 : t.val % 8 = 0) (h1 : ¬t.val % 8 = 7) :
    outsAt V c t.val t.isLt = (idleOut, sout_A c (grid1.coords t) (ms_0 t) (hs_0 t) (ms_1 t) (hs_1 t) (ms_2 t) (hs_2 t) scM (Memref.isWhole_whole _) ((hcond0 t).mpr h0) (fun h => h1 ((hcond1 t).mp h)) (iblk V c 0 t) (iblk V c 1 t)) := by
  obtain ⟨n, hn⟩ := t
  cases n with
  | zero => exact rfl
  | succ n => exact (dif_pos h0).trans rfl

/-- `outsAt` at a middle block: the product added to what the point before left. -/
theorem outsAt_B (c : Dev nD) (t : Fin cfg1.N) (h0 : ¬t.val % 8 = 0) (h1 : ¬t.val % 8 = 7) :
    outsAt V c t.val t.isLt = (idleOut, sout_B c (grid1.coords t) (ms_0 t) (hs_0 t) (ms_1 t) (hs_1 t) (ms_2 t) (hs_2 t) scM (Memref.isWhole_whole _) (fun h => h0 ((hcond0 t).mp h)) (fun h => h1 ((hcond1 t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a last block: the product added, and the sum stored into the output window. -/
theorem outsAt_C (c : Dev nD) (t : Fin cfg1.N) (h0 : ¬t.val % 8 = 0) (h1 : t.val % 8 = 7) :
    outsAt V c t.val t.isLt = (out_C c (grid1.coords t) (ms_0 t) (hs_0 t) (ms_1 t) (hs_1 t) (ms_2 t) (hs_2 t) scM (Memref.isWhole_whole _) (fun h => h0 ((hcond0 t).mp h)) ((hcond1 t).mpr h1) (iblk V c 0 t) (iblk V c 1 t) (outsAt V c (t.val - 1) (Nat.lt_of_le_of_lt (Nat.sub_le _ _) t.isLt)).2,
      sout_C c (grid1.coords t) (ms_0 t) (hs_0 t) (ms_1 t) (hs_1 t) (ms_2 t) (hs_2 t) scM (Memref.isWhole_whole _) (fun h => h0 ((hcond0 t).mp h)) ((hcond1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first block of a row of the grid (and after the last point) the class's invariant (every scoped
    buffer the pipeline does not stage at anything, the generator register at some state); inside a row, the same with the
    accumulator at what the point before left. -/
def PhiS (c : Dev nD) : (n : ℕ) → n ≤ cfg1.N → sProp 𝕄
  | 0, _ => Pipeline.ΦA spec1 c
  | n + 1, hn => if (n + 1) % 8 = 0 then Pipeline.ΦA spec1 c
      else iprop(restWith c (owns (c : Thread nD τ) scM fullShare ((outsAt V c n hn).2)) ∗ (∃ r, prngReg c r))

theorem PhiS_first (c : Dev nD) (n : ℕ) (h : n ≤ cfg1.N) (hz : n % 8 = 0) : PhiS V c n h = Pipeline.ΦA spec1 c := by
  cases n with
  | zero => rfl
  | succ n => exact if_pos hz

theorem PhiS_succ (c : Dev nD) (n : ℕ) (hn : n < cfg1.N) (hz : ¬(n + 1) % 8 = 0) :
    PhiS V c (n + 1) hn = iprop(restWith c (owns (c : Thread nD τ) scM fullShare ((outsAt V c n hn).2)) ∗ (∃ r, prngReg c r)) :=
  if_neg hz

theorem PhiS_inside (c : Dev nD) (n : ℕ) (h : n ≤ cfg1.N) (hz : ¬n % 8 = 0) :
    PhiS V c n h = iprop(restWith c (owns (c : Thread nD τ) scM fullShare ((outsAt V c (n - 1) (by omega)).2)) ∗ (∃ r, prngReg c r)) := by
  cases n with
  | zero => exact absurd (Nat.zero_mod _) hz
  | succ n => exact if_neg hz

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

end Cert.Kernel.R1

end
-- ==== Proof.KB.R1Body.lean ====
/-
  The dense product's body meets the pipeline's obligation at every point of the 32 × 8 grid, whatever the core's buffers hold
  at the region's entry.  At a point the two input windows' staging buffers hold their blocks; the point's position in its row
  of the grid (first block, a middle block, last block) selects the body's control case, whose run applies: the invariant hands
  the body the accumulator (at anything at a first block, at what the point before left otherwise), and takes it back at this
  point's contents — or, after a last block, at anything: the next row starts by clearing it.  The output window is idle and
  handed back untouched except at a last block, where it ends at the stored sum.
-/
import proofs.«167009_j2078764171786_2_alg».proof.Proof.KB.R1Outs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`: the invariant, the core's dues, each window's current staging buffer. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point, by the point's position in its row of the grid. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl]
  have hN : t.val < 256 := lt_of_lt_of_eq t.isLt (show cfg1.N = 256 from N_1)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 8 = 0
  · -- a first block: the accumulator is cleared
    have h1 : ¬t.val % 8 = 7 := by omega
    have hc0 : cond0 (grid1.coords t) := (hcond0 t).mpr h0
    have hc1 : ¬cond1 (grid1.coords t) := fun h => h1 ((hcond1 t).mp h)
    rw [Dat.leavesExact_idle (dat V c) 2 t (idleAt_2 t hc1) (noFlush_2 t hc1)]
    rw [PhiS_succ V c t.val t.isLt (by omega), outsAt_A V c t h0 h1]
    unfold sout_A; (try dsimp only)
    rw [Phi_castSucc V c t, PhiS_first V c _ _ h0, PhiA_eq]
    iintro ⟨⟨⟨R0, R1, R2, R3, R4, R5, R6, HS⟩, Hg⟩, Ho, ⟨%d0, H0⟩, ⟨%d1, H1⟩, ⟨%d2, H2⟩⟩
    iapply ((kernelRun_A c (grid1.coords t) _ _ _ _ _ _ _ _ hc0 hc1 (iblk V c 0 t) (iblk V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [R0 R1 R2 R3 R4 R5 R6 HS Hg]
    · isplitr [Hg]
      · isplitl [R0]; · iexact R0
        isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS
        ipureintro; exact View.read_writes_of_cover _ _ _ _ _ (scover_A c _ _ _ _ _ _ _ _ _ _ _ _ _)
      · iexact Hg
    isplitl [Ho]; · iexact Ho
    isplitl [H0]; · iexact H0
    isplitl [H1]; · iexact H1
    iexists _; iexact H2
  · by_cases h1 : t.val % 8 = 7
    · -- a last block: the sum is stored into the output window
      have hc0 : ¬cond0 (grid1.coords t) := fun h => h0 ((hcond0 t).mp h)
      have hc1 : cond1 (grid1.coords t) := (hcond1 t).mpr h1
      rw [show (dat V c).leavesExact 2 t = owns (c : Thread nD τ) (ms_2 t) fullShare ((dat V c).after 2 t) from by
        unfold Dat.leavesExact; rw [liveAt_2 t hc1], after_2]
      rw [outsAt_C V c t h0 h1]
      unfold out_C; (try dsimp only)
      rw [PhiS_first V c (t.val + 1) t.isLt (by omega), PhiA_eq]
      rw [Phi_castSucc V c t, PhiS_inside V c _ _ h0]
      iintro ⟨⟨⟨R0, R1, R2, R3, R4, R5, R6, HS⟩, Hg⟩, Ho, ⟨%d0, H0⟩, ⟨%d1, H1⟩, ⟨%d2, H2⟩⟩
      iapply ((kernelRun_C c (grid1.coords t) _ _ _ _ _ _ _ _ hc0 hc1 (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [R0 R1 R2 R3 R4 R5 R6 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          iexists _; unfold owns; iexists _; isplitr
          swap; · iexact HS
          ipureintro; rfl
        · iexact Hg
      isplitl [Ho]; · iexact Ho
      isplitl [H0]; · iexact H0
      isplitl [H1]; · iexact H1
      unfold owns; iexists _; isplitr
      swap; · iexact H2
      ipureintro; exact View.read_writes_of_cover _ _ _ _ _ (cover_C c _ _ _ _ _ _ _ _ _ _ _ _ _ _)
    · -- a middle block: the product is added to what the point before left
      have hc0 : ¬cond0 (grid1.coords t) := fun h => h0 ((hcond0 t).mp h)
      have hc1 : ¬cond1 (grid1.coords t) := fun h => h1 ((hcond1 t).mp h)
      rw [Dat.leavesExact_idle (dat V c) 2 t (idleAt_2 t hc1) (noFlush_2 t hc1)]
      rw [PhiS_succ V c t.val t.isLt (by omega), outsAt_B V c t h0 h1]
      unfold sout_B; (try dsimp only)
      rw [Phi_castSucc V c t, PhiS_inside V c _ _ h0]
      iintro ⟨⟨⟨R0, R1, R2, R3, R4, R5, R6, HS⟩, Hg⟩, Ho, ⟨%d0, H0⟩, ⟨%d1, H1⟩, ⟨%d2, H2⟩⟩
      iapply ((kernelRun_B c (grid1.coords t) _ _ _ _ _ _ _ _ hc0 hc1 (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [R0 R1 R2 R3 R4 R5 R6 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS
          ipureintro; exact View.read_writes_of_cover _ _ _ _ _ (scover_B c _ _ _ _ _ _ _ _ _ _ _ _ _ _)
        · iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_first V c 0 _ rfl]
  try exact Idealize.SL.BI.Entails.refl _

/-- After the last point the invariant is the launch's again: the grid ends on a last block, after which the accumulator is
    held at anything. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_first V c _ _ (show (Fin.last cfg1.N).val % 8 = 0 from by rw [Fin.val_last]; have : cfg1.N = 256 := N_1; omega)]
  try exact Idealize.SL.BI.Entails.refl _

end Cert.Kernel.R1

end
-- ==== Proof.KB.Whole.lean ====
/-
  The whole program from its two regions.  @main is three stretches of host operations (they build the weight matrix), the
  banded product's region and the dense product's region.  Given, per region and for ANY contents `V` of the core's buffers at the
  region's entry, proof data whose arrays are `V`'s, the body obligation at every grid point, and the region's invariant
  entered from and left at the class's invariant (every scoped buffer the pipeline does not stage at anything, the generator
  register at some state), every weakly fair execution of @main terminates, nothing faulting, and every unscoped buffer ends at
  the contents the fold below names: the launch memory, then each host stretch, then each region's arrays at what the
  pipeline leaves (the inputs as entered, each output's write-backs folded).
-/
import proofs.«167009_j2078764171786_2_alg».proof.Proof.Gen.Kernel.Launch
import proofs.«167009_j2078764171786_2_alg».proof.Proof.Gen.Kernel.Skeleton
import proofs.«167009_j2078764171786_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167009_j2078764171786_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (D0 : (V : (c : Dev nD) → (b : Ref sig .tc) → Buf (Elt F) ((c : Thread nD τ).loc b)) → (c : Dev nD) → Dat τ (Elt F) Unit ℕ (UR sig nD τ) ℕ cfg0 c)
variable (D1 : (V : (c : Dev nD) → (b : Ref sig .tc) → Buf (Elt F) ((c : Thread nD τ).loc b)) → (c : Dev nD) → Dat τ (Elt F) Unit ℕ (UR sig nD τ) ℕ cfg1 c)
variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the three host stretches (region 0's entry). -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (D0 (V3 m ρ) c).arrAt w cfg0.N
theorem W4_arr (c : Dev nD) (w : Fin cfg0.W) :
    W4 D0 m ρ c (Proc.devRef .tc (Pipeline.arrRef spec0 w)) = (D0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 D0 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 D0 m ρ c b
theorem hF0 (c : Dev nD) (w : Fin cfg0.W) : (D0 (V3 m ρ) c).arrAt w cfg0.N = V4 D0 m ρ c (Pipeline.arrRef spec0 w) :=
  (W4_arr D0 m ρ c w).symm
theorem hrest0 (c : Dev nD) : ∀ b, b ∉ Finset.univ.image (Pipeline.arrRef spec0) → V4 D0 m ρ c b = V3 m ρ c b :=
  fun b hb => W4_of_ne D0 m ρ c b fun w e => hb (Finset.mem_image.mpr ⟨w, Finset.mem_univ _, e⟩)
/-- At region 1's exit: its arrays at what the pipeline leaves, every other buffer as entered. -/
def W5 (c : Dev nD) : Valuation τ sig (Elt F) :=
  Pipeline.withArrays spec1 c (W4 D0 m ρ c) fun w => (D1 (V4 D0 m ρ) c).arrAt w cfg1.N
theorem W5_arr (c : Dev nD) (w : Fin cfg1.W) :
    W5 D0 D1 m ρ c (Proc.devRef .tc (Pipeline.arrRef spec1 w)) = (D1 (V4 D0 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 D0 D1 m ρ c (Proc.devRef .tc b) = W4 D0 m ρ c (Proc.devRef .tc b) := by
  unfold W5; exact Pipeline.withArrays_of_ne spec1 c _ _ b hb
abbrev V5 : (c : Dev nD) → (b : Ref sig .tc) → Buf (Elt F) ((c : Thread nD τ).loc b) := fun c b => W5 D0 D1 m ρ c b
theorem hF1 (c : Dev nD) (w : Fin cfg1.W) : (D1 (V4 D0 m ρ) c).arrAt w cfg1.N = V5 D0 D1 m ρ c (Pipeline.arrRef spec1 w) :=
  (W5_arr D0 D1 m ρ c w).symm
theorem hrest1 (c : Dev nD) : ∀ b, b ∉ Finset.univ.image (Pipeline.arrRef spec1) → V5 D0 D1 m ρ c b = V4 D0 m ρ c b :=
  fun b hb => W5_of_ne D0 D1 m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => D0 (V3 m ρ) c
  | ⟨1, _⟩ => fun c => D1 (V4 D0 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 D0 D1 m ρ c) ∗ ∃ r, prngReg c r)

/-! ## The regions as segments -/

/-- What is asked of the two regions' proof data, for every entry contents `V`. -/
structure Given : Prop where
  hA0 : ∀ V c w, (D0 V c).A w = V c (Pipeline.arrRef spec0 w)
  hq0 : ∀ V c w, (D0 V c).q w = fullShare
  howed0 : ∀ V c t, (D0 V c).owed t = 0
  hrec0 : ∀ V c t, (D0 V c).recorded t = Set.univ
  hB0 : ∀ V c, BodyObligation (D0 V c) (defs₀ (F := F)) Variants.none () Set.univ
  hin0 : ∀ V c, (Pipeline.ΦA spec0 c : sProp 𝕄) ⊢ (D0 V c).Φ 0
  hout0 : ∀ V c, (D0 V c).Φ (Fin.last cfg0.N) ⊢ (Pipeline.ΦA spec0 c : sProp 𝕄)
  hA1 : ∀ V c w, (D1 V c).A w = V c (Pipeline.arrRef spec1 w)
  hq1 : ∀ V c w, (D1 V c).q w = fullShare
  howed1 : ∀ V c t, (D1 V c).owed t = 0
  hrec1 : ∀ V c t, (D1 V c).recorded t = Set.univ
  hB1 : ∀ V c, BodyObligation (D1 V c) (defs₀ (F := F)) Variants.none () Set.univ
  hin1 : ∀ V c, (Pipeline.ΦA spec1 c : sProp 𝕄) ⊢ (D1 V c).Φ 0
  hout1 : ∀ V c, (D1 V c).Φ (Fin.last cfg1.N) ⊢ (Pipeline.ΦA spec1 c : sProp 𝕄)

variable (hG : Given D0 D1)
include hG

set_option backward.isDefEq.respectTransparency.types false in
/-- Region 0's entry: its arrays split out of the unscoped buffers at the entry contents; the generator register goes to the
    invariant, the other unscoped buffers bypass the region, nothing is owed. -/
theorem hentry0 (c : Dev nD) :
    (iprop(iprop(StableHlo.held (c : Thread nD τ) (Pipeline.ucRefs τ sig) (W3 m ρ c) ∗ R c) ∗ Pipeline.ownSems0 (fun k : PEmpty => k.elim) c ∗ levAts L lv) : sProp 𝕄)
      ⊢ |={Set.univ}=> iprop((pdats D0 D1 m ρ 0 c).arrays ((pdats D0 D1 m ρ 0 c).arrAt · 0) ∗ Pipeline.prefHeld (pcfgs (F := F) 0).pre c (fun _ => fullShare) (adm 0).1
        ∗ (pdats D0 D1 m ρ 0 c).owesAt () 0 ∗ iprop(∃ r, prngReg c r) ∗ Pipeline.unscopedRest (Ix := Unit) (Name := ℕ) (U := UR sig nD τ) (Lvl := ℕ) spec0 c (V3 m ρ c)) := by
  rw [Pipeline.ownSems0_none]
  have hsplit := Pipeline.arrays_of_unscopedBufs (p := 0) (pcfgs (F := F)) adm (pdats D0 D1 m ρ) launch0.win launch0.arr_whole c
    ((pdats D0 D1 m ρ 0 c).share_full fun w => hG.hq0 _ c w) (V3 m ρ c) fun w => hG.hA0 _ c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    rw [show (pdats D0 D1 m ρ 0 c).owed 0 = 0 from hG.howed0 _ c 0]
    icases HO with ⟨%W, HO⟩; iexists W; isplitr
    · ipureintro; exact fun _ _ => Or.inl (by rw [show (pdats D0 D1 m ρ 0 c).recorded 0 = Set.univ from hG.hrec0 _ c 0]; exact Set.mem_univ _)
    iexact HO
  isplitl [Hp]; · iexact Hp
  iexact Hrest

theorem hinR0 (c : Dev nD) :
    (iprop(iprop(∃ r, prngReg c r) ∗ Pipeline.prefHeld (pcfgs (F := F) 0).pre c (fun _ => fullShare) (adm 0).1 ∗ Pipeline.scopedRest (pcfgs (F := F) 0).spec c) : sProp 𝕄) ⊢ (pdats D0 D1 m ρ 0 c).Φ 0 := by
  have h1 : (iprop(iprop(∃ r, prngReg c r) ∗ Pipeline.prefHeld (pcfgs (F := F) 0).pre c (fun _ => fullShare) (adm 0).1 ∗ Pipeline.scopedRest (pcfgs (F := F) 0).spec c) : sProp 𝕄) ⊢ (Pipeline.ΦA spec0 c : sProp 𝕄) := by
    unfold Pipeline.ΦA
    iintro ⟨Hp, -, Hr⟩
    isplitl [Hr]; · iexact Hr
    iexact Hp
  exact h1.trans (hG.hin0 (V3 m ρ) c)

theorem houtR0 (c : Dev nD) :
    (pdats D0 D1 m ρ 0 c).Φ (Fin.last (Pipeline.pin (pcfgs (F := F)) adm 0).N) ⊢ (iprop(iprop(∃ r, prngReg c r) ∗ Pipeline.ownSems0 (fun k : PEmpty => k.elim) c ∗ Pipeline.scopedRest (pcfgs (F := F) 0).spec c) : sProp 𝕄) := by
  have h1 : (Pipeline.ΦA spec0 c : sProp 𝕄) ⊢ (iprop(iprop(∃ r, prngReg c r) ∗ Pipeline.ownSems0 (fun k : PEmpty => k.elim) c ∗ Pipeline.scopedRest (pcfgs (F := F) 0).spec c) : sProp 𝕄) := by
    rw [Pipeline.ownSems0_none]; unfold Pipeline.ΦA
    iintro ⟨Hr, Hp⟩
    isplitl [Hp]; · iexact Hp
    isplitr; · iempintro
    iexact Hr
  exact (hG.hout0 (V3 m ρ) c).trans h1

set_option backward.isDefEq.respectTransparency.types false in
theorem hexit0 (c : Dev nD) :
    (iprop((pdats D0 D1 m ρ 0 c).arrays ((pdats D0 D1 m ρ 0 c).arrAt · (Pipeline.pin (pcfgs (F := F)) adm 0).N) ∗ (pdats D0 D1 m ρ 0 c).owesAt () (Fin.last (Pipeline.pin (pcfgs (F := F)) adm 0).N) ∗ iprop(∃ r, prngReg c r) ∗ Pipeline.unscopedRest (Ix := Unit) (Name := ℕ) (U := UR sig nD τ) (Lvl := ℕ) spec0 c (V3 m ρ c)) : sProp 𝕄)
      ⊢ |={Set.univ}=> iprop(StableHlo.held (c : Thread nD τ) (Pipeline.ucRefs τ sig) (W4 D0 m ρ c) ∗ R c) := by
  have hjoin := Pipeline.unscopedBufs_of_arrays (p := 0) (pcfgs (F := F)) adm (Ix := Unit) (Name := ℕ) (U := UR sig nD τ) (Lvl := ℕ)
    launch0.win launch0.arr_whole c (pdats D0 D1 m ρ) ((pdats D0 D1 m ρ 0 c).share_full fun w => hG.hq0 _ c w)
    (V3 m ρ c) (V4 D0 m ρ c) ((pdats D0 D1 m ρ 0 c).arrAt · cfg0.N) (hF0 D0 m ρ c) (hrest0 D0 m ρ c)
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  rw [show (pdats D0 D1 m ρ 0 c).owed (Fin.last _) = 0 from hG.howed0 _ c _]
  icases HO with ⟨%W, -, HO⟩; iexists W; iexact HO

/-- Region 0 over the thread state: entered from every unscoped buffer at its entry contents, left at its exit contents; the
    kernel has no semaphore of its own. -/
def reg0 : Pipeline.RegionSeg (pcfgs (F := F)) adm (pdats D0 D1 m ρ) () defs₀ 𝒱₀ L lv 0 where
  win := launch0.win.to₀
  block_pos := launch0.block_pos
  stage_whole := launch0.stage_whole
  K := PEmpty
  osem k := k.elim
  ho := Pipeline.OwnSemFacts.none _
  hbody c := (hG.hB0 (V3 m ρ) c).loose
  hwaits := Pipeline.hwaits_of_owed_zero _ _ _ _ L lv 0 fun c t => hG.howed0 _ c t
  pre c := iprop(StableHlo.held (c : Thread nD τ) (Pipeline.ucRefs τ sig) (W3 m ρ c) ∗ R c)
  post c := iprop(StableHlo.held (c : Thread nD τ) (Pipeline.ucRefs τ sig) (W4 D0 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := hentry0 D0 D1 m ρ hG c
  hin c := hinR0 D0 D1 m ρ hG c
  hout c := houtR0 D0 D1 m ρ hG c
  hexit c := hexit0 D0 D1 m ρ hG c

set_option backward.isDefEq.respectTransparency.types false in
/-- Region 1's entry: its arrays split out of the unscoped buffers at the entry contents; the generator register goes to the
    invariant, the other unscoped buffers bypass the region, nothing is owed. -/
theorem hentry1 (c : Dev nD) :
    (iprop(iprop(StableHlo.held (c : Thread nD τ) (Pipeline.ucRefs τ sig) (W4 D0 m ρ c) ∗ R c) ∗ Pipeline.ownSems0 (fun k : PEmpty => k.elim) c ∗ levAts L lv) : sProp 𝕄)
      ⊢ |={Set.univ}=> iprop((pdats D0 D1 m ρ 1 c).arrays ((pdats D0 D1 m ρ 1 c).arrAt · 0) ∗ Pipeline.prefHeld (pcfgs (F := F) 1).pre c (fun _ => fullShare) (adm 1).1
        ∗ (pdats D0 D1 m ρ 1 c).owesAt () 0 ∗ iprop(∃ r, prngReg c r) ∗ Pipeline.unscopedRest (Ix := Unit) (Name := ℕ) (U := UR sig nD τ) (Lvl := ℕ) spec1 c (V4 D0 m ρ c)) := by
  rw [Pipeline.ownSems0_none]
  have hsplit := Pipeline.arrays_of_unscopedBufs (p := 1) (pcfgs (F := F)) adm (pdats D0 D1 m ρ) launch1.win launch1.arr_whole c
    ((pdats D0 D1 m ρ 1 c).share_full fun w => hG.hq1 _ c w) (V4 D0 m ρ c) fun w => hG.hA1 _ c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    rw [show (pdats D0 D1 m ρ 1 c).owed 0 = 0 from hG.howed1 _ c 0]
    icases HO with ⟨%W, HO⟩; iexists W; isplitr
    · ipureintro; exact fun _ _ => Or.inl (by rw [show (pdats D0 D1 m ρ 1 c).recorded 0 = Set.univ from hG.hrec1 _ c 0]; exact Set.mem_univ _)
    iexact HO
  isplitl [Hp]; · iexact Hp
  iexact Hrest

theorem hinR1 (c : Dev nD) :
    (iprop(iprop(∃ r, prngReg c r) ∗ Pipeline.prefHeld (pcfgs (F := F) 1).pre c (fun _ => fullShare) (adm 1).1 ∗ Pipeline.scopedRest (pcfgs (F := F) 1).spec c) : sProp 𝕄) ⊢ (pdats D0 D1 m ρ 1 c).Φ 0 := by
  have h1 : (iprop(iprop(∃ r, prngReg c r) ∗ Pipeline.prefHeld (pcfgs (F := F) 1).pre c (fun _ => fullShare) (adm 1).1 ∗ Pipeline.scopedRest (pcfgs (F := F) 1).spec c) : sProp 𝕄) ⊢ (Pipeline.ΦA spec1 c : sProp 𝕄) := by
    unfold Pipeline.ΦA
    iintro ⟨Hp, -, Hr⟩
    isplitl [Hr]; · iexact Hr
    iexact Hp
  exact h1.trans (hG.hin1 (V4 D0 m ρ) c)

theorem houtR1 (c : Dev nD) :
    (pdats D0 D1 m ρ 1 c).Φ (Fin.last (Pipeline.pin (pcfgs (F := F)) adm 1).N) ⊢ (iprop(iprop(∃ r, prngReg c r) ∗ Pipeline.ownSems0 (fun k : PEmpty => k.elim) c ∗ Pipeline.scopedRest (pcfgs (F := F) 1).spec c) : sProp 𝕄) := by
  have h1 : (Pipeline.ΦA spec1 c : sProp 𝕄) ⊢ (iprop(iprop(∃ r, prngReg c r) ∗ Pipeline.ownSems0 (fun k : PEmpty => k.elim) c ∗ Pipeline.scopedRest (pcfgs (F := F) 1).spec c) : sProp 𝕄) := by
    rw [Pipeline.ownSems0_none]; unfold Pipeline.ΦA
    iintro ⟨Hr, Hp⟩
    isplitl [Hp]; · iexact Hp
    isplitr; · iempintro
    iexact Hr
  exact (hG.hout1 (V4 D0 m ρ) c).trans h1

set_option backward.isDefEq.respectTransparency.types false in
theorem hexit1 (c : Dev nD) :
    (iprop((pdats D0 D1 m ρ 1 c).arrays ((pdats D0 D1 m ρ 1 c).arrAt · (Pipeline.pin (pcfgs (F := F)) adm 1).N) ∗ (pdats D0 D1 m ρ 1 c).owesAt () (Fin.last (Pipeline.pin (pcfgs (F := F)) adm 1).N) ∗ iprop(∃ r, prngReg c r) ∗ Pipeline.unscopedRest (Ix := Unit) (Name := ℕ) (U := UR sig nD τ) (Lvl := ℕ) spec1 c (V4 D0 m ρ c)) : sProp 𝕄)
      ⊢ |={Set.univ}=> iprop(Tₙ D0 D1 m ρ c ∗ ∃ W, owes (c : Thread nD τ) (0 : CellTallies nD τ sig Unit) W) := by
  have hjoin := Pipeline.unscopedBufs_of_arrays (p := 1) (pcfgs (F := F)) adm (Ix := Unit) (Name := ℕ) (U := UR sig nD τ) (Lvl := ℕ)
    launch1.win launch1.arr_whole c (pdats D0 D1 m ρ) ((pdats D0 D1 m ρ 1 c).share_full fun w => hG.hq1 _ c w)
    (V4 D0 m ρ c) (V5 D0 D1 m ρ c) ((pdats D0 D1 m ρ 1 c).arrAt · cfg1.N) (hF1 D0 D1 m ρ c) (hrest1 D0 D1 m ρ c)
  rw [Pipeline.unscopedBufs_held] at hjoin
  iintro ⟨Ha, HO, HY, Hrest⟩
  imodintro
  isplitl [Ha Hrest HY]
  · isplitl [Ha Hrest]
    · iapply hjoin; isplitl [Ha] <;> iassumption
    iexact HY
  unfold Pipeline.Dat.owesAt Pipeline.owesWithin
  rw [show (pdats D0 D1 m ρ 1 c).owed (Fin.last _) = 0 from hG.howed1 _ c _]
  icases HO with ⟨%W, -, HO⟩; iexists W; iexact HO

/-- Region 1 over the thread state: entered from every unscoped buffer at its entry contents, left at its exit contents; the
    kernel has no semaphore of its own. -/
def reg1 : Pipeline.RegionSeg (pcfgs (F := F)) adm (pdats D0 D1 m ρ) () defs₀ 𝒱₀ L lv 1 where
  win := launch1.win.to₀
  block_pos := launch1.block_pos
  stage_whole := launch1.stage_whole
  K := PEmpty
  osem k := k.elim
  ho := Pipeline.OwnSemFacts.none _
  hbody c := (hG.hB1 (V4 D0 m ρ) c).loose
  hwaits := Pipeline.hwaits_of_owed_zero _ _ _ _ L lv 1 fun c t => hG.howed1 _ c t
  pre c := iprop(StableHlo.held (c : Thread nD τ) (Pipeline.ucRefs τ sig) (W4 D0 m ρ c) ∗ R c)
  post c := iprop(Tₙ D0 D1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 D0 m ρ c)
  hentry c := hentry1 D0 D1 m ρ hG c
  hin c := hinR1 D0 D1 m ρ hG c
  hout c := houtR1 D0 D1 m ρ hG c
  hexit c := hexit1 D0 D1 m ρ hG c

/-! ## @main as segments, and the launch -/

abbrev segs : List (Pipeline.Seg (pcfgs (F := F)) adm (pdats D0 D1 m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 D0 D1 m ρ hG),
    .region (reg1 D0 D1 m ρ hG) ]

theorem main_run (c : Dev nD) : main (F := F) c = Pipeline.Seg.run (segs D0 D1 m ρ hG) := (main_chain c).trans (by chain_rfl)

set_option backward.isDefEq.respectTransparency.types false in
/-- THE RUN: from any memory with zero counters every weakly fair execution of @main on the TensorCores terminates, nothing
    faulting, and every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 D0 D1 m ρ c b) :=
  Pipeline.θ_run_regions_kit (pcfgs (F := F)) adm (pdats D0 D1 m ρ) () cellOf_inj emb₁ defs₀ 𝒱₀ L lv m ρ main (segs D0 D1 m ρ hG)
    (fun c Q => by rw [main_run D0 D1 m ρ hG c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ D0 D1 m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 D0 D1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 D0 D1 m ρ c) s')
      isplitl [Hh] <;> iassumption)
    (hQ := fun s h c => h c)

end
end Cert.Kernel.Whole

end
-- ==== Proof.KB.Frame.lean ====
/-
  The program's run with both regions' proof data in place, and its frame: every weakly fair execution terminates, nothing
  faulting; every unscoped buffer ends at the fold's last contents; and the two argument arrays end as launched — no host
  stretch writes an argument, and a region reads it through an input window (whose array the pipeline leaves as entered) or
  bypasses it.
-/
import proofs.«167009_j2078764171786_2_alg».proof.Proof.KB.R0Body
import proofs.«167009_j2078764171786_2_alg».proof.Proof.KB.R1Body
import proofs.«167009_j2078764171786_2_alg».proof.Proof.KB.Whole

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two regions' proof data meet what the whole run asks of them. -/
theorem given : Given (F := F) (fun V c => R0.dat V c) (fun V c => R1.dat V c) where
  hA0 := R0.A_eq
  hq0 := fun _ _ _ => rfl
  howed0 := fun _ _ _ => rfl
  hrec0 := fun _ _ _ => rfl
  hB0 := R0.body_obligation
  hin0 := R0.hin
  hout0 := R0.hout
  hA1 := R1.A_eq
  hq1 := fun _ _ _ => rfl
  howed1 := fun _ _ _ => rfl
  hrec1 := fun _ _ _ => rfl
  hB1 := R1.body_obligation
  hin1 := R1.hin
  hout1 := R1.hout

/-- Core `c`'s unscoped buffers when the program returns. -/
abbrev Wend (c : Dev nD) : Valuation τ sig (Elt F) := W5 (fun V c => R0.dat V c) (fun V c => R1.dat V c) m ρ c
/-- Core `c`'s buffers at the dense product's entry, read at the TensorCore's references. -/
abbrev Vmid : (c : Dev nD) → (b : Ref sig .tc) → Buf (Elt F) ((c : Thread nD τ).loc b) := V4 (fun V c => R0.dat V c) m ρ

/-- The run with both regions in place. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  run (fun V c => R0.dat V c) (fun V c => R1.dat V c) m ρ given

/-- The host stretches leave the first argument as launched. -/
theorem W3_main_arg0 (c : Dev nD) : W3 m ρ c (Proc.devRef .tc main_arg0) = m ((c : Thread nD τ).loc main_arg0) :=
  (V3_of m c main_arg0 (by decide)).trans <| (V2_of m c main_arg0 (by decide)).trans <| (V1_of m c main_arg0 (by decide)).trans rfl
theorem W3_main_arg1 (c : Dev nD) : W3 m ρ c (Proc.devRef .tc main_arg1) = m ((c : Thread nD τ).loc main_arg1) :=
  (V3_of m c main_arg1 (by decide)).trans <| (V2_of m c main_arg1 (by decide)).trans <| (V1_of m c main_arg1 (by decide)).trans rfl

/-- The first argument is the dense product's window 0: the pipeline leaves it as entered; the banded product bypasses it. -/
theorem Wend_main_arg0 (c : Dev nD) : Wend m ρ c (Proc.devRef .tc main_arg0) = m ((c : Thread nD τ).loc main_arg0) :=
  calc Wend m ρ c (Proc.devRef .tc main_arg0)
    _ = W4 (fun V c => R0.dat V c) m ρ c (Proc.devRef .tc main_arg0) :=
        (W5_arr (fun V c => R0.dat V c) (fun V c => R1.dat V c) m ρ c 0).trans (((R1.dat (Vmid m ρ) c).arrAt_in 0 rfl _).trans (R1.A_eq (Vmid m ρ) c 0))
    _ = W3 m ρ c (Proc.devRef .tc main_arg0) := W4_of_ne (fun V c => R0.dat V c) m ρ c main_arg0 (by decide)
    _ = m ((c : Thread nD τ).loc main_arg0) := W3_main_arg0 m ρ c

/-- The second argument is the banded product's window 1; the dense product bypasses it. -/
theorem Wend_main_arg1 (c : Dev nD) : Wend m ρ c (Proc.devRef .tc main_arg1) = m ((c : Thread nD τ).loc main_arg1) :=
  calc Wend m ρ c (Proc.devRef .tc main_arg1)
    _ = W4 (fun V c => R0.dat V c) m ρ c (Proc.devRef .tc main_arg1) := W5_of_ne (fun V c => R0.dat V c) (fun V c => R1.dat V c) m ρ c main_arg1 (by decide)
    _ = W3 m ρ c (Proc.devRef .tc main_arg1) :=
        (W4_arr (fun V c => R0.dat V c) m ρ c 1).trans (((R0.dat (V3 m ρ) c).arrAt_in 1 rfl _).trans (R0.A_eq (V3 m ρ) c 1))
    _ = m ((c : Thread nD τ).loc main_arg1) := W3_main_arg1 m ρ c

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (Wend_main_arg0 m ρ c),
    (h c _ (mem_uc main_arg1 (by decide))).trans (Wend_main_arg1 m ρ c)⟩) (run_main m ρ)

end Cert.Kernel.Whole

end
-- ==== Proof.KI.R0Kit.lean ====
/-
  The first pallas_call (the banded product  T = W · Bᵀ  over an 8 × 8 × 3 grid: row block, column block, and an offset
  kb = 0, 1, 2 standing for the neighbouring block  row block + kb - 1  of the contracted axis), seen from any contents `V`
  of the core's buffers at the region's entry: each window's block at a grid point, the three branch conditions of the body
  in closed form over the grid (the accumulator is cleared at offset 0, the product is added where the neighbouring block lies
  inside the matrix, the output is stored at offset 2), where the output window is idle, and the memrefs the body is run on.
  A grid point `t` has row block `t / 24`, column block `(t / 3) % 8` and offset `t % 3`.
-/
import proofs.«167009_j2078764171786_2_alg».proof.Proof.Gen.KernelIdeal.Launch
import proofs.«167009_j2078764171786_2_alg».proof.Proof.Gen.KernelIdeal.Skeleton
import proofs.«167009_j2078764171786_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data whose
    array is `V`'s and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The accumulator is cleared: the offset (grid coordinate 2) is 0. -/
abbrev cond0 (i : grid0.Coords) : Prop := (Scalar.cmpi .ne (Scalar.extui (Scalar.cmpi .eq (BitVec.ofNat 32 (i 2).val) 0#32)) 0#32) = 1#1
theorem hcond0 : ∀ t : Fin cfg0.N, cond0 (grid0.coords t) ↔ t.val % 3 = 0 :=
  (by decide +kernel : ∀ t : Fin grid0.N, cond0 (grid0.coords t) ↔ t.val % 3 = 0)

/-- The product is added: the neighbouring block  row block + offset - 1  lies in `[0, 7]`. -/
abbrev cond1 (i : grid0.Coords) : Prop := (Scalar.cmpi .ne (Scalar.extui (Scalar.andi (Scalar.cmpi .sge (Scalar.subi (Scalar.addi (BitVec.ofNat 32 (i 0).val) (BitVec.ofNat 32 (i 2).val)) 1#32) 0#32) (Scalar.cmpi .sle (Scalar.subi (Scalar.addi (BitVec.ofNat 32 (i 0).val) (BitVec.ofNat 32 (i 2).val)) 1#32) 7#32))) 0#32) = 1#1
theorem hcond1 : ∀ t : Fin cfg0.N, cond1 (grid0.coords t) ↔ (1 ≤ t.val / 24 + t.val % 3 ∧ t.val / 24 + t.val % 3 ≤ 8) :=
  (by decide +kernel : ∀ t : Fin grid0.N, cond1 (grid0.coords t) ↔ (1 ≤ t.val / 24 + t.val % 3 ∧ t.val / 24 + t.val % 3 ≤ 8))

/-- The output is stored: the offset is the last, 2. -/
abbrev cond2 (i : grid0.Coords) : Prop := k0_cond3 i = 1#1
theorem hcond2 : ∀ t : Fin cfg0.N, cond2 (grid0.coords t) ↔ t.val % 3 = 2 :=
  (by decide +kernel : ∀ t : Fin grid0.N, cond2 (grid0.coords t) ↔ t.val % 3 = 2)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem idleAt_2 : ∀ t : Fin cfg0.N, ¬cond2 (grid0.coords t) → cfg0.idle 2 (grid0.coords t) = true := by decide +kernel
theorem noFlush_2 : ∀ t : Fin cfg0.N, ¬cond2 (grid0.coords t) → (cfg0.win 2).flush t = false := by decide +kernel
theorem liveAt_2 : ∀ t : Fin cfg0.N, cond2 (grid0.coords t) → cfg0.idle 2 (grid0.coords t) = false := by decide +kernel

/-! ## The memrefs the body is run on -/

abbrev VO : View sig .tc .vmem S512x512 .bf16 := (Memref.whole cc0_stg2_0 : Memref sig .tc .vmem S512x512 .bf16).view
abbrev ms_0 (t : Fin cfg0.N) : Memref sig .tc .vmem S512x512 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S512x512 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x512 .bf16 := win0_2.stage (cfg0.slots t 2)
abbrev hs_2 (t : Fin cfg0.N) : (ms_2 t).IsWhole := hstage0_2 ((cfg0.slots t 2).cast nbuf0_2)
/-- The accumulator: a whole scoped buffer of the kernel's own, carried between the three offsets of one output block. -/
abbrev scM : Memref sig .tc .vmem S512x512 .f32 := Memref.whole cc0_scratch0
abbrev VS : View sig .tc .vmem S512x512 .f32 := scM.view

/-- The core's scoped buffers that are neither a staging buffer of this call nor its accumulator (the second call's staging
    buffers and accumulator), each whole at some contents, behind a first conjunct `S` (the accumulator's). -/
abbrev restWith (c : Dev nD) (S : sProp 𝕄) : sProp 𝕄 :=
  iprop(S ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's invariant with the accumulator as a memref owned at some contents. -/
theorem PhiA_eq (c : Dev nD) :
    (Pipeline.ΦA spec0 c : sProp 𝕄)
      = iprop(restWith c iprop(∃ d, owns (c : Thread nD τ) scM fullShare d) ∗ (∃ r, prngReg c r)) := by
  unfold Pipeline.ΦA; rw [scopedRest0_eq]; simp only [scM, owns_whole]; try rfl

end Cert.KernelIdeal.R0

end
-- ==== Proof.KI.R0RunA.lean ====
/-
  The banded product's body run over a symbolic grid point in one of its five control cases (the run finds the pieces the
  body's stores leave in the output's staging buffer and in the accumulator).
-/
import proofs.«167009_j2078764171786_2_alg».proof.Proof.KI.R0Kit

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: offset 0 with the neighbouring block inside the matrix: the accumulator is cleared, then the block's product added; the output window is passed through untouched. The accumulator may hold anything before. -/
noncomputable def kernelRun_A (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : cond1 i) (hc2 : ¬cond2 i)
    (x0 : Vec F S512x512 .bf16) (x1 : Vec F S512x512 .f32) :
    { LS : List (View.Piece (Elt F) S512x512 .f32) //
      ∀ (y2 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare y2 ∗ (∃ d, owns (c : Thread nD τ) arg6 fullShare d)
            ∗ (iprop(owns (c : Thread nD τ) arg3 fullShare x0 ∗ owns (c : Thread nD τ) arg4 fullShare x1 ∗ owns (c : Thread nD τ) arg5 fullShare y2 ∗ (∃ f, arg6.view.loc (c : Thread nD τ) ↦[arg6.view.set]{fullShare} arg6.view.writes (Elt F) f LS)) -∗ K ⟨⟩))
          ⊢ wp frame (wpE (defs₀ (F := F)) Variants.none c none) E (cc0__banded_t_kernel i arg3 harg3 arg4 harg4 arg5 harg5 arg6 harg6) K } := by
  refine ⟨?_, fun y2 E K => ?run⟩
  case run =>
    simp only [cc0__banded_t_kernel_eq_skeleton]; unfold cc0__banded_t_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists f2; isplitr; · ipureintro; exact hf2
      iexact H2
    iexists _; iexact HS

end Cert.KernelIdeal.R0

end
-- ==== Proof.KI.R0RunB.lean ====
/-
  The banded product's body run over a symbolic grid point in one of its five control cases (the run finds the pieces the
  body's stores leave in the output's staging buffer and in the accumulator).
-/
import proofs.«167009_j2078764171786_2_alg».proof.Proof.KI.R0RunA

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: offset 0 with the neighbouring block outside the matrix (row block 0): the accumulator is cleared and nothing added; the output window is passed through untouched. -/
noncomputable def kernelRun_B (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : ¬cond1 i) (hc2 : ¬cond2 i)
    (x0 : Vec F S512x512 .bf16) (x1 : Vec F S512x512 .f32) :
    { LS : List (View.Piece (Elt F) S512x512 .f32) //
      ∀ (y2 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare y2 ∗ (∃ d, owns (c : Thread nD τ) arg6 fullShare d)
            ∗ (iprop(owns (c : Thread nD τ) arg3 fullShare x0 ∗ owns (c : Thread nD τ) arg4 fullShare x1 ∗ owns (c : Thread nD τ) arg5 fullShare y2 ∗ (∃ f, arg6.view.loc (c : Thread nD τ) ↦[arg6.view.set]{fullShare} arg6.view.writes (Elt F) f LS)) -∗ K ⟨⟩))
          ⊢ wp frame (wpE (defs₀ (F := F)) Variants.none c none) E (cc0__banded_t_kernel i arg3 harg3 arg4 harg4 arg5 harg5 arg6 harg6) K } := by
  refine ⟨?_, fun y2 E K => ?run⟩
  case run =>
    simp only [cc0__banded_t_kernel_eq_skeleton]; unfold cc0__banded_t_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists f2; isplitr; · ipureintro; exact hf2
      iexact H2
    iexists _; iexact HS

end Cert.KernelIdeal.R0

end
-- ==== Proof.KI.R0RunC.lean ====
/-
  The banded product's body run over a symbolic grid point in one of its five control cases (the run finds the pieces the
  body's stores leave in the output's staging buffer and in the accumulator).
-/
import proofs.«167009_j2078764171786_2_alg».proof.Proof.KI.R0RunB

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: offset 1 (the diagonal block, always inside): the product is added to what the point before left (`xs`); the output window is passed through untouched. -/
noncomputable def kernelRun_C (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : ¬cond2 i)
    (x0 : Vec F S512x512 .bf16) (x1 : Vec F S512x512 .f32) (xs : Vec F S512x512 .f32) :
    { LS : List (View.Piece (Elt F) S512x512 .f32) //
      ∀ (y2 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare y2 ∗ owns (c : Thread nD τ) arg6 fullShare xs
            ∗ (iprop(owns (c : Thread nD τ) arg3 fullShare x0 ∗ owns (c : Thread nD τ) arg4 fullShare x1 ∗ owns (c : Thread nD τ) arg5 fullShare y2 ∗ (∃ f, arg6.view.loc (c : Thread nD τ) ↦[arg6.view.set]{fullShare} arg6.view.writes (Elt F) f LS)) -∗ K ⟨⟩))
          ⊢ wp frame (wpE (defs₀ (F := F)) Variants.none c none) E (cc0__banded_t_kernel i arg3 harg3 arg4 harg4 arg5 harg5 arg6 harg6) K } := by
  refine ⟨?_, fun y2 E K => ?run⟩
  case run =>
    simp only [cc0__banded_t_kernel_eq_skeleton]; unfold cc0__banded_t_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists f2; isplitr; · ipureintro; exact hf2
      iexact H2
    iexists _; iexact HS

end Cert.KernelIdeal.R0

end
-- ==== Proof.KI.R0RunD.lean ====
/-
  The banded product's body run over a symbolic grid point in one of its five control cases (the run finds the pieces the
  body's stores leave in the output's staging buffer and in the accumulator).
-/
import proofs.«167009_j2078764171786_2_alg».proof.Proof.KI.R0RunC

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case D: offset 2 with the neighbouring block inside the matrix: the product is added to what the point before left (`xs`), then the accumulator stored (converted) into the output window. -/
noncomputable def kernelRun_D (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i)
    (x0 : Vec F S512x512 .bf16) (x1 : Vec F S512x512 .f32) (xs : Vec F S512x512 .f32) :
    Σ' (L2 : List (View.Piece (Elt F) S512x512 .bf16)), { LS : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__banded_t_kernel i arg3 harg3 arg4 harg4 arg5 harg5 arg6 harg6) K } := by
  refine ⟨?_, ?_, fun E K => ?run⟩
  case run =>
    simp only [cc0__banded_t_kernel_eq_skeleton]; unfold cc0__banded_t_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.R0

end
-- ==== Proof.KI.R0RunE.lean ====
/-
  The banded product's body run over a symbolic grid point in one of its five control cases (the run finds the pieces the
  body's stores leave in the output's staging buffer and in the accumulator).
-/
import proofs.«167009_j2078764171786_2_alg».proof.Proof.KI.R0RunD

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case E: offset 2 with the neighbouring block outside the matrix (row block 7): nothing is added; the accumulator, as the point before left it (`xs`) and left as it is, is stored (converted) into the output window. -/
noncomputable def kernelRun_E (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : ¬cond1 i) (hc2 : cond2 i)
    (x0 : Vec F S512x512 .bf16) (x1 : Vec F S512x512 .f32) (xs : Vec F S512x512 .f32) :
    { L2 : List (View.Piece (Elt F) S512x512 .bf16) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xs) -∗ K ⟨⟩))
          ⊢ wp frame (wpE (defs₀ (F := F)) Variants.none c none) E (cc0__banded_t_kernel i arg3 harg3 arg4 harg4 arg5 harg5 arg6 harg6) K } := by
  refine ⟨?_, fun E K => ?run⟩
  case run =>
    simp only [cc0__banded_t_kernel_eq_skeleton]; unfold cc0__banded_t_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; isplitr; · ipureintro; exact harg6.read_unread _
    iexact HS

end Cert.KernelIdeal.R0

end
-- ==== Proof.KI.R0Outs.lean ====
/-
  What the banded product leaves, case by case and point by point.  Per control case: the accumulator's contents after the
  body (its pieces read back; they tile the buffer, so they cover it) and, in the two storing cases, the output's staging
  buffer.  Point by point (`outsAt`): the pair (output staging buffer, accumulator) after the body at position `n` of the
  grid's walk, by recursion on `n` — an offset-0 point starts from a cleared accumulator, every other point from what the
  point before left.  Then the region's invariant (the accumulator is tracked from offset 0 to offset 2 of one output block
  and forgotten between output blocks) and the pipeline's proof data.
-/
import proofs.«167009_j2078764171786_2_alg».proof.Proof.KI.R0RunE

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Per case -/

/-- The pieces case A (offset 0, neighbouring block inside) leaves in the accumulator tile it, so they cover it. -/
theorem scover_A (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : cond1 i) (hc2 : ¬cond2 i) (x0 : Vec F S512x512 .bf16) (x1 : Vec F S512x512 .f32) (y : S512x512.Idx) :
    ∃ pc ∈ (kernelRun_A c i arg3 harg3 arg4 harg4 arg5 harg5 arg6 harg6 hc0 hc1 hc2 x0 x1).1, y ∈ pc.1.set :=
  View.cover_of_tiledL (kernelRun_A c i arg3 harg3 arg4 harg4 arg5 harg5 arg6 harg6 hc0 hc1 hc2 x0 x1).1 S512x512.size (by sl_kernel_rfl) y

/-- What case A leaves in the accumulator: the cleared buffer plus the block's product. -/
def sout_A (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : cond1 i) (hc2 : ¬cond2 i) (x0 : Vec F S512x512 .bf16) (x1 : Vec F S512x512 .f32) : Vec F S512x512 .f32 :=
  VS.read (Elt F) (VS.writes (Elt F) VS.junk (kernelRun_A c i arg3 harg3 arg4 harg4 arg5 harg5 arg6 harg6 hc0 hc1 hc2 x0 x1).1)

/-- The pieces case B (offset 0, neighbouring block outside) leaves in the accumulator cover it. -/
theorem scover_B (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : ¬cond1 i) (hc2 : ¬cond2 i) (x0 : Vec F S512x512 .bf16) (x1 : Vec F S512x512 .f32) (y : S512x512.Idx) :
    ∃ pc ∈ (kernelRun_B c i arg3 harg3 arg4 harg4 arg5 harg5 arg6 harg6 hc0 hc1 hc2 x0 x1).1, y ∈ pc.1.set :=
  View.cover_of_tiledL (kernelRun_B c i arg3 harg3 arg4 harg4 arg5 harg5 arg6 harg6 hc0 hc1 hc2 x0 x1).1 S512x512.size (by sl_kernel_rfl) y

/-- What case B leaves in the accumulator: the cleared buffer. -/
def sout_B (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : ¬cond1 i) (hc2 : ¬cond2 i) (x0 : Vec F S512x512 .bf16) (x1 : Vec F S512x512 .f32) : Vec F S512x512 .f32 :=
  VS.read (Elt F) (VS.writes (Elt F) VS.junk (kernelRun_B c i arg3 harg3 arg4 harg4 arg5 harg5 arg6 harg6 hc0 hc1 hc2 x0 x1).1)

/-- The pieces case C (offset 1) leaves in the accumulator cover it. -/
theorem scover_C (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : ¬cond2 i) (x0 : Vec F S512x512 .bf16) (x1 : Vec F S512x512 .f32) (xs : Vec F S512x512 .f32) (y : S512x512.Idx) :
    ∃ pc ∈ (kernelRun_C c i arg3 harg3 arg4 harg4 arg5 harg5 arg6 harg6 hc0 hc1 hc2 x0 x1 xs).1, y ∈ pc.1.set :=
  View.cover_of_tiledL (kernelRun_C c i arg3 harg3 arg4 harg4 arg5 harg5 arg6 harg6 hc0 hc1 hc2 x0 x1 xs).1 S512x512.size (by sl_kernel_rfl) y

/-- What case C leaves in the accumulator: the block's product added to what the point before left. -/
def sout_C (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : ¬cond2 i) (x0 : Vec F S512x512 .bf16) (x1 : Vec F S512x512 .f32) (xs : Vec F S512x512 .f32) : Vec F S512x512 .f32 :=
  VS.read (Elt F) (VS.writes (Elt F) VS.junk (kernelRun_C c i arg3 harg3 arg4 harg4 arg5 harg5 arg6 harg6 hc0 hc1 hc2 x0 x1 xs).1)

/-- The pieces case D (offset 2, neighbouring block inside) stores into the output window tile its block, so they cover it. -/
theorem cover_D (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i) (x0 : Vec F S512x512 .bf16) (x1 : Vec F S512x512 .f32) (xs : Vec F S512x512 .f32) (y : S512x512.Idx) :
    ∃ pc ∈ (kernelRun_D c i arg3 harg3 arg4 harg4 arg5 harg5 arg6 harg6 hc0 hc1 hc2 x0 x1 xs).1, y ∈ pc.1.set :=
  View.cover_of_tiledL (kernelRun_D c i arg3 harg3 arg4 harg4 arg5 harg5 arg6 harg6 hc0 hc1 hc2 x0 x1 xs).1 S512x512.size (by sl_kernel_rfl) y

/-- What case D leaves in the output window's staging buffer: the converted sum. -/
def out_D (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i) (x0 : Vec F S512x512 .bf16) (x1 : Vec F S512x512 .f32) (xs : Vec F S512x512 .f32) : Vec F S512x512 .bf16 :=
  VO.read (Elt F) (VO.writes (Elt F) VO.junk (kernelRun_D c i arg3 harg3 arg4 harg4 arg5 harg5 arg6 harg6 hc0 hc1 hc2 x0 x1 xs).1)

/-- The pieces case D leaves in the accumulator cover it. -/
theorem scover_D (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i) (x0 : Vec F S512x512 .bf16) (x1 : Vec F S512x512 .f32) (xs : Vec F S512x512 .f32) (y : S512x512.Idx) :
    ∃ pc ∈ (kernelRun_D c i arg3 harg3 arg4 harg4 arg5 harg5 arg6 harg6 hc0 hc1 hc2 x0 x1 xs).2.1, y ∈ pc.1.set :=
  View.cover_of_tiledL (kernelRun_D c i arg3 harg3 arg4 harg4 arg5 harg5 arg6 harg6 hc0 hc1 hc2 x0 x1 xs).2.1 S512x512.size (by sl_kernel_rfl) y

/-- What case D leaves in the accumulator: the block's product added to what the point before left. -/
def sout_D (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i) (x0 : Vec F S512x512 .bf16) (x1 : Vec F S512x512 .f32) (xs : Vec F S512x512 .f32) : Vec F S512x512 .f32 :=
  VS.read (Elt F) (VS.writes (Elt F) VS.junk (kernelRun_D c i arg3 harg3 arg4 harg4 arg5 harg5 arg6 harg6 hc0 hc1 hc2 x0 x1 xs).2.1)

/-- The pieces case E (offset 2, neighbouring block outside) stores into the output window cover it. -/
theorem cover_E (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : ¬cond1 i) (hc2 : cond2 i) (x0 : Vec F S512x512 .bf16) (x1 : Vec F S512x512 .f32) (xs : Vec F S512x512 .f32) (y : S512x512.Idx) :
    ∃ pc ∈ (kernelRun_E c i arg3 harg3 arg4 harg4 arg5 harg5 arg6 harg6 hc0 hc1 hc2 x0 x1 xs).1, y ∈ pc.1.set :=
  View.cover_of_tiledL (kernelRun_E c i arg3 harg3 arg4 harg4 arg5 harg5 arg6 harg6 hc0 hc1 hc2 x0 x1 xs).1 S512x512.size (by sl_kernel_rfl) y

/-- What case E leaves in the output window's staging buffer: the converted accumulator, as the point before left it. -/
def out_E (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : ¬cond1 i) (hc2 : cond2 i) (x0 : Vec F S512x512 .bf16) (x1 : Vec F S512x512 .f32) (xs : Vec F S512x512 .f32) : Vec F S512x512 .bf16 :=
  VO.read (Elt F) (VO.writes (Elt F) VO.junk (kernelRun_E c i arg3 harg3 arg4 harg4 arg5 harg5 arg6 harg6 hc0 hc1 hc2 x0 x1 xs).1)

/-- A placeholder for the output window's staging buffer at the points where the body stores nothing into it (the window is
    idle there and not written back; nothing consults it). -/
def idleOut : Vec F S512x512 .bf16 := VO.read (Elt F) VO.junk

/-! ## Point by point -/

/-- The pair (output staging buffer, accumulator) after the body at position `n` of the grid's walk.  At offset 0 the
    accumulator is cleared (and the neighbouring block's product added where that block lies inside the matrix); at
    offset 1 the product is added to what the point before left; at offset 2 the product is added where the block lies
    inside, the accumulator is otherwise left as it is, and its (converted) contents are stored into the output window. -/
def outsAt (c : Dev nD) : (n : ℕ) → n < cfg0.N → Vec F S512x512 .bf16 × Vec F S512x512 .f32
  | 0, hn => (idleOut, sout_B c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond0 ⟨0, hn⟩).mpr (Nat.zero_mod _)) (fun h => (fun h => by (try dsimp only at h); omega) ((hcond1 ⟨0, hn⟩).mp h)) (fun h => (fun h => by (try dsimp only at h); omega) ((hcond2 ⟨0, hn⟩).mp h)) (iblk V c 0 ⟨0, hn⟩) (iblk V c 1 ⟨0, hn⟩))
  | n + 1, hn =>
    if h0 : (n + 1) % 3 = 0 then
      if h1 : 1 ≤ (n + 1) / 24 + (n + 1) % 3 ∧ (n + 1) / 24 + (n + 1) % 3 ≤ 8 then
        (idleOut, sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond0 ⟨n + 1, hn⟩).mpr h0) ((hcond1 ⟨n + 1, hn⟩).mpr h1) (fun h => (fun h => by (try dsimp only at h); omega) ((hcond2 ⟨n + 1, hn⟩).mp h)) (iblk V c 0 ⟨n + 1, hn⟩) (iblk V c 1 ⟨n + 1, hn⟩))
      else
        (idleOut, sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond0 ⟨n + 1, hn⟩).mpr h0) (fun h => h1 ((hcond1 ⟨n + 1, hn⟩).mp h)) (fun h => (fun h => by (try dsimp only at h); omega) ((hcond2 ⟨n + 1, hn⟩).mp h)) (iblk V c 0 ⟨n + 1, hn⟩) (iblk V c 1 ⟨n + 1, hn⟩))
    else
      if h2 : (n + 1) % 3 = 2 then
        if h1 : 1 ≤ (n + 1) / 24 + (n + 1) % 3 ∧ (n + 1) / 24 + (n + 1) % 3 ≤ 8 then
          (out_D c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) ((hcond1 ⟨n + 1, hn⟩).mpr h1) ((hcond2 ⟨n + 1, hn⟩).mpr h2) (iblk V c 0 ⟨n + 1, hn⟩) (iblk V c 1 ⟨n + 1, hn⟩) (outsAt c n (Nat.lt_of_succ_lt hn)).2,
           sout_D c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) ((hcond1 ⟨n + 1, hn⟩).mpr h1) ((hcond2 ⟨n + 1, hn⟩).mpr h2) (iblk V c 0 ⟨n + 1, hn⟩) (iblk V c 1 ⟨n + 1, hn⟩) (outsAt c n (Nat.lt_of_succ_lt hn)).2)
        else
          (out_E c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) (fun h => h1 ((hcond1 ⟨n + 1, hn⟩).mp h)) ((hcond2 ⟨n + 1, hn⟩).mpr h2) (iblk V c 0 ⟨n + 1, hn⟩) (iblk V c 1 ⟨n + 1, hn⟩) (outsAt c n (Nat.lt_of_succ_lt hn)).2,
           (outsAt c n (Nat.lt_of_succ_lt hn)).2)
      else
        (idleOut, sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) ((hcond1 ⟨n + 1, hn⟩).mpr (by have hN : n + 1 < 192 := lt_of_lt_of_eq hn (show cfg0.N = 192 from N_0); (try dsimp only); omega)) (fun h => h2 ((hcond2 ⟨n + 1, hn⟩).mp h)) (iblk V c 0 ⟨n + 1, hn⟩) (iblk V c 1 ⟨n + 1, hn⟩) (outsAt c n (Nat.lt_of_succ_lt hn)).2)

/-- `outsAt` at offset 0 with the neighbouring block inside: the accumulator cleared, then the block's product. -/
theorem outsAt_A (c : Dev nD) (t : Fin cfg0.N) (h0 : t.val % 3 = 0) (h1 : 1 ≤ t.val / 24 + t.val % 3 ∧ t.val / 24 + t.val % 3 ≤ 8) :
    outsAt V c t.val t.isLt = (idleOut, sout_A c (grid0.coords t) (ms_0 t) (hs_0 t) (ms_1 t) (hs_1 t) (ms_2 t) (hs_2 t) scM (Memref.isWhole_whole _) ((hcond0 t).mpr h0) ((hcond1 t).mpr h1) (fun h => absurd ((hcond2 t).mp h) (by omega)) (iblk V c 0 t) (iblk V c 1 t)) := by
  obtain ⟨n, hn⟩ := t
  cases n with
  | zero => exact (by exfalso; (try dsimp only at h1); omega)
  | succ n => exact (dif_pos h0).trans ((dif_pos h1).trans rfl)

/-- `outsAt` at offset 0 with the neighbouring block outside: the accumulator cleared. -/
theorem outsAt_B (c : Dev nD) (t : Fin cfg0.N) (h0 : t.val % 3 = 0) (h1 : ¬(1 ≤ t.val / 24 + t.val % 3 ∧ t.val / 24 + t.val % 3 ≤ 8)) :
    outsAt V c t.val t.isLt = (idleOut, sout_B c (grid0.coords t) (ms_0 t) (hs_0 t) (ms_1 t) (hs_1 t) (ms_2 t) (hs_2 t) scM (Memref.isWhole_whole _) ((hcond0 t).mpr h0) (fun h => h1 ((hcond1 t).mp h)) (fun h => absurd ((hcond2 t).mp h) (by omega)) (iblk V c 0 t) (iblk V c 1 t)) := by
  obtain ⟨n, hn⟩ := t
  cases n with
  | zero => exact rfl
  | succ n => exact (dif_pos h0).trans ((dif_neg h1).trans rfl)

/-- `outsAt` at offset 1: the block's product added to what the point before left. -/
theorem outsAt_C (c : Dev nD) (t : Fin cfg0.N) (h0 : ¬t.val % 3 = 0) (h2 : ¬t.val % 3 = 2) :
    outsAt V c t.val t.isLt = (idleOut, sout_C c (grid0.coords t) (ms_0 t) (hs_0 t) (ms_1 t) (hs_1 t) (ms_2 t) (hs_2 t) scM (Memref.isWhole_whole _) (fun h => h0 ((hcond0 t).mp h)) ((hcond1 t).mpr (by have hN : t.val < 192 := lt_of_lt_of_eq t.isLt (show cfg0.N = 192 from N_0); omega)) (fun h => h2 ((hcond2 t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h2).trans rfl)

/-- `outsAt` at offset 2 with the neighbouring block inside: the product added, and the sum stored into the output window. -/
theorem outsAt_D (c : Dev nD) (t : Fin cfg0.N) (h0 : ¬t.val % 3 = 0) (h1 : 1 ≤ t.val / 24 + t.val % 3 ∧ t.val / 24 + t.val % 3 ≤ 8) (h2 : t.val % 3 = 2) :
    outsAt V c t.val t.isLt = (out_D c (grid0.coords t) (ms_0 t) (hs_0 t) (ms_1 t) (hs_1 t) (ms_2 t) (hs_2 t) scM (Memref.isWhole_whole _) (fun h => h0 ((hcond0 t).mp h)) ((hcond1 t).mpr h1) ((hcond2 t).mpr h2) (iblk V c 0 t) (iblk V c 1 t) (outsAt V c (t.val - 1) (Nat.lt_of_le_of_lt (Nat.sub_le _ _) t.isLt)).2,
      sout_D c (grid0.coords t) (ms_0 t) (hs_0 t) (ms_1 t) (hs_1 t) (ms_2 t) (hs_2 t) scM (Memref.isWhole_whole _) (fun h => h0 ((hcond0 t).mp h)) ((hcond1 t).mpr h1) ((hcond2 t).mpr h2) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans ((dif_pos h1).trans rfl))

/-- `outsAt` at offset 2 with the neighbouring block outside: the accumulator, left as the point before left it, stored into
    the output window. -/
theorem outsAt_E (c : Dev nD) (t : Fin cfg0.N) (h0 : ¬t.val % 3 = 0) (h1 : ¬(1 ≤ t.val / 24 + t.val % 3 ∧ t.val / 24 + t.val % 3 ≤ 8)) (h2 : t.val % 3 = 2) :
    outsAt V c t.val t.isLt = (out_E c (grid0.coords t) (ms_0 t) (hs_0 t) (ms_1 t) (hs_1 t) (ms_2 t) (hs_2 t) scM (Memref.isWhole_whole _) (fun h => h0 ((hcond0 t).mp h)) (fun h => h1 ((hcond1 t).mp h)) ((hcond2 t).mpr h2) (iblk V c 0 t) (iblk V c 1 t) (outsAt V c (t.val - 1) (Nat.lt_of_le_of_lt (Nat.sub_le _ _) t.isLt)).2,
      (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans ((dif_neg h1).trans rfl))

/-! ## The region's invariant -/

/-- Before position `n`: before an offset-0 point (and after the last point) the class's invariant (every scoped buffer the
    pipeline does not stage at anything, the generator register at some state); before an offset-1 or offset-2 point, the
    same with the accumulator at what the point before left. -/
def PhiS (c : Dev nD) : (n : ℕ) → n ≤ cfg0.N → sProp 𝕄
  | 0, _ => Pipeline.ΦA spec0 c
  | n + 1, hn => if (n + 1) % 3 = 0 then Pipeline.ΦA spec0 c
      else iprop(restWith c (owns (c : Thread nD τ) scM fullShare ((outsAt V c n hn).2)) ∗ (∃ r, prngReg c r))

theorem PhiS_first (c : Dev nD) (n : ℕ) (h : n ≤ cfg0.N) (hz : n % 3 = 0) : PhiS V c n h = Pipeline.ΦA spec0 c := by
  cases n with
  | zero => rfl
  | succ n => exact if_pos hz

theorem PhiS_succ (c : Dev nD) (n : ℕ) (hn : n < cfg0.N) (hz : ¬(n + 1) % 3 = 0) :
    PhiS V c (n + 1) hn = iprop(restWith c (owns (c : Thread nD τ) scM fullShare ((outsAt V c n hn).2)) ∗ (∃ r, prngReg c r)) :=
  if_neg hz

theorem PhiS_inside (c : Dev nD) (n : ℕ) (h : n ≤ cfg0.N) (hz : ¬n % 3 = 0) :
    PhiS V c n h = iprop(restWith c (owns (c : Thread nD τ) scM fullShare ((outsAt V c (n - 1) (by omega)).2)) ∗ (∃ r, prngReg c r)) := by
  cases n with
  | zero => exact absurd (Nat.zero_mod _) hz
  | succ n => exact if_neg hz

/-! ## The pipeline's proof data -/

/-- The proof data of the first pallas_call's pipeline on core `c`: the arrays as the region finds them; after the body at a
    point each input's buffer at its block and the output's at `outsAt`'s first component; the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

end Cert.KernelIdeal.R0

end
-- ==== Proof.KI.R0Body.lean ====
/-
  The banded product's body obligation: at every point of the 8 × 8 × 3 grid the body, run on the windows' current staging
  buffers and the accumulator as the region's invariant hands it, returns the invariant at the next point and every window's
  buffer at what the proof data says it then holds.  One run per control case (offset 0 with the neighbouring block inside
  or outside, offset 1, offset 2 with the neighbouring block inside or outside), selected by the closed forms of the
  body's three conditions.
-/
import proofs.«167009_j2078764171786_2_alg».proof.Proof.KI.R0Outs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`: the invariant, what the core owes, and each window's current staging buffer. -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point.  The inputs' staging buffers hold their blocks; the closed forms of the three conditions say which
    of the five cases the point is in.  At offset 0 the invariant hands the accumulator at anything and takes it back at
    the point's contents; at offset 1 it hands it at what the point before left and takes it back at the point's contents; at
    offset 2 it hands it at what the point before left and takes it back at anything, the output's staging buffer being
    covered by the stored pieces.  Where nothing is stored into the output window, its buffer is handed back as found. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, Phi_castSucc V c t]
  have hN : t.val < 192 := lt_of_lt_of_eq t.isLt (show cfg0.N = 192 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 3 = 0
  · have hnc2 : ¬cond2 (grid0.coords t) := fun h => absurd ((hcond2 t).mp h) (by omega)
    rw [Dat.leavesExact_idle (dat V c) 2 t (idleAt_2 t hnc2) (noFlush_2 t hnc2)]
    rw [PhiS_first V c _ _ h0, PhiA_eq, PhiS_succ V c _ _ (by omega)]
    by_cases h1 : 1 ≤ t.val / 24 + t.val % 3 ∧ t.val / 24 + t.val % 3 ≤ 8
    · rw [outsAt_A V c t h0 h1]
      unfold sout_A; (try dsimp only)
      iintro ⟨⟨⟨HS, HR⟩, Hg⟩, Ho, ⟨%d0, H0⟩, ⟨%d1, H1⟩, ⟨%d2, H2⟩⟩
      iapply ((kernelRun_A c (grid0.coords t) _ _ _ _ _ _ _ _ ((hcond0 t).mpr h0) ((hcond1 t).mpr h1) hnc2 (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_A c _ _ _ _ _ _ _ _ _ _ _ _ _ _)
          iexact HR
        iexact Hg
      isplitl [Ho]; · iexact Ho
      isplitl [H0]; · iexact H0
      isplitl [H1]; · iexact H1
      iexists _; iexact H2
    · rw [outsAt_B V c t h0 h1]
      unfold sout_B; (try dsimp only)
      iintro ⟨⟨⟨HS, HR⟩, Hg⟩, Ho, ⟨%d0, H0⟩, ⟨%d1, H1⟩, ⟨%d2, H2⟩⟩
      iapply ((kernelRun_B c (grid0.coords t) _ _ _ _ _ _ _ _ ((hcond0 t).mpr h0) (fun h => h1 ((hcond1 t).mp h)) hnc2 (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2
  · by_cases h2 : t.val % 3 = 2
    · have hc2 : cond2 (grid0.coords t) := (hcond2 t).mpr h2
      rw [show (dat V c).leavesExact 2 t = owns (c : Thread nD τ) (ms_2 t) fullShare ((dat V c).after 2 t) from by
        unfold Dat.leavesExact; rw [liveAt_2 t hc2], after_2]
      rw [PhiS_inside V c _ _ h0, PhiS_first V c _ _ (by omega : (t.val + 1) % 3 = 0), PhiA_eq]
      by_cases h1 : 1 ≤ t.val / 24 + t.val % 3 ∧ t.val / 24 + t.val % 3 ≤ 8
      · rw [outsAt_D V c t h0 h1 h2]
        unfold out_D; (try dsimp only)
        iintro ⟨⟨⟨HS, HR⟩, Hg⟩, Ho, ⟨%d0, H0⟩, ⟨%d1, H1⟩, ⟨%d2, H2⟩⟩
        iapply ((kernelRun_D c (grid0.coords t) _ _ _ _ _ _ _ _ (fun h => h0 ((hcond0 t).mp h)) ((hcond1 t).mpr h1) hc2 (iblk V c 0 t) (iblk V c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS HR Hg]
        · isplitl [HS HR]
          · isplitl [HS]
            · iexists _; unfold owns; iexists _; isplitr
              swap; · iexact HS
              ipureintro; rfl
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover_D c _ _ _ _ _ _ _ _ _ _ _ _ _ _ _)
      · rw [outsAt_E V c t h0 h1 h2]
        unfold out_E; (try dsimp only)
        iintro ⟨⟨⟨HS, HR⟩, Hg⟩, Ho, ⟨%d0, H0⟩, ⟨%d1, H1⟩, ⟨%d2, H2⟩⟩
        iapply ((kernelRun_E c (grid0.coords t) _ _ _ _ _ _ _ _ (fun h => h0 ((hcond0 t).mp h)) (fun h => h1 ((hcond1 t).mp h)) hc2 (iblk V c 0 t) (iblk V c 1 t) _).2 Set.univ _)
        isplitl [H0]; · iexact H0
        isplitl [H1]; · iexact H1
        isplitl [H2]; · iexists _; iexact H2
        isplitl [HS]; · iexact HS
        iintro ⟨H0, H1, ⟨%e2, H2⟩, HS⟩
        isplitl [HS HR Hg]
        · isplitl [HS HR]
          · isplitl [HS]
            · iexists _; iexact HS
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover_E c _ _ _ _ _ _ _ _ _ _ _ _ _ _ _)
    · have hnc2 : ¬cond2 (grid0.coords t) := fun h => h2 ((hcond2 t).mp h)
      rw [Dat.leavesExact_idle (dat V c) 2 t (idleAt_2 t hnc2) (noFlush_2 t hnc2)]
      rw [PhiS_inside V c _ _ h0, PhiS_succ V c _ _ (by omega)]
      rw [outsAt_C V c t h0 h2]
      unfold sout_C; (try dsimp only)
      iintro ⟨⟨⟨HS, HR⟩, Hg⟩, Ho, ⟨%d0, H0⟩, ⟨%d1, H1⟩, ⟨%d2, H2⟩⟩
      iapply ((kernelRun_C c (grid0.coords t) _ _ _ _ _ _ _ _ (fun h => h0 ((hcond0 t).mp h)) ((hcond1 t).mpr (by omega)) hnc2 (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_C c _ _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_first V c 0 _ (Nat.zero_mod _)]
  try exact Idealize.SL.BI.Entails.refl _

/-- After the last point (an offset-2 point: the number of points is a multiple of 3) the invariant is the class's again. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_first V c _ _ (by rw [Fin.val_last]; have : cfg0.N = 192 := N_0; omega)]
  try exact Idealize.SL.BI.Entails.refl _

end Cert.KernelIdeal.R0

end
-- ==== Proof.KI.R1Kit.lean ====
/-
  The second pallas_call (the dense product  out = A · T, accumulated over 8 blocks of the contracted axis), seen from any
  contents `V` of the core's buffers at the region's entry: each window's block at a grid point, the branch conditions of the
  body in closed form over the 32 × 8 grid (the accumulator is cleared at the first block of a row of the grid and the
  output stored at the last), where the output window is idle, and the staging and scratch memrefs the body is run on.
-/
import proofs.«167009_j2078764171786_2_alg».proof.Proof.Gen.KernelIdeal.Launch
import proofs.«167009_j2078764171786_2_alg».proof.Proof.Gen.KernelIdeal.Skeleton
import proofs.«167009_j2078764171786_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is `V`'s and
    whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The accumulator is cleared: the contraction's block index (grid coordinate 1) is 0. -/
abbrev cond0 (i : grid1.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg1.N, cond0 (grid1.coords t) ↔ t.val % 8 = 0 :=
  (by decide +kernel : ∀ t : Fin grid1.N, cond0 (grid1.coords t) ↔ t.val % 8 = 0)

/-- The output is stored: the contraction's block index is the last, 7. -/
abbrev cond1 (i : grid1.Coords) : Prop := k1_cond2 i = 1#1
/-- It holds at the points ≡ 7 (mod 8). -/
theorem hcond1 : ∀ t : Fin cfg1.N, cond1 (grid1.coords t) ↔ t.val % 8 = 7 :=
  (by decide +kernel : ∀ t : Fin grid1.N, cond1 (grid1.coords t) ↔ t.val % 8 = 7)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
/-- Where the output is not stored the output window is idle, and its block is not written back there. -/
theorem idleAt_2 : ∀ t : Fin cfg1.N, ¬cond1 (grid1.coords t) → cfg1.idle 2 (grid1.coords t) = true := by decide +kernel
theorem noFlush_2 : ∀ t : Fin cfg1.N, ¬cond1 (grid1.coords t) → (cfg1.win 2).flush t = false := by decide +kernel
theorem liveAt_2 : ∀ t : Fin cfg1.N, cond1 (grid1.coords t) → cfg1.idle 2 (grid1.coords t) = false := by decide +kernel

/-! ## The memrefs the body is run on -/

/-- One staging buffer of the output window, through which its contents are stated. -/
abbrev VO : View sig .tc .vmem S256x4096 .f32 := (Memref.whole cc1_stg2_0 : Memref sig .tc .vmem S256x4096 .f32).view
abbrev ms_0 (t : Fin cfg1.N) : Memref sig .tc .vmem S256x512 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S512x4096 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S256x4096 .f32 := win1_2.stage (cfg1.slots t 2)
abbrev hs_2 (t : Fin cfg1.N) : (ms_2 t).IsWhole := hstage1_2 ((cfg1.slots t 2).cast nbuf1_2)
/-- The accumulator: a whole scoped buffer of the kernel's own, carried between points. -/
abbrev scM : Memref sig .tc .vmem S256x4096 .f32 := Memref.whole cc1_scratch0
abbrev VS : View sig .tc .vmem S256x4096 .f32 := scM.view

/-- The core's scoped buffers that are neither a staging buffer of this call nor its accumulator (the first call's staging buffers
    and accumulator), each whole at some contents, in front of a last conjunct `S` (the accumulator's). -/
abbrev restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ S)

/-- The region's invariant with the accumulator as a memref owned at some contents. -/
theorem PhiA_eq (c : Dev nD) :
    (Pipeline.ΦA spec1 c : sProp 𝕄)
      = iprop(restWith c iprop(∃ d, owns (c : Thread nD τ) scM fullShare d) ∗ (∃ r, prngReg c r)) := by
  unfold Pipeline.ΦA; rw [scopedRest1_eq]; simp only [scM, owns_whole]; try rfl

end Cert.KernelIdeal.R1

end
-- ==== Proof.KI.R1RunA.lean ====
/-
  The dense product's body run over a symbolic grid point in one of its three control cases (the run finds the pieces the
  body's stores leave in the accumulator and, where it stores it, in the output's staging buffer).
-/
import proofs.«167009_j2078764171786_2_alg».proof.Proof.KI.R1Kit

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: the contraction's first block: the accumulator is cleared, then the block's product added; the output window is passed through untouched. The accumulator may hold anything before. -/
noncomputable def kernelRun_A (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : cond0 i) (hc1 : ¬cond1 i)
    (x0 : Vec F S256x512 .f32) (x1 : Vec F S512x4096 .bf16) :
    { LS : List (View.Piece (Elt F) S256x4096 .f32) //
      ∀ (y2 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare y2 ∗ (∃ d, owns (c : Thread nD τ) arg5 fullShare d)
            ∗ (iprop(owns (c : Thread nD τ) arg2 fullShare x0 ∗ owns (c : Thread nD τ) arg3 fullShare x1 ∗ owns (c : Thread nD τ) arg4 fullShare y2 ∗ (∃ f, arg5.view.loc (c : Thread nD τ) ↦[arg5.view.set]{fullShare} arg5.view.writes (Elt F) f LS)) -∗ K ⟨⟩))
          ⊢ wp frame (wpE (defs₀ (F := F)) Variants.none c none) E (cc1__dense_out_kernel i arg2 harg2 arg3 harg3 arg4 harg4 arg5 harg5) K } := by
  refine ⟨?_, fun y2 E K => ?run⟩
  case run =>
    simp only [cc1__dense_out_kernel_eq_skeleton]; unfold cc1__dense_out_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists f2; isplitr; · ipureintro; exact hf2
      iexact H2
    iexists _; iexact HS

end Cert.KernelIdeal.R1

end
-- ==== Proof.KI.R1RunB.lean ====
/-
  The dense product's body run over a symbolic grid point in one of its three control cases (the run finds the pieces the
  body's stores leave in the accumulator and, where it stores it, in the output's staging buffer).
-/
import proofs.«167009_j2078764171786_2_alg».proof.Proof.KI.R1RunA

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: a middle block: the product is added to what the point before left (`xs`); the output window is passed through untouched. -/
noncomputable def kernelRun_B (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : ¬cond1 i)
    (x0 : Vec F S256x512 .f32) (x1 : Vec F S512x4096 .bf16) (xs : Vec F S256x4096 .f32) :
    { LS : List (View.Piece (Elt F) S256x4096 .f32) //
      ∀ (y2 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare xs
            ∗ (iprop(owns (c : Thread nD τ) arg2 fullShare x0 ∗ owns (c : Thread nD τ) arg3 fullShare x1 ∗ owns (c : Thread nD τ) arg4 fullShare y2 ∗ (∃ f, arg5.view.loc (c : Thread nD τ) ↦[arg5.view.set]{fullShare} arg5.view.writes (Elt F) f LS)) -∗ K ⟨⟩))
          ⊢ wp frame (wpE (defs₀ (F := F)) Variants.none c none) E (cc1__dense_out_kernel i arg2 harg2 arg3 harg3 arg4 harg4 arg5 harg5) K } := by
  refine ⟨?_, fun y2 E K => ?run⟩
  case run =>
    simp only [cc1__dense_out_kernel_eq_skeleton]; unfold cc1__dense_out_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists f2; isplitr; · ipureintro; exact hf2
      iexact H2
    iexists _; iexact HS

end Cert.KernelIdeal.R1

end
-- ==== Proof.KI.R1RunC.lean ====
/-
  The dense product's body run over a symbolic grid point in one of its three control cases (the run finds the pieces the
  body's stores leave in the accumulator and, where it stores it, in the output's staging buffer).
-/
import proofs.«167009_j2078764171786_2_alg».proof.Proof.KI.R1RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: the last block: the product is added to what the point before left (`xs`), then the accumulator is stored into the output window. -/
noncomputable def kernelRun_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : cond1 i)
    (x0 : Vec F S256x512 .f32) (x1 : Vec F S512x4096 .bf16) (xs : Vec F S256x4096 .f32) :
    Σ' (L2 : List (View.Piece (Elt F) S256x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__dense_out_kernel i arg2 harg2 arg3 harg3 arg4 harg4 arg5 harg5) K } := by
  refine ⟨?_, ?_, fun E K => ?run⟩
  case run =>
    simp only [cc1__dense_out_kernel_eq_skeleton]; unfold cc1__dense_out_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.KernelIdeal.R1

end
-- ==== Proof.KI.R1Outs.lean ====
/-
  What the dense product leaves, case by case and point by point.  Per control case: the accumulator's contents after the body
  (its pieces read back; they tile the buffer, so they cover it) and, in the storing case, the output's staging buffer.  Point by
  point (`outsAt`): the pair (output staging buffer, accumulator) after the body at position `n` of the grid's walk, by
  recursion on `n` — the first block of a row of the grid starts from a cleared accumulator, every other block from what
  the point before left.  Then the region's invariant (the accumulator is tracked from the first block of a row to the last
  and forgotten across rows) and the pipeline's proof data.
-/
import proofs.«167009_j2078764171786_2_alg».proof.Proof.KI.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Per case -/

theorem scover_A (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : cond0 i) (hc1 : ¬cond1 i) (x0 : Vec F S256x512 .f32) (x1 : Vec F S512x4096 .bf16) (y : S256x4096.Idx) :
    ∃ pc ∈ (kernelRun_A c i arg2 harg2 arg3 harg3 arg4 harg4 arg5 harg5 hc0 hc1 x0 x1).1, y ∈ pc.1.set :=
  View.cover_of_tiledL (kernelRun_A c i arg2 harg2 arg3 harg3 arg4 harg4 arg5 harg5 hc0 hc1 x0 x1).1 S256x4096.size (by sl_kernel_rfl) y

/-- What case A leaves in the accumulator. -/
def sout_A (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : cond0 i) (hc1 : ¬cond1 i) (x0 : Vec F S256x512 .f32) (x1 : Vec F S512x4096 .bf16) : Vec F S256x4096 .f32 :=
  VS.read (Elt F) (VS.writes (Elt F) VS.junk (kernelRun_A c i arg2 harg2 arg3 harg3 arg4 harg4 arg5 harg5 hc0 hc1 x0 x1).1)

theorem scover_B (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : ¬cond1 i) (x0 : Vec F S256x512 .f32) (x1 : Vec F S512x4096 .bf16) (xs : Vec F S256x4096 .f32) (y : S256x4096.Idx) :
    ∃ pc ∈ (kernelRun_B c i arg2 harg2 arg3 harg3 arg4 harg4 arg5 harg5 hc0 hc1 x0 x1 xs).1, y ∈ pc.1.set :=
  View.cover_of_tiledL (kernelRun_B c i arg2 harg2 arg3 harg3 arg4 harg4 arg5 harg5 hc0 hc1 x0 x1 xs).1 S256x4096.size (by sl_kernel_rfl) y

/-- What case B leaves in the accumulator. -/
def sout_B (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : ¬cond1 i) (x0 : Vec F S256x512 .f32) (x1 : Vec F S512x4096 .bf16) (xs : Vec F S256x4096 .f32) : Vec F S256x4096 .f32 :=
  VS.read (Elt F) (VS.writes (Elt F) VS.junk (kernelRun_B c i arg2 harg2 arg3 harg3 arg4 harg4 arg5 harg5 hc0 hc1 x0 x1 xs).1)

theorem cover_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : cond1 i) (x0 : Vec F S256x512 .f32) (x1 : Vec F S512x4096 .bf16) (xs : Vec F S256x4096 .f32) (y : S256x4096.Idx) :
    ∃ pc ∈ (kernelRun_C c i arg2 harg2 arg3 harg3 arg4 harg4 arg5 harg5 hc0 hc1 x0 x1 xs).1, y ∈ pc.1.set :=
  View.cover_of_tiledL (kernelRun_C c i arg2 harg2 arg3 harg3 arg4 harg4 arg5 harg5 hc0 hc1 x0 x1 xs).1 S256x4096.size (by sl_kernel_rfl) y

/-- What case C leaves in the output window's staging buffer. -/
def out_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : cond1 i) (x0 : Vec F S256x512 .f32) (x1 : Vec F S512x4096 .bf16) (xs : Vec F S256x4096 .f32) : Vec F S256x4096 .f32 :=
  VO.read (Elt F) (VO.writes (Elt F) VO.junk (kernelRun_C c i arg2 harg2 arg3 harg3 arg4 harg4 arg5 harg5 hc0 hc1 x0 x1 xs).1)

theorem scover_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : cond1 i) (x0 : Vec F S256x512 .f32) (x1 : Vec F S512x4096 .bf16) (xs : Vec F S256x4096 .f32) (y : S256x4096.Idx) :
    ∃ pc ∈ (kernelRun_C c i arg2 harg2 arg3 harg3 arg4 harg4 arg5 harg5 hc0 hc1 x0 x1 xs).2.1, y ∈ pc.1.set :=
  View.cover_of_tiledL (kernelRun_C c i arg2 harg2 arg3 harg3 arg4 harg4 arg5 harg5 hc0 hc1 x0 x1 xs).2.1 S256x4096.size (by sl_kernel_rfl) y

/-- What case C leaves in the accumulator. -/
def sout_C (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : cond1 i) (x0 : Vec F S256x512 .f32) (x1 : Vec F S512x4096 .bf16) (xs : Vec F S256x4096 .f32) : Vec F S256x4096 .f32 :=
  VS.read (Elt F) (VS.writes (Elt F) VS.junk (kernelRun_C c i arg2 harg2 arg3 harg3 arg4 harg4 arg5 harg5 hc0 hc1 x0 x1 xs).2.1)

/-- A placeholder for the output window's staging buffer at the points where the body stores nothing into it (the window is
    idle there and not written back; nothing consults it). -/
def idleOut : Vec F S256x4096 .f32 := VO.read (Elt F) VO.junk

/-! ## Point by point -/

/-- The pair (output staging buffer, accumulator) after the body at position `n`. -/
def outsAt (c : Dev nD) : (n : ℕ) → n < cfg1.N → Vec F S256x4096 .f32 × Vec F S256x4096 .f32
  | 0, hn => (idleOut, sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩))
  | n + 1, hn =>
    if h0 : (n + 1) % 8 = 0 then
      (idleOut, sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond0 ⟨n + 1, hn⟩).mpr h0) (fun h => (fun h => by (try dsimp only at h); omega) ((hcond1 ⟨n + 1, hn⟩).mp h)) (iblk V c 0 ⟨n + 1, hn⟩) (iblk V c 1 ⟨n + 1, hn⟩))
    else
      if h1 : (n + 1) % 8 = 7 then
        (out_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (outsAt c n (Nat.lt_of_succ_lt hn)).2,
         sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (outsAt c n (Nat.lt_of_succ_lt hn)).2)
      else
        (idleOut, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (outsAt c n (Nat.lt_of_succ_lt hn)).2)

/-- `outsAt` at a first block: the accumulator cleared, then the block's product. -/
theorem outsAt_A (c : Dev nD) (t : Fin cfg1.N) (h0 : t.val % 8 = 0) (h1 : ¬t.val % 8 = 7) :
    outsAt V c t.val t.isLt = (idleOut, sout_A c (grid1.coords t) (ms_0 t) (hs_0 t) (ms_1 t) (hs_1 t) (ms_2 t) (hs_2 t) scM (Memref.isWhole_whole _) ((hcond0 t).mpr h0) (fun h => h1 ((hcond1 t).mp h)) (iblk V c 0 t) (iblk V c 1 t)) := by
  obtain ⟨n, hn⟩ := t
  cases n with
  | zero => exact rfl
  | succ n => exact (dif_pos h0).trans rfl

/-- `outsAt` at a middle block: the product added to what the point before left. -/
theorem outsAt_B (c : Dev nD) (t : Fin cfg1.N) (h0 : ¬t.val % 8 = 0) (h1 : ¬t.val % 8 = 7) :
    outsAt V c t.val t.isLt = (idleOut, sout_B c (grid1.coords t) (ms_0 t) (hs_0 t) (ms_1 t) (hs_1 t) (ms_2 t) (hs_2 t) scM (Memref.isWhole_whole _) (fun h => h0 ((hcond0 t).mp h)) (fun h => h1 ((hcond1 t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a last block: the product added, and the sum stored into the output window. -/
theorem outsAt_C (c : Dev nD) (t : Fin cfg1.N) (h0 : ¬t.val % 8 = 0) (h1 : t.val % 8 = 7) :
    outsAt V c t.val t.isLt = (out_C c (grid1.coords t) (ms_0 t) (hs_0 t) (ms_1 t) (hs_1 t) (ms_2 t) (hs_2 t) scM (Memref.isWhole_whole _) (fun h => h0 ((hcond0 t).mp h)) ((hcond1 t).mpr h1) (iblk V c 0 t) (iblk V c 1 t) (outsAt V c (t.val - 1) (Nat.lt_of_le_of_lt (Nat.sub_le _ _) t.isLt)).2,
      sout_C c (grid1.coords t) (ms_0 t) (hs_0 t) (ms_1 t) (hs_1 t) (ms_2 t) (hs_2 t) scM (Memref.isWhole_whole _) (fun h => h0 ((hcond0 t).mp h)) ((hcond1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first block of a row of the grid (and after the last point) the class's invariant (every scoped
    buffer the pipeline does not stage at anything, the generator register at some state); inside a row, the same with the
    accumulator at what the point before left. -/
def PhiS (c : Dev nD) : (n : ℕ) → n ≤ cfg1.N → sProp 𝕄
  | 0, _ => Pipeline.ΦA spec1 c
  | n + 1, hn => if (n + 1) % 8 = 0 then Pipeline.ΦA spec1 c
      else iprop(restWith c (owns (c : Thread nD τ) scM fullShare ((outsAt V c n hn).2)) ∗ (∃ r, prngReg c r))

theorem PhiS_first (c : Dev nD) (n : ℕ) (h : n ≤ cfg1.N) (hz : n % 8 = 0) : PhiS V c n h = Pipeline.ΦA spec1 c := by
  cases n with
  | zero => rfl
  | succ n => exact if_pos hz

theorem PhiS_succ (c : Dev nD) (n : ℕ) (hn : n < cfg1.N) (hz : ¬(n + 1) % 8 = 0) :
    PhiS V c (n + 1) hn = iprop(restWith c (owns (c : Thread nD τ) scM fullShare ((outsAt V c n hn).2)) ∗ (∃ r, prngReg c r)) :=
  if_neg hz

theorem PhiS_inside (c : Dev nD) (n : ℕ) (h : n ≤ cfg1.N) (hz : ¬n % 8 = 0) :
    PhiS V c n h = iprop(restWith c (owns (c : Thread nD τ) scM fullShare ((outsAt V c (n - 1) (by omega)).2)) ∗ (∃ r, prngReg c r)) := by
  cases n with
  | zero => exact absurd (Nat.zero_mod _) hz
  | succ n => exact if_neg hz

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

end Cert.KernelIdeal.R1

end
-- ==== Proof.KI.R1Body.lean ====
/-
  The dense product's body meets the pipeline's obligation at every point of the 32 × 8 grid, whatever the core's buffers hold
  at the region's entry.  At a point the two input windows' staging buffers hold their blocks; the point's position in its row
  of the grid (first block, a middle block, last block) selects the body's control case, whose run applies: the invariant hands
  the body the accumulator (at anything at a first block, at what the point before left otherwise), and takes it back at this
  point's contents — or, after a last block, at anything: the next row starts by clearing it.  The output window is idle and
  handed back untouched except at a last block, where it ends at the stored sum.
-/
import proofs.«167009_j2078764171786_2_alg».proof.Proof.KI.R1Outs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`: the invariant, the core's dues, each window's current staging buffer. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point, by the point's position in its row of the grid. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl]
  have hN : t.val < 256 := lt_of_lt_of_eq t.isLt (show cfg1.N = 256 from N_1)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 8 = 0
  · -- a first block: the accumulator is cleared
    have h1 : ¬t.val % 8 = 7 := by omega
    have hc0 : cond0 (grid1.coords t) := (hcond0 t).mpr h0
    have hc1 : ¬cond1 (grid1.coords t) := fun h => h1 ((hcond1 t).mp h)
    rw [Dat.leavesExact_idle (dat V c) 2 t (idleAt_2 t hc1) (noFlush_2 t hc1)]
    rw [PhiS_succ V c t.val t.isLt (by omega), outsAt_A V c t h0 h1]
    unfold sout_A; (try dsimp only)
    rw [Phi_castSucc V c t, PhiS_first V c _ _ h0, PhiA_eq]
    iintro ⟨⟨⟨R0, R1, R2, R3, R4, R5, R6, HS⟩, Hg⟩, Ho, ⟨%d0, H0⟩, ⟨%d1, H1⟩, ⟨%d2, H2⟩⟩
    iapply ((kernelRun_A c (grid1.coords t) _ _ _ _ _ _ _ _ hc0 hc1 (iblk V c 0 t) (iblk V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [R0 R1 R2 R3 R4 R5 R6 HS Hg]
    · isplitr [Hg]
      · isplitl [R0]; · iexact R0
        isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS
        ipureintro; exact View.read_writes_of_cover _ _ _ _ _ (scover_A c _ _ _ _ _ _ _ _ _ _ _ _ _)
      · iexact Hg
    isplitl [Ho]; · iexact Ho
    isplitl [H0]; · iexact H0
    isplitl [H1]; · iexact H1
    iexists _; iexact H2
  · by_cases h1 : t.val % 8 = 7
    · -- a last block: the sum is stored into the output window
      have hc0 : ¬cond0 (grid1.coords t) := fun h => h0 ((hcond0 t).mp h)
      have hc1 : cond1 (grid1.coords t) := (hcond1 t).mpr h1
      rw [show (dat V c).leavesExact 2 t = owns (c : Thread nD τ) (ms_2 t) fullShare ((dat V c).after 2 t) from by
        unfold Dat.leavesExact; rw [liveAt_2 t hc1], after_2]
      rw [outsAt_C V c t h0 h1]
      unfold out_C; (try dsimp only)
      rw [PhiS_first V c (t.val + 1) t.isLt (by omega), PhiA_eq]
      rw [Phi_castSucc V c t, PhiS_inside V c _ _ h0]
      iintro ⟨⟨⟨R0, R1, R2, R3, R4, R5, R6, HS⟩, Hg⟩, Ho, ⟨%d0, H0⟩, ⟨%d1, H1⟩, ⟨%d2, H2⟩⟩
      iapply ((kernelRun_C c (grid1.coords t) _ _ _ _ _ _ _ _ hc0 hc1 (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [R0 R1 R2 R3 R4 R5 R6 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          iexists _; unfold owns; iexists _; isplitr
          swap; · iexact HS
          ipureintro; rfl
        · iexact Hg
      isplitl [Ho]; · iexact Ho
      isplitl [H0]; · iexact H0
      isplitl [H1]; · iexact H1
      unfold owns; iexists _; isplitr
      swap; · iexact H2
      ipureintro; exact View.read_writes_of_cover _ _ _ _ _ (cover_C c _ _ _ _ _ _ _ _ _ _ _ _ _ _)
    · -- a middle block: the product is added to what the point before left
      have hc0 : ¬cond0 (grid1.coords t) := fun h => h0 ((hcond0 t).mp h)
      have hc1 : ¬cond1 (grid1.coords t) := fun h => h1 ((hcond1 t).mp h)
      rw [Dat.leavesExact_idle (dat V c) 2 t (idleAt_2 t hc1) (noFlush_2 t hc1)]
      rw [PhiS_succ V c t.val t.isLt (by omega), outsAt_B V c t h0 h1]
      unfold sout_B; (try dsimp only)
      rw [Phi_castSucc V c t, PhiS_inside V c _ _ h0]
      iintro ⟨⟨⟨R0, R1, R2, R3, R4, R5, R6, HS⟩, Hg⟩, Ho, ⟨%d0, H0⟩, ⟨%d1, H1⟩, ⟨%d2, H2⟩⟩
      iapply ((kernelRun_B c (grid1.coords t) _ _ _ _ _ _ _ _ hc0 hc1 (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [R0 R1 R2 R3 R4 R5 R6 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS
          ipureintro; exact View.read_writes_of_cover _ _ _ _ _ (scover_B c _ _ _ _ _ _ _ _ _ _ _ _ _ _)
        · iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_first V c 0 _ rfl]
  try exact Idealize.SL.BI.Entails.refl _

/-- After the last point the invariant is the launch's again: the grid ends on a last block, after which the accumulator is
    held at anything. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_first V c _ _ (show (Fin.last cfg1.N).val % 8 = 0 from by rw [Fin.val_last]; have : cfg1.N = 256 := N_1; omega)]
  try exact Idealize.SL.BI.Entails.refl _

end Cert.KernelIdeal.R1

end
-- ==== Proof.KI.Whole.lean ====
/-
  The whole program from its two regions.  @main is three stretches of host operations (they build the weight matrix), the
  banded product's region and the dense product's region.  Given, per region and for ANY contents `V` of the core's buffers at the
  region's entry, proof data whose arrays are `V`'s, the body obligation at every grid point, and the region's invariant
  entered from and left at the class's invariant (every scoped buffer the pipeline does not stage at anything, the generator
  register at some state), every weakly fair execution of @main terminates, nothing faulting, and every unscoped buffer ends at
  the contents the fold below names: the launch memory, then each host stretch, then each region's arrays at what the
  pipeline leaves (the inputs as entered, each output's write-backs folded).
-/
import proofs.«167009_j2078764171786_2_alg».proof.Proof.Gen.KernelIdeal.Launch
import proofs.«167009_j2078764171786_2_alg».proof.Proof.Gen.KernelIdeal.Skeleton
import proofs.«167009_j2078764171786_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167009_j2078764171786_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (D0 : (V : (c : Dev nD) → (b : Ref sig .tc) → Buf (Elt F) ((c : Thread nD τ).loc b)) → (c : Dev nD) → Dat τ (Elt F) Unit ℕ (UR sig nD τ) ℕ cfg0 c)
variable (D1 : (V : (c : Dev nD) → (b : Ref sig .tc) → Buf (Elt F) ((c : Thread nD τ).loc b)) → (c : Dev nD) → Dat τ (Elt F) Unit ℕ (UR sig nD τ) ℕ cfg1 c)
variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the three host stretches (region 0's entry). -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (D0 (V3 m ρ) c).arrAt w cfg0.N
theorem W4_arr (c : Dev nD) (w : Fin cfg0.W) :
    W4 D0 m ρ c (Proc.devRef .tc (Pipeline.arrRef spec0 w)) = (D0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 D0 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 D0 m ρ c b
theorem hF0 (c : Dev nD) (w : Fin cfg0.W) : (D0 (V3 m ρ) c).arrAt w cfg0.N = V4 D0 m ρ c (Pipeline.arrRef spec0 w) :=
  (W4_arr D0 m ρ c w).symm
theorem hrest0 (c : Dev nD) : ∀ b, b ∉ Finset.univ.image (Pipeline.arrRef spec0) → V4 D0 m ρ c b = V3 m ρ c b :=
  fun b hb => W4_of_ne D0 m ρ c b fun w e => hb (Finset.mem_image.mpr ⟨w, Finset.mem_univ _, e⟩)
/-- At region 1's exit: its arrays at what the pipeline leaves, every other buffer as entered. -/
def W5 (c : Dev nD) : Valuation τ sig (Elt F) :=
  Pipeline.withArrays spec1 c (W4 D0 m ρ c) fun w => (D1 (V4 D0 m ρ) c).arrAt w cfg1.N
theorem W5_arr (c : Dev nD) (w : Fin cfg1.W) :
    W5 D0 D1 m ρ c (Proc.devRef .tc (Pipeline.arrRef spec1 w)) = (D1 (V4 D0 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 D0 D1 m ρ c (Proc.devRef .tc b) = W4 D0 m ρ c (Proc.devRef .tc b) := by
  unfold W5; exact Pipeline.withArrays_of_ne spec1 c _ _ b hb
abbrev V5 : (c : Dev nD) → (b : Ref sig .tc) → Buf (Elt F) ((c : Thread nD τ).loc b) := fun c b => W5 D0 D1 m ρ c b
theorem hF1 (c : Dev nD) (w : Fin cfg1.W) : (D1 (V4 D0 m ρ) c).arrAt w cfg1.N = V5 D0 D1 m ρ c (Pipeline.arrRef spec1 w) :=
  (W5_arr D0 D1 m ρ c w).symm
theorem hrest1 (c : Dev nD) : ∀ b, b ∉ Finset.univ.image (Pipeline.arrRef spec1) → V5 D0 D1 m ρ c b = V4 D0 m ρ c b :=
  fun b hb => W5_of_ne D0 D1 m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => D0 (V3 m ρ) c
  | ⟨1, _⟩ => fun c => D1 (V4 D0 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 D0 D1 m ρ c) ∗ ∃ r, prngReg c r)

/-! ## The regions as segments -/

/-- What is asked of the two regions' proof data, for every entry contents `V`. -/
structure Given : Prop where
  hA0 : ∀ V c w, (D0 V c).A w = V c (Pipeline.arrRef spec0 w)
  hq0 : ∀ V c w, (D0 V c).q w = fullShare
  howed0 : ∀ V c t, (D0 V c).owed t = 0
  hrec0 : ∀ V c t, (D0 V c).recorded t = Set.univ
  hB0 : ∀ V c, BodyObligation (D0 V c) (defs₀ (F := F)) Variants.none () Set.univ
  hin0 : ∀ V c, (Pipeline.ΦA spec0 c : sProp 𝕄) ⊢ (D0 V c).Φ 0
  hout0 : ∀ V c, (D0 V c).Φ (Fin.last cfg0.N) ⊢ (Pipeline.ΦA spec0 c : sProp 𝕄)
  hA1 : ∀ V c w, (D1 V c).A w = V c (Pipeline.arrRef spec1 w)
  hq1 : ∀ V c w, (D1 V c).q w = fullShare
  howed1 : ∀ V c t, (D1 V c).owed t = 0
  hrec1 : ∀ V c t, (D1 V c).recorded t = Set.univ
  hB1 : ∀ V c, BodyObligation (D1 V c) (defs₀ (F := F)) Variants.none () Set.univ
  hin1 : ∀ V c, (Pipeline.ΦA spec1 c : sProp 𝕄) ⊢ (D1 V c).Φ 0
  hout1 : ∀ V c, (D1 V c).Φ (Fin.last cfg1.N) ⊢ (Pipeline.ΦA spec1 c : sProp 𝕄)

variable (hG : Given D0 D1)
include hG

set_option backward.isDefEq.respectTransparency.types false in
/-- Region 0's entry: its arrays split out of the unscoped buffers at the entry contents; the generator register goes to the
    invariant, the other unscoped buffers bypass the region, nothing is owed. -/
theorem hentry0 (c : Dev nD) :
    (iprop(iprop(StableHlo.held (c : Thread nD τ) (Pipeline.ucRefs τ sig) (W3 m ρ c) ∗ R c) ∗ Pipeline.ownSems0 (fun k : PEmpty => k.elim) c ∗ levAts L lv) : sProp 𝕄)
      ⊢ |={Set.univ}=> iprop((pdats D0 D1 m ρ 0 c).arrays ((pdats D0 D1 m ρ 0 c).arrAt · 0) ∗ Pipeline.prefHeld (pcfgs (F := F) 0).pre c (fun _ => fullShare) (adm 0).1
        ∗ (pdats D0 D1 m ρ 0 c).owesAt () 0 ∗ iprop(∃ r, prngReg c r) ∗ Pipeline.unscopedRest (Ix := Unit) (Name := ℕ) (U := UR sig nD τ) (Lvl := ℕ) spec0 c (V3 m ρ c)) := by
  rw [Pipeline.ownSems0_none]
  have hsplit := Pipeline.arrays_of_unscopedBufs (p := 0) (pcfgs (F := F)) adm (pdats D0 D1 m ρ) launch0.win launch0.arr_whole c
    ((pdats D0 D1 m ρ 0 c).share_full fun w => hG.hq0 _ c w) (V3 m ρ c) fun w => hG.hA0 _ c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    rw [show (pdats D0 D1 m ρ 0 c).owed 0 = 0 from hG.howed0 _ c 0]
    icases HO with ⟨%W, HO⟩; iexists W; isplitr
    · ipureintro; exact fun _ _ => Or.inl (by rw [show (pdats D0 D1 m ρ 0 c).recorded 0 = Set.univ from hG.hrec0 _ c 0]; exact Set.mem_univ _)
    iexact HO
  isplitl [Hp]; · iexact Hp
  iexact Hrest

theorem hinR0 (c : Dev nD) :
    (iprop(iprop(∃ r, prngReg c r) ∗ Pipeline.prefHeld (pcfgs (F := F) 0).pre c (fun _ => fullShare) (adm 0).1 ∗ Pipeline.scopedRest (pcfgs (F := F) 0).spec c) : sProp 𝕄) ⊢ (pdats D0 D1 m ρ 0 c).Φ 0 := by
  have h1 : (iprop(iprop(∃ r, prngReg c r) ∗ Pipeline.prefHeld (pcfgs (F := F) 0).pre c (fun _ => fullShare) (adm 0).1 ∗ Pipeline.scopedRest (pcfgs (F := F) 0).spec c) : sProp 𝕄) ⊢ (Pipeline.ΦA spec0 c : sProp 𝕄) := by
    unfold Pipeline.ΦA
    iintro ⟨Hp, -, Hr⟩
    isplitl [Hr]; · iexact Hr
    iexact Hp
  exact h1.trans (hG.hin0 (V3 m ρ) c)

theorem houtR0 (c : Dev nD) :
    (pdats D0 D1 m ρ 0 c).Φ (Fin.last (Pipeline.pin (pcfgs (F := F)) adm 0).N) ⊢ (iprop(iprop(∃ r, prngReg c r) ∗ Pipeline.ownSems0 (fun k : PEmpty => k.elim) c ∗ Pipeline.scopedRest (pcfgs (F := F) 0).spec c) : sProp 𝕄) := by
  have h1 : (Pipeline.ΦA spec0 c : sProp 𝕄) ⊢ (iprop(iprop(∃ r, prngReg c r) ∗ Pipeline.ownSems0 (fun k : PEmpty => k.elim) c ∗ Pipeline.scopedRest (pcfgs (F := F) 0).spec c) : sProp 𝕄) := by
    rw [Pipeline.ownSems0_none]; unfold Pipeline.ΦA
    iintro ⟨Hr, Hp⟩
    isplitl [Hp]; · iexact Hp
    isplitr; · iempintro
    iexact Hr
  exact (hG.hout0 (V3 m ρ) c).trans h1

set_option backward.isDefEq.respectTransparency.types false in
theorem hexit0 (c : Dev nD) :
    (iprop((pdats D0 D1 m ρ 0 c).arrays ((pdats D0 D1 m ρ 0 c).arrAt · (Pipeline.pin (pcfgs (F := F)) adm 0).N) ∗ (pdats D0 D1 m ρ 0 c).owesAt () (Fin.last (Pipeline.pin (pcfgs (F := F)) adm 0).N) ∗ iprop(∃ r, prngReg c r) ∗ Pipeline.unscopedRest (Ix := Unit) (Name := ℕ) (U := UR sig nD τ) (Lvl := ℕ) spec0 c (V3 m ρ c)) : sProp 𝕄)
      ⊢ |={Set.univ}=> iprop(StableHlo.held (c : Thread nD τ) (Pipeline.ucRefs τ sig) (W4 D0 m ρ c) ∗ R c) := by
  have hjoin := Pipeline.unscopedBufs_of_arrays (p := 0) (pcfgs (F := F)) adm (Ix := Unit) (Name := ℕ) (U := UR sig nD τ) (Lvl := ℕ)
    launch0.win launch0.arr_whole c (pdats D0 D1 m ρ) ((pdats D0 D1 m ρ 0 c).share_full fun w => hG.hq0 _ c w)
    (V3 m ρ c) (V4 D0 m ρ c) ((pdats D0 D1 m ρ 0 c).arrAt · cfg0.N) (hF0 D0 m ρ c) (hrest0 D0 m ρ c)
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  rw [show (pdats D0 D1 m ρ 0 c).owed (Fin.last _) = 0 from hG.howed0 _ c _]
  icases HO with ⟨%W, -, HO⟩; iexists W; iexact HO

/-- Region 0 over the thread state: entered from every unscoped buffer at its entry contents, left at its exit contents; the
    kernel has no semaphore of its own. -/
def reg0 : Pipeline.RegionSeg (pcfgs (F := F)) adm (pdats D0 D1 m ρ) () defs₀ 𝒱₀ L lv 0 where
  win := launch0.win.to₀
  block_pos := launch0.block_pos
  stage_whole := launch0.stage_whole
  K := PEmpty
  osem k := k.elim
  ho := Pipeline.OwnSemFacts.none _
  hbody c := (hG.hB0 (V3 m ρ) c).loose
  hwaits := Pipeline.hwaits_of_owed_zero _ _ _ _ L lv 0 fun c t => hG.howed0 _ c t
  pre c := iprop(StableHlo.held (c : Thread nD τ) (Pipeline.ucRefs τ sig) (W3 m ρ c) ∗ R c)
  post c := iprop(StableHlo.held (c : Thread nD τ) (Pipeline.ucRefs τ sig) (W4 D0 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := hentry0 D0 D1 m ρ hG c
  hin c := hinR0 D0 D1 m ρ hG c
  hout c := houtR0 D0 D1 m ρ hG c
  hexit c := hexit0 D0 D1 m ρ hG c

set_option backward.isDefEq.respectTransparency.types false in
/-- Region 1's entry: its arrays split out of the unscoped buffers at the entry contents; the generator register goes to the
    invariant, the other unscoped buffers bypass the region, nothing is owed. -/
theorem hentry1 (c : Dev nD) :
    (iprop(iprop(StableHlo.held (c : Thread nD τ) (Pipeline.ucRefs τ sig) (W4 D0 m ρ c) ∗ R c) ∗ Pipeline.ownSems0 (fun k : PEmpty => k.elim) c ∗ levAts L lv) : sProp 𝕄)
      ⊢ |={Set.univ}=> iprop((pdats D0 D1 m ρ 1 c).arrays ((pdats D0 D1 m ρ 1 c).arrAt · 0) ∗ Pipeline.prefHeld (pcfgs (F := F) 1).pre c (fun _ => fullShare) (adm 1).1
        ∗ (pdats D0 D1 m ρ 1 c).owesAt () 0 ∗ iprop(∃ r, prngReg c r) ∗ Pipeline.unscopedRest (Ix := Unit) (Name := ℕ) (U := UR sig nD τ) (Lvl := ℕ) spec1 c (V4 D0 m ρ c)) := by
  rw [Pipeline.ownSems0_none]
  have hsplit := Pipeline.arrays_of_unscopedBufs (p := 1) (pcfgs (F := F)) adm (pdats D0 D1 m ρ) launch1.win launch1.arr_whole c
    ((pdats D0 D1 m ρ 1 c).share_full fun w => hG.hq1 _ c w) (V4 D0 m ρ c) fun w => hG.hA1 _ c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    rw [show (pdats D0 D1 m ρ 1 c).owed 0 = 0 from hG.howed1 _ c 0]
    icases HO with ⟨%W, HO⟩; iexists W; isplitr
    · ipureintro; exact fun _ _ => Or.inl (by rw [show (pdats D0 D1 m ρ 1 c).recorded 0 = Set.univ from hG.hrec1 _ c 0]; exact Set.mem_univ _)
    iexact HO
  isplitl [Hp]; · iexact Hp
  iexact Hrest

theorem hinR1 (c : Dev nD) :
    (iprop(iprop(∃ r, prngReg c r) ∗ Pipeline.prefHeld (pcfgs (F := F) 1).pre c (fun _ => fullShare) (adm 1).1 ∗ Pipeline.scopedRest (pcfgs (F := F) 1).spec c) : sProp 𝕄) ⊢ (pdats D0 D1 m ρ 1 c).Φ 0 := by
  have h1 : (iprop(iprop(∃ r, prngReg c r) ∗ Pipeline.prefHeld (pcfgs (F := F) 1).pre c (fun _ => fullShare) (adm 1).1 ∗ Pipeline.scopedRest (pcfgs (F := F) 1).spec c) : sProp 𝕄) ⊢ (Pipeline.ΦA spec1 c : sProp 𝕄) := by
    unfold Pipeline.ΦA
    iintro ⟨Hp, -, Hr⟩
    isplitl [Hr]; · iexact Hr
    iexact Hp
  exact h1.trans (hG.hin1 (V4 D0 m ρ) c)

theorem houtR1 (c : Dev nD) :
    (pdats D0 D1 m ρ 1 c).Φ (Fin.last (Pipeline.pin (pcfgs (F := F)) adm 1).N) ⊢ (iprop(iprop(∃ r, prngReg c r) ∗ Pipeline.ownSems0 (fun k : PEmpty => k.elim) c ∗ Pipeline.scopedRest (pcfgs (F := F) 1).spec c) : sProp 𝕄) := by
  have h1 : (Pipeline.ΦA spec1 c : sProp 𝕄) ⊢ (iprop(iprop(∃ r, prngReg c r) ∗ Pipeline.ownSems0 (fun k : PEmpty => k.elim) c ∗ Pipeline.scopedRest (pcfgs (F := F) 1).spec c) : sProp 𝕄) := by
    rw [Pipeline.ownSems0_none]; unfold Pipeline.ΦA
    iintro ⟨Hr, Hp⟩
    isplitl [Hp]; · iexact Hp
    isplitr; · iempintro
    iexact Hr
  exact (hG.hout1 (V4 D0 m ρ) c).trans h1

set_option backward.isDefEq.respectTransparency.types false in
theorem hexit1 (c : Dev nD) :
    (iprop((pdats D0 D1 m ρ 1 c).arrays ((pdats D0 D1 m ρ 1 c).arrAt · (Pipeline.pin (pcfgs (F := F)) adm 1).N) ∗ (pdats D0 D1 m ρ 1 c).owesAt () (Fin.last (Pipeline.pin (pcfgs (F := F)) adm 1).N) ∗ iprop(∃ r, prngReg c r) ∗ Pipeline.unscopedRest (Ix := Unit) (Name := ℕ) (U := UR sig nD τ) (Lvl := ℕ) spec1 c (V4 D0 m ρ c)) : sProp 𝕄)
      ⊢ |={Set.univ}=> iprop(Tₙ D0 D1 m ρ c ∗ ∃ W, owes (c : Thread nD τ) (0 : CellTallies nD τ sig Unit) W) := by
  have hjoin := Pipeline.unscopedBufs_of_arrays (p := 1) (pcfgs (F := F)) adm (Ix := Unit) (Name := ℕ) (U := UR sig nD τ) (Lvl := ℕ)
    launch1.win launch1.arr_whole c (pdats D0 D1 m ρ) ((pdats D0 D1 m ρ 1 c).share_full fun w => hG.hq1 _ c w)
    (V4 D0 m ρ c) (V5 D0 D1 m ρ c) ((pdats D0 D1 m ρ 1 c).arrAt · cfg1.N) (hF1 D0 D1 m ρ c) (hrest1 D0 D1 m ρ c)
  rw [Pipeline.unscopedBufs_held] at hjoin
  iintro ⟨Ha, HO, HY, Hrest⟩
  imodintro
  isplitl [Ha Hrest HY]
  · isplitl [Ha Hrest]
    · iapply hjoin; isplitl [Ha] <;> iassumption
    iexact HY
  unfold Pipeline.Dat.owesAt Pipeline.owesWithin
  rw [show (pdats D0 D1 m ρ 1 c).owed (Fin.last _) = 0 from hG.howed1 _ c _]
  icases HO with ⟨%W, -, HO⟩; iexists W; iexact HO

/-- Region 1 over the thread state: entered from every unscoped buffer at its entry contents, left at its exit contents; the
    kernel has no semaphore of its own. -/
def reg1 : Pipeline.RegionSeg (pcfgs (F := F)) adm (pdats D0 D1 m ρ) () defs₀ 𝒱₀ L lv 1 where
  win := launch1.win.to₀
  block_pos := launch1.block_pos
  stage_whole := launch1.stage_whole
  K := PEmpty
  osem k := k.elim
  ho := Pipeline.OwnSemFacts.none _
  hbody c := (hG.hB1 (V4 D0 m ρ) c).loose
  hwaits := Pipeline.hwaits_of_owed_zero _ _ _ _ L lv 1 fun c t => hG.howed1 _ c t
  pre c := iprop(StableHlo.held (c : Thread nD τ) (Pipeline.ucRefs τ sig) (W4 D0 m ρ c) ∗ R c)
  post c := iprop(Tₙ D0 D1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 D0 m ρ c)
  hentry c := hentry1 D0 D1 m ρ hG c
  hin c := hinR1 D0 D1 m ρ hG c
  hout c := houtR1 D0 D1 m ρ hG c
  hexit c := hexit1 D0 D1 m ρ hG c

/-! ## @main as segments, and the launch -/

abbrev segs : List (Pipeline.Seg (pcfgs (F := F)) adm (pdats D0 D1 m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 D0 D1 m ρ hG),
    .region (reg1 D0 D1 m ρ hG) ]

theorem main_run (c : Dev nD) : main (F := F) c = Pipeline.Seg.run (segs D0 D1 m ρ hG) := (main_chain c).trans (by chain_rfl)

set_option backward.isDefEq.respectTransparency.types false in
/-- THE RUN: from any memory with zero counters every weakly fair execution of @main on the TensorCores terminates, nothing
    faulting, and every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 D0 D1 m ρ c b) :=
  Pipeline.θ_run_regions_kit (pcfgs (F := F)) adm (pdats D0 D1 m ρ) () cellOf_inj emb₁ defs₀ 𝒱₀ L lv m ρ main (segs D0 D1 m ρ hG)
    (fun c Q => by rw [main_run D0 D1 m ρ hG c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ D0 D1 m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 D0 D1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 D0 D1 m ρ c) s')
      isplitl [Hh] <;> iassumption)
    (hQ := fun s h c => h c)

end
end Cert.KernelIdeal.Whole

end
-- ==== Proof.KI.Frame.lean ====
/-
  The program's run with both regions' proof data in place, and its frame: every weakly fair execution terminates, nothing
  faulting; every unscoped buffer ends at the fold's last contents; and the two argument arrays end as launched — no host
  stretch writes an argument, and a region reads it through an input window (whose array the pipeline leaves as entered) or
  bypasses it.
-/
import proofs.«167009_j2078764171786_2_alg».proof.Proof.KI.R0Body
import proofs.«167009_j2078764171786_2_alg».proof.Proof.KI.R1Body
import proofs.«167009_j2078764171786_2_alg».proof.Proof.KI.Whole

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two regions' proof data meet what the whole run asks of them. -/
theorem given : Given (F := F) (fun V c => R0.dat V c) (fun V c => R1.dat V c) where
  hA0 := R0.A_eq
  hq0 := fun _ _ _ => rfl
  howed0 := fun _ _ _ => rfl
  hrec0 := fun _ _ _ => rfl
  hB0 := R0.body_obligation
  hin0 := R0.hin
  hout0 := R0.hout
  hA1 := R1.A_eq
  hq1 := fun _ _ _ => rfl
  howed1 := fun _ _ _ => rfl
  hrec1 := fun _ _ _ => rfl
  hB1 := R1.body_obligation
  hin1 := R1.hin
  hout1 := R1.hout

/-- Core `c`'s unscoped buffers when the program returns. -/
abbrev Wend (c : Dev nD) : Valuation τ sig (Elt F) := W5 (fun V c => R0.dat V c) (fun V c => R1.dat V c) m ρ c
/-- Core `c`'s buffers at the dense product's entry, read at the TensorCore's references. -/
abbrev Vmid : (c : Dev nD) → (b : Ref sig .tc) → Buf (Elt F) ((c : Thread nD τ).loc b) := V4 (fun V c => R0.dat V c) m ρ

/-- The run with both regions in place. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  run (fun V c => R0.dat V c) (fun V c => R1.dat V c) m ρ given

/-- The host stretches leave the first argument as launched. -/
theorem W3_main_arg0 (c : Dev nD) : W3 m ρ c (Proc.devRef .tc main_arg0) = m ((c : Thread nD τ).loc main_arg0) :=
  (V3_of m c main_arg0 (by decide)).trans <| (V2_of m c main_arg0 (by decide)).trans <| (V1_of m c main_arg0 (by decide)).trans rfl
theorem W3_main_arg1 (c : Dev nD) : W3 m ρ c (Proc.devRef .tc main_arg1) = m ((c : Thread nD τ).loc main_arg1) :=
  (V3_of m c main_arg1 (by decide)).trans <| (V2_of m c main_arg1 (by decide)).trans <| (V1_of m c main_arg1 (by decide)).trans rfl

/-- The first argument is the dense product's window 0: the pipeline leaves it as entered; the banded product bypasses it. -/
theorem Wend_main_arg0 (c : Dev nD) : Wend m ρ c (Proc.devRef .tc main_arg0) = m ((c : Thread nD τ).loc main_arg0) :=
  calc Wend m ρ c (Proc.devRef .tc main_arg0)
    _ = W4 (fun V c => R0.dat V c) m ρ c (Proc.devRef .tc main_arg0) :=
        (W5_arr (fun V c => R0.dat V c) (fun V c => R1.dat V c) m ρ c 0).trans (((R1.dat (Vmid m ρ) c).arrAt_in 0 rfl _).trans (R1.A_eq (Vmid m ρ) c 0))
    _ = W3 m ρ c (Proc.devRef .tc main_arg0) := W4_of_ne (fun V c => R0.dat V c) m ρ c main_arg0 (by decide)
    _ = m ((c : Thread nD τ).loc main_arg0) := W3_main_arg0 m ρ c

/-- The second argument is the banded product's window 1; the dense product bypasses it. -/
theorem Wend_main_arg1 (c : Dev nD) : Wend m ρ c (Proc.devRef .tc main_arg1) = m ((c : Thread nD τ).loc main_arg1) :=
  calc Wend m ρ c (Proc.devRef .tc main_arg1)
    _ = W4 (fun V c => R0.dat V c) m ρ c (Proc.devRef .tc main_arg1) := W5_of_ne (fun V c => R0.dat V c) (fun V c => R1.dat V c) m ρ c main_arg1 (by decide)
    _ = W3 m ρ c (Proc.devRef .tc main_arg1) :=
        (W4_arr (fun V c => R0.dat V c) m ρ c 1).trans (((R0.dat (V3 m ρ) c).arrAt_in 1 rfl _).trans (R0.A_eq (V3 m ρ) c 1))
    _ = m ((c : Thread nD τ).loc main_arg1) := W3_main_arg1 m ρ c

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (Wend_main_arg0 m ρ c),
    (h c _ (mem_uc main_arg1 (by decide))).trans (Wend_main_arg1 m ρ c)⟩) (run_main m ρ)

end Cert.KernelIdeal.Whole

end
-- ==== Proof.KI.Access.lean ====
/-
  The arrays the two regions read and write, as plain functions of two positions into the extended reals (at the ideal
  instance every float format's values are extended reals).
-/
import proofs.«167009_j2078764171786_2_alg».proof.Proof.KI.R0Outs
import proofs.«167009_j2078764171786_2_alg».proof.Proof.KI.R1Outs
import Idealize.ShloMosaic.Lib.ValueIdx

noncomputable section

namespace Cert.KernelIdeal.Finals

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The first argument `A` (8192 × 4096) as the dense product finds it. -/
def arrA (c : Dev nD) : Fin 8192 → Fin 4096 → EReal := fun p j => V c main_arg0 (ix2 p j)
/-- The banded product's output `T` (4096 × 4096) as the dense product finds it. -/
def arrT (c : Dev nD) : Fin 4096 → Fin 4096 → EReal := fun l q => V c main_v18 (ix2 l q)
/-- The weight matrix `W` (4096 × 4096) as the banded product finds it. -/
def arrW (c : Dev nD) : Fin 4096 → Fin 4096 → EReal := fun j k => V c main_v17 (ix2 j k)
/-- The second argument `B` (4096 × 4096) as the banded product finds it. -/
def arrB (c : Dev nD) : Fin 4096 → Fin 4096 → EReal := fun q k => V c main_arg1 (ix2 q k)
/-- The dense product's output array after the region. -/
def out1 (c : Dev nD) : Fin 8192 → Fin 4096 → EReal := fun p q => (R1.dat V c).arrAt 2 cfg1.N (ix2 p q)
/-- The banded product's output array after the region. -/
def out0 (c : Dev nD) : Fin 4096 → Fin 4096 → EReal := fun j q => (R0.dat V c).arrAt 2 cfg0.N (ix2 j q)

end Cert.KernelIdeal.Finals

end
-- ==== Proof.KI.BlockReads.lean ====
/-
  Each input window's block at a grid point, read at an in-block index, is the window's array at the whole-array index the
  block's rectangle gives: block index times block size plus the in-block coordinate, axis by axis.

  * Second call (grid 32 × 8; point  t  has row block  t / 8  of 256 rows and contraction block  t % 8  of 512):
    the left operand's block is rows  256 · (t / 8) + r,  columns  512 · (t % 8) + l;  the right operand's block is rows
    512 · (t % 8) + l,  all 4096 columns.
  * First call (grid 8 × 8 × 3; point  t  has row block  t / 24,  column block  (t / 3) % 8,  offset  t % 3,  and visits
    the contraction block  min 7 (t / 24 + t % 3 - 1)  (truncated subtraction)): the left operand's block is rows
    512 · (t / 24) + r  and the right operand's rows  512 · ((t / 3) % 8) + s,  both at the visited block's columns.
  * The output windows' block positions:  (t / 8, 0)  in the second call,  (t / 24, (t / 3) % 8)  in the first.
  The index maps are decided once over each grid, as equalities of naturals.
-/
import proofs.«167009_j2078764171786_2_alg».proof.Proof.KI.R0Kit
import proofs.«167009_j2078764171786_2_alg».proof.Proof.KI.R1Kit
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- A point of the second call's grid is below 256. -/
theorem lt1 (t : Fin cfg1.N) : t.val < 256 := lt_of_lt_of_eq t.isLt N_1

/-- A point of the first call's grid is below 192. -/
theorem lt0 (t : Fin cfg0.N) : t.val < 192 := lt_of_lt_of_eq t.isLt N_0

/-! ## The index maps over the grids -/

/-- Second call, left operand: block `(t / 8, t % 8)`. -/
theorem idx1_0 : ∀ t : Fin cfg1.N, win1_0.index t (0 : Fin 2) = t.val / 8 ∧ win1_0.index t (1 : Fin 2) = t.val % 8 :=
  (by decide +kernel : ∀ t : Fin grid1.N, win1_0.index t (0 : Fin 2) = t.val / 8 ∧ win1_0.index t (1 : Fin 2) = t.val % 8)

/-- Second call, right operand: block `(t % 8, 0)`. -/
theorem idx1_1 : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)

/-- Second call, output: block `(t / 8, 0)`. -/
theorem idx1_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)

/-- First call, left operand: block `(t / 24, min 7 (t / 24 + t % 3 - 1))`. -/
theorem idx0_0 : ∀ t : Fin cfg0.N, win0_0.index t (0 : Fin 2) = t.val / 24
    ∧ win0_0.index t (1 : Fin 2) = min 7 (t.val / 24 + t.val % 3 - 1) :=
  (by decide +kernel : ∀ t : Fin grid0.N, win0_0.index t (0 : Fin 2) = t.val / 24
    ∧ win0_0.index t (1 : Fin 2) = min 7 (t.val / 24 + t.val % 3 - 1))

/-- First call, right operand: block `((t / 3) % 8, min 7 (t / 24 + t % 3 - 1))`. -/
theorem idx0_1 : ∀ t : Fin cfg0.N, win0_1.index t (0 : Fin 2) = (t.val / 3) % 8
    ∧ win0_1.index t (1 : Fin 2) = min 7 (t.val / 24 + t.val % 3 - 1) :=
  (by decide +kernel : ∀ t : Fin grid0.N, win0_1.index t (0 : Fin 2) = (t.val / 3) % 8
    ∧ win0_1.index t (1 : Fin 2) = min 7 (t.val / 24 + t.val % 3 - 1))

/-- First call, output: block `(t / 24, (t / 3) % 8)`. -/
theorem idx0_2 : ∀ t : Fin cfg0.N, win0_2.index t (0 : Fin 2) = t.val / 24 ∧ win0_2.index t (1 : Fin 2) = (t.val / 3) % 8 :=
  (by decide +kernel : ∀ t : Fin grid0.N, win0_2.index t (0 : Fin 2) = t.val / 24 ∧ win0_2.index t (1 : Fin 2) = (t.val / 3) % 8)

/-! ## The second call's input blocks -/

/-- The left operand's block at point `t`, at `(r, l)`, is the array at `(256 · (t / 8) + r, 512 · (t % 8) + l)`. -/
theorem a_blk (c : Dev nD) (t : Fin cfg1.N) (r : Fin 256) (l : Fin 512) :
    R1.iblk V c 0 t (ix2 r l) = (V c main_arg0 : S8192x4096.Idx → Elt F .f32)
      (ix2 ⟨256 * (t.val / 8) + r.val, by have := lt1 t; omega⟩
        ⟨512 * (t.val % 8) + l.val, by omega⟩) := by
  obtain ⟨e0, e1⟩ := idx1_0 t
  unfold R1.iblk
  rw [View.read_apply]
  show V c main_arg0 _ = V c main_arg0 _
  congr 1
  funext a
  apply Fin.ext
  match a with
  | ⟨0, _⟩ => show win1_0.index t 0 * 256 + 1 * r.val = 256 * (t.val / 8) + r.val; rw [e0]; omega
  | ⟨1, _⟩ => show win1_0.index t 1 * 512 + 1 * l.val = 512 * (t.val % 8) + l.val; rw [e1]; omega

/-- The right operand's block at point `t`, at `(l, q)`, is the array at `(512 · (t % 8) + l, q)`. -/
theorem t_blk (c : Dev nD) (t : Fin cfg1.N) (l : Fin 512) (q : Fin 4096) :
    R1.iblk V c 1 t (ix2 l q) = (V c main_v18 : S4096x4096.Idx → Elt F .bf16)
      (ix2 ⟨512 * (t.val % 8) + l.val, by omega⟩ q) := by
  obtain ⟨e0, e1⟩ := idx1_1 t
  unfold R1.iblk
  rw [View.read_apply]
  show V c main_v18 _ = V c main_v18 _
  congr 1
  funext a
  apply Fin.ext
  match a with
  | ⟨0, _⟩ => show win1_1.index t 0 * 512 + 1 * l.val = 512 * (t.val % 8) + l.val; rw [e0]; omega
  | ⟨1, _⟩ => show win1_1.index t 1 * 4096 + 1 * q.val = q.val; rw [e1]; omega

/-! ## The first call's input blocks -/

/-- The left operand's block at point `t`, at `(r, l)`: row block `t / 24`, the visited contraction block's columns. -/
theorem w_blk (c : Dev nD) (t : Fin cfg0.N) (r l : Fin 512) :
    R0.iblk V c 0 t (ix2 r l) = (V c main_v17 : S4096x4096.Idx → Elt F .bf16)
      (ix2 ⟨512 * (t.val / 24) + r.val, by have := lt0 t; omega⟩
        ⟨512 * min 7 (t.val / 24 + t.val % 3 - 1) + l.val, by omega⟩) := by
  obtain ⟨e0, e1⟩ := idx0_0 t
  unfold R0.iblk
  rw [View.read_apply]
  show V c main_v17 _ = V c main_v17 _
  congr 1
  funext a
  apply Fin.ext
  match a with
  | ⟨0, _⟩ => show win0_0.index t 0 * 512 + 1 * r.val = 512 * (t.val / 24) + r.val; rw [e0]; omega
  | ⟨1, _⟩ => show win0_0.index t 1 * 512 + 1 * l.val = 512 * min 7 (t.val / 24 + t.val % 3 - 1) + l.val; rw [e1]; omega

/-- The right operand's block at point `t`, at `(s, l)`: column block `(t / 3) % 8` as its rows, the visited contraction
    block's columns. -/
theorem b_blk (c : Dev nD) (t : Fin cfg0.N) (s l : Fin 512) :
    R0.iblk V c 1 t (ix2 s l) = (V c main_arg1 : S4096x4096.Idx → Elt F .f32)
      (ix2 ⟨512 * ((t.val / 3) % 8) + s.val, by omega⟩
        ⟨512 * min 7 (t.val / 24 + t.val % 3 - 1) + l.val, by omega⟩) := by
  obtain ⟨e0, e1⟩ := idx0_1 t
  unfold R0.iblk
  rw [View.read_apply]
  show V c main_arg1 _ = V c main_arg1 _
  congr 1
  funext a
  apply Fin.ext
  match a with
  | ⟨0, _⟩ => show win0_1.index t 0 * 512 + 1 * s.val = 512 * ((t.val / 3) % 8) + s.val; rw [e0]; omega
  | ⟨1, _⟩ => show win0_1.index t 1 * 512 + 1 * l.val = 512 * min 7 (t.val / 24 + t.val % 3 - 1) + l.val; rw [e1]; omega

end Cert.KernelIdeal.Blocks

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.KI.Payload.lean ====
/-
  The payloads of the two kernel functions read at an index, at the ideal instance.

  * The cleared accumulator of either function is the zero word broadcast: it reads  0  everywhere.
  * The accumulating payload of the first function reads, at  (r, s),  the accumulator there plus the contraction over
    the second axis of both operands:  acc[r, s] + ∑ₗ x[r, l] · w[s, l]  (the right operand is narrowed first, which is
    the identity on extended reals).
  * The accumulating payload of the second function reads, at  (r, c),  acc[r, c] + ∑ₗ a[r, l] · t[l, c].
  * The narrowed block stored by the first function is the block itself.
-/
import proofs.«167009_j2078764171786_2_alg».proof.Proof.Gen.KernelIdeal.Skeleton
import proofs.«167009_j2078764171786_2_alg».proof.Proof.LibMatmulSum
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-! ## The cleared accumulators -/

/-- The first function's cleared accumulator reads `0` everywhere. -/
theorem k0_pay1_apply (r s : Fin 512) : k0_pay1 (F := Ideal) (ix2 r s) = 0 := by
  unfold k0_pay1
  rw [shapeCast_self]
  exact Ideal.ofBits_zero_f32

/-- The second function's cleared accumulator reads `0` everywhere. -/
theorem k1_pay1_apply (r : Fin 256) (c : Fin 4096) : k1_pay1 (F := Ideal) (ix2 r c) = 0 := by
  unfold k1_pay1
  rw [shapeCast_self]
  exact Ideal.ofBits_zero_f32

/-! ## The operand indices of the first function's product: both operands contracted along their second axis -/

theorem lhs0_0 (j : S512x512.Idx) (q : dot_S512x512_S512x512_S512x512_1_1_0_0_n_n.contr.Idx) :
    (dot_S512x512_S512x512_S512x512_1_1_0_0_n_n.lhsIdx j q 0).val = (j 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl

theorem lhs0_1 (j : S512x512.Idx) (q : dot_S512x512_S512x512_S512x512_1_1_0_0_n_n.contr.Idx) :
    (dot_S512x512_S512x512_S512x512_1_1_0_0_n_n.lhsIdx j q 1).val = (q ⟨0, by decide⟩).val :=
  dot_S512x512_S512x512_S512x512_1_1_0_0_n_n.lhsIdx_val_of_single rfl j q

theorem rhs0_0 (j : S512x512.Idx) (q : dot_S512x512_S512x512_S512x512_1_1_0_0_n_n.contr.Idx) :
    (dot_S512x512_S512x512_S512x512_1_1_0_0_n_n.rhsIdx j q 0).val = (j 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl

theorem rhs0_1 (j : S512x512.Idx) (q : dot_S512x512_S512x512_S512x512_1_1_0_0_n_n.contr.Idx) :
    (dot_S512x512_S512x512_S512x512_1_1_0_0_n_n.rhsIdx j q 1).val = (q ⟨0, by decide⟩).val :=
  dot_S512x512_S512x512_S512x512_1_1_0_0_n_n.rhsIdx_val_of_single rfl j q

/-- At output index `(r, s)` and contraction position `l` the left operand is read at `(r, l)`. -/
theorem lidx0 (r s l : Fin 512) :
    dot_S512x512_S512x512_S512x512_1_1_0_0_n_n.lhsIdx (ix2 r s) ((contrEquiv1 dot_S512x512_S512x512_S512x512_1_1_0_0_n_n 512 rfl rfl).symm l) = ix2 r l := by
  have hl := contrEquiv1_symm_val dot_S512x512_S512x512_S512x512_1_1_0_0_n_n 512 rfl rfl l
  funext a
  refine Fin.ext ?_
  match a with
  | ⟨0, _⟩ => exact lhs0_0 _ _
  | ⟨1, _⟩ => exact (lhs0_1 _ _).trans hl

/-- At output index `(r, s)` and contraction position `l` the right operand is read at `(s, l)`. -/
theorem ridx0 (r s l : Fin 512) :
    dot_S512x512_S512x512_S512x512_1_1_0_0_n_n.rhsIdx (ix2 r s) ((contrEquiv1 dot_S512x512_S512x512_S512x512_1_1_0_0_n_n 512 rfl rfl).symm l) = ix2 s l := by
  have hl := contrEquiv1_symm_val dot_S512x512_S512x512_S512x512_1_1_0_0_n_n 512 rfl rfl l
  funext a
  refine Fin.ext ?_
  match a with
  | ⟨0, _⟩ => exact rhs0_0 _ _
  | ⟨1, _⟩ => exact (rhs0_1 _ _).trans hl

/-! ## The operand indices of the second function's product: left second axis against right first axis -/

theorem lhs1_0 (j : S256x4096.Idx) (q : dot_S256x512_S512x4096_S256x4096_1_0_0_1_n_n.contr.Idx) :
    (dot_S256x512_S512x4096_S256x4096_1_0_0_1_n_n.lhsIdx j q 0).val = (j 0).val := by
  unfold DotDims.lhsIdx
  rw [dif_neg (show ¬(0 : Fin S256x512.rank) ∈ dot_S256x512_S512x4096_S256x4096_1_0_0_1_n_n.lhsBatch by decide),
    dif_pos (show (0 : Fin S256x512.rank) ∈ dot_S256x512_S512x4096_S256x4096_1_0_0_1_n_n.lhsNonContracting by decide)]
  rfl

theorem lhs1_1 (j : S256x4096.Idx) (q : dot_S256x512_S512x4096_S256x4096_1_0_0_1_n_n.contr.Idx) :
    (dot_S256x512_S512x4096_S256x4096_1_0_0_1_n_n.lhsIdx j q 1).val = (q ⟨0, by decide⟩).val :=
  dot_S256x512_S512x4096_S256x4096_1_0_0_1_n_n.lhsIdx_val_of_single rfl j q

theorem rhs1_0 (j : S256x4096.Idx) (q : dot_S256x512_S512x4096_S256x4096_1_0_0_1_n_n.contr.Idx) :
    (dot_S256x512_S512x4096_S256x4096_1_0_0_1_n_n.rhsIdx j q 0).val = (q ⟨0, by decide⟩).val :=
  dot_S256x512_S512x4096_S256x4096_1_0_0_1_n_n.rhsIdx_val_of_single rfl j q

theorem rhs1_1 (j : S256x4096.Idx) (q : dot_S256x512_S512x4096_S256x4096_1_0_0_1_n_n.contr.Idx) :
    (dot_S256x512_S512x4096_S256x4096_1_0_0_1_n_n.rhsIdx j q 1).val = (j 1).val := by
  unfold DotDims.rhsIdx
  rw [dif_neg (show ¬(1 : Fin S512x4096.rank) ∈ dot_S256x512_S512x4096_S256x4096_1_0_0_1_n_n.rhsBatch by decide),
    dif_pos (show (1 : Fin S512x4096.rank) ∈ dot_S256x512_S512x4096_S256x4096_1_0_0_1_n_n.rhsNonContracting by decide)]
  rfl

/-- At output index `(r, c)` and contraction position `l` the left operand is read at `(r, l)`. -/
theorem lidx1 (r : Fin 256) (c : Fin 4096) (l : Fin 512) :
    dot_S256x512_S512x4096_S256x4096_1_0_0_1_n_n.lhsIdx (ix2 r c) ((contrEquiv1 dot_S256x512_S512x4096_S256x4096_1_0_0_1_n_n 512 rfl rfl).symm l) = ix2 r l := by
  have hl := contrEquiv1_symm_val dot_S256x512_S512x4096_S256x4096_1_0_0_1_n_n 512 rfl rfl l
  funext a
  refine Fin.ext ?_
  match a with
  | ⟨0, _⟩ => exact lhs1_0 _ _
  | ⟨1, _⟩ => exact (lhs1_1 _ _).trans hl

/-- At output index `(r, c)` and contraction position `l` the right operand is read at `(l, c)`. -/
theorem ridx1 (r : Fin 256) (c : Fin 4096) (l : Fin 512) :
    dot_S256x512_S512x4096_S256x4096_1_0_0_1_n_n.rhsIdx (ix2 r c) ((contrEquiv1 dot_S256x512_S512x4096_S256x4096_1_0_0_1_n_n 512 rfl rfl).symm l) = ix2 l c := by
  have hl := contrEquiv1_symm_val dot_S256x512_S512x4096_S256x4096_1_0_0_1_n_n 512 rfl rfl l
  funext a
  refine Fin.ext ?_
  match a with
  | ⟨0, _⟩ => exact (rhs1_0 _ _).trans hl
  | ⟨1, _⟩ => exact rhs1_1 _ _

/-! ## The accumulating payloads -/

/-- The first function's accumulating payload at `(r, s)`: the accumulator there plus `∑ₗ v15[r, l] · v13[s, l]`. -/
theorem pay0_apply (v13 : Vec Ideal S512x512 .f32) (v15 : Vec Ideal S512x512 .bf16) (v18 : Vec Ideal S512x512 .f32)
    (r s : Fin 512) :
    k0_pay2 (F := Ideal) v13 v15 v18 (ix2 r s) = v18 (ix2 r s) + ∑ l : Fin 512, v15 (ix2 r l) * v13 (ix2 s l) := by
  have e : k0_pay2 (F := Ideal) v13 v15 v18
      = addf v18 (matmul (φ₁ := .bf16) (φ₂ := .bf16) dot_S512x512_S512x512_S512x512_1_1_0_0_n_n none v15 (truncf .bf16 v13 bitsLt_bf16_f32)
          (constant S512x512 .f32 0x00000000#32)) := by
    refine (shapeCast_self _ shapeCasts_S512x512_S512x512).trans ?_
    rw [shapeCast_self]
  rw [e]
  refine congrArg (v18 (ix2 r s) + ·) ?_
  exact MatmulSum.matmul_zero_apply_single (φ₁ := .bf16) (φ₂ := .bf16) dot_S512x512_S512x512_S512x512_1_1_0_0_n_n none 512 rfl rfl v15
    (truncf .bf16 v13 bitsLt_bf16_f32) (ix2 r s) (fun l => ix2 r l) (fun l => ix2 s l) (lidx0 r s) (ridx0 r s)

/-- The second function's accumulating payload at `(r, c)`: the accumulator there plus `∑ₗ v3[r, l] · v6[l, c]`. -/
theorem pay1_apply (v3 : Vec Ideal S256x512 .f32) (v5 : Vec Ideal S256x4096 .f32) (v6 : Vec Ideal S512x4096 .bf16)
    (r : Fin 256) (c : Fin 4096) :
    k1_pay2 (F := Ideal) v3 v5 v6 (ix2 r c) = v5 (ix2 r c) + ∑ l : Fin 512, v3 (ix2 r l) * v6 (ix2 l c) := by
  have e : k1_pay2 (F := Ideal) v3 v5 v6
      = addf v5 (matmul (φ₁ := .bf16) (φ₂ := .bf16) dot_S256x512_S512x4096_S256x4096_1_0_0_1_n_n none (truncf .bf16 v3 bitsLt_bf16_f32) v6
          (constant S256x4096 .f32 0x00000000#32)) := by
    refine (shapeCast_self _ shapeCasts_S256x4096_S256x4096).trans ?_
    rw [shapeCast_self]
  rw [e]
  refine congrArg (v5 (ix2 r c) + ·) ?_
  exact MatmulSum.matmul_zero_apply_single (φ₁ := .bf16) (φ₂ := .bf16) dot_S256x512_S512x4096_S256x4096_1_0_0_1_n_n none 512 rfl rfl
    (truncf .bf16 v3 bitsLt_bf16_f32) v6 (ix2 r c) (fun l => ix2 r l) (fun l => ix2 l c) (lidx1 r c) (ridx1 r c)

/-! ## The narrowed block -/

/-- Narrowing is the identity on extended reals: the block the first function stores is the block it read. -/
theorem pay3_eq (v13 : Vec Ideal S512x512 .f32) : k0_pay3 (F := Ideal) v13 = v13 := rfl

end Cert.KernelIdeal.Payload

end
-- ==== Proof.KI.Cover.lean ====
/-
  From blocks to the array, for both calls' output windows.

  An output array ends holding, under each block that is written back, what the body left in the window's staging buffer at
  the point that wrote it back.  So if at every storing point the staging buffer, read at an in-block index, is ONE function
  `G` of whole-array indices read at the block's position plus the in-block index, and the written-back blocks cover the
  array, the array ends holding `G`.

  * Second call (grid 32 × 8): the output is written back at the points  t ≡ 7 (mod 8),  block  (t / 8, 0)  of 256 × 4096;
    row  p  of the 8192 × 4096 array is covered by the point  8 · (p / 256) + 7.
  * First call (grid 8 × 8 × 3): written back at the points  t ≡ 2 (mod 3),  block  (t / 24, (t / 3) % 8)  of 512 × 512;
    entry  (j, q)  of the 4096 × 4096 array is covered by the point  24 · (j / 512) + 3 · (q / 512) + 2.
-/
import proofs.«167009_j2078764171786_2_alg».proof.Proof.KI.R0Outs
import proofs.«167009_j2078764171786_2_alg».proof.Proof.KI.R1Outs
import proofs.«167009_j2078764171786_2_alg».proof.Proof.KI.BlockReads
import Idealize.ShloMosaic.Lib.Pipeline.Value
import Idealize.ShloMosaic.Lib.ValueIdx

set_option maxRecDepth 16384

noncomputable section

namespace Cert.KernelIdeal.Finals

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The second call's output -/

/-- An index of the output array is in point `t`'s block iff each coordinate is in the block's range on its axis. -/
theorem mem_blk1 (t : Fin cfg1.N) (i : S8192x4096.Idx) :
    i ∈ ((cfg1.win 2).blk t).view.set ↔ ∀ a : Fin 2, win1_2.index t a * S256x4096.size a ≤ (i a).val
      ∧ (i a).val < win1_2.index t a * S256x4096.size a + S256x4096.size a := by
  show i ∈ ((View.whole main_v19).slice (win1_2.rect t)).set ↔ _
  rw [View.set_slice_whole, Rect.mem_set_unit]
  exact Iff.rfl

/-- What a storing point writes back is its block of `G`. -/
theorem flushed1_eq (c : Dev nD) (G : S8192x4096.Idx → Elt F .f32)
    (h : ∀ t : Fin cfg1.N, t.val % 8 = 7 → ∀ (r : Fin 256) (q : Fin 4096),
      (R1.outsAt V c t.val t.isLt).1 (ix2 r q) = G (ix2 ⟨256 * (t.val / 8) + r.val, by have := Blocks.lt1 t; omega⟩ q))
    (t : Fin cfg1.N) (hf : (cfg1.win 2).flush t = true) :
    (R1.dat V c).flushed 2 t = ((cfg1.win 2).blk t).view.read (Elt F) G := by
  have h7 : t.val % 8 = 7 := (flush1_2 t).mp hf
  obtain ⟨e0, e1⟩ := Blocks.idx1_2 t
  show (cfg1.win 2).cut (grid1.coords t) ((R1.dat V c).after 2 t) = _
  rw [R1.after_2]
  funext y
  rw [View.read_apply]
  have hx : (cfg1.win 2).cut (grid1.coords t) ((R1.outsAt V c t.val t.isLt).1) y
      = (R1.outsAt V c t.val t.isLt).1 (ix2 (y 0) (y 1)) :=
    congrArg (R1.outsAt V c t.val t.isLt).1
      (show ((cfg1.win 2).xinj (grid1.coords t) y : S256x4096.Idx) = ix2 (y 0) (y 1) from funext fun a => by
        match a with
        | ⟨0, _⟩ => rfl
        | ⟨1, _⟩ => rfl)
  rw [hx, h t h7 (y 0) (y 1)]
  show G _ = G _
  congr 1
  funext a
  apply Fin.ext
  match a with
  | ⟨0, _⟩ => show 256 * (t.val / 8) + (y 0).val = win1_2.index t 0 * 256 + 1 * (y 0).val; rw [e0]; omega
  | ⟨1, _⟩ => show (y 1).val = win1_2.index t 1 * 4096 + 1 * (y 1).val; rw [e1]; omega

/-- Every index of the output array is in a storing point's block: row `p` in the block of the point `8 · (p / 256) + 7`. -/
theorem cover1 (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  have hN : cfg1.N = 256 := N_1
  let t : Fin cfg1.N := ⟨8 * ((i 0).val / 256) + 7, by rw [hN]; omega⟩
  have ht : t.val = 8 * ((i 0).val / 256) + 7 := rfl
  obtain ⟨e0, e1⟩ := Blocks.idx1_2 t
  refine ⟨t, (flush1_2 t).mpr (by rw [ht]; omega), ?_⟩
  rw [mem_blk1]
  intro a
  match a with
  | ⟨0, _⟩ => show win1_2.index t 0 * 256 ≤ (i 0).val ∧ (i 0).val < win1_2.index t 0 * 256 + 256; rw [e0, ht]; omega
  | ⟨1, _⟩ => show win1_2.index t 1 * 4096 ≤ (i 1).val ∧ (i 1).val < win1_2.index t 1 * 4096 + 4096; rw [e1]; omega

/-- THE SECOND CALL'S OUTPUT ARRAY after the run is `G`, once every storing point's staging buffer is its block of `G`. -/
theorem arr_of_blocks1 (c : Dev nD) (G : S8192x4096.Idx → Elt F .f32)
    (h : ∀ t : Fin cfg1.N, t.val % 8 = 7 → ∀ (r : Fin 256) (q : Fin 4096),
      (R1.outsAt V c t.val t.isLt).1 (ix2 r q) = G (ix2 ⟨256 * (t.val / 8) + r.val, by have := Blocks.lt1 t; omega⟩ q)) :
    (R1.dat V c).arrAt 2 cfg1.N = G :=
  (R1.dat V c).arrAt_eq_of_cover 2 G (fun t hf => flushed1_eq V c G h t hf) cover1

/-! ## The first call's output -/

/-- An index of the output array is in point `t`'s block iff each coordinate is in the block's range on its axis. -/
theorem mem_blk0 (t : Fin cfg0.N) (i : S4096x4096.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v18).slice (win0_2.rect t)).set ↔ _
  rw [View.set_slice_whole, Rect.mem_set_unit]
  exact Iff.rfl

/-- What a storing point writes back is its block of `G`. -/
theorem flushed0_eq (c : Dev nD) (G : S4096x4096.Idx → Elt F .bf16)
    (h : ∀ t : Fin cfg0.N, t.val % 3 = 2 → ∀ (r s : Fin 512),
      (R0.outsAt V c t.val t.isLt).1 (ix2 r s) = G (ix2 ⟨512 * (t.val / 24) + r.val, by have := Blocks.lt0 t; omega⟩
        ⟨512 * ((t.val / 3) % 8) + s.val, by omega⟩))
    (t : Fin cfg0.N) (hf : (cfg0.win 2).flush t = true) :
    (R0.dat V c).flushed 2 t = ((cfg0.win 2).blk t).view.read (Elt F) G := by
  have h2 : t.val % 3 = 2 := (flush0_2 t).mp hf
  obtain ⟨e0, e1⟩ := Blocks.idx0_2 t
  show (cfg0.win 2).cut (grid0.coords t) ((R0.dat V c).after 2 t) = _
  rw [R0.after_2]
  funext y
  rw [View.read_apply]
  have hx : (cfg0.win 2).cut (grid0.coords t) ((R0.outsAt V c t.val t.isLt).1) y
      = (R0.outsAt V c t.val t.isLt).1 (ix2 (y 0) (y 1)) :=
    congrArg (R0.outsAt V c t.val t.isLt).1
      (show ((cfg0.win 2).xinj (grid0.coords t) y : S512x512.Idx) = ix2 (y 0) (y 1) from funext fun a => by
        match a with
        | ⟨0, _⟩ => rfl
        | ⟨1, _⟩ => rfl)
  rw [hx, h t h2 (y 0) (y 1)]
  show G _ = G _
  congr 1
  funext a
  apply Fin.ext
  match a with
  | ⟨0, _⟩ => show 512 * (t.val / 24) + (y 0).val = win0_2.index t 0 * 512 + 1 * (y 0).val; rw [e0]; omega
  | ⟨1, _⟩ => show 512 * ((t.val / 3) % 8) + (y 1).val = win0_2.index t 1 * 512 + 1 * (y 1).val; rw [e1]; omega

/-- Every index of the output array is in a storing point's block: entry `(j, q)` in the block of the point
    `24 · (j / 512) + 3 · (q / 512) + 2`. -/
theorem cover0 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 192 := N_0
  let t : Fin cfg0.N := ⟨24 * ((i 0).val / 512) + 3 * ((i 1).val / 512) + 2, by rw [hN]; omega⟩
  have ht : t.val = 24 * ((i 0).val / 512) + 3 * ((i 1).val / 512) + 2 := rfl
  obtain ⟨e0, e1⟩ := Blocks.idx0_2 t
  refine ⟨t, (flush0_2 t).mpr (by rw [ht]; omega), ?_⟩
  rw [mem_blk0]
  intro a
  match a with
  | ⟨0, _⟩ => show win0_2.index t 0 * 512 ≤ (i 0).val ∧ (i 0).val < win0_2.index t 0 * 512 + 512; rw [e0, ht]; omega
  | ⟨1, _⟩ => show win0_2.index t 1 * 512 ≤ (i 1).val ∧ (i 1).val < win0_2.index t 1 * 512 + 512; rw [e1, ht]; omega

/-- THE FIRST CALL'S OUTPUT ARRAY after the run is `G`, once every storing point's staging buffer is its block of `G`. -/
theorem arr_of_blocks0 (c : Dev nD) (G : S4096x4096.Idx → Elt F .bf16)
    (h : ∀ t : Fin cfg0.N, t.val % 3 = 2 → ∀ (r s : Fin 512),
      (R0.outsAt V c t.val t.isLt).1 (ix2 r s) = G (ix2 ⟨512 * (t.val / 24) + r.val, by have := Blocks.lt0 t; omega⟩
        ⟨512 * ((t.val / 3) % 8) + s.val, by omega⟩)) :
    (R0.dat V c).arrAt 2 cfg0.N = G :=
  (R0.dat V c).arrAt_eq_of_cover 2 G (fun t hf => flushed0_eq V c G h t hf) cover0

end Cert.KernelIdeal.Finals

end
-- ==== Proof.Spec.lean ====
/-
  The two arrangements of  out = A · W · Bᵀ  that the certificate joins, over plain index functions into the extended reals.

  * `refAt`: the left-to-right product  ((A · W) · Bᵀ)[p, q] = ∑ₖ (∑ⱼ A[p, j] · W[j, k]) · B[q, k].
  * `kerAt`: the banded arrangement.  The 4096 columns of `W` are cut into 8 blocks of 512.  For a row `j` in row block
    `jb`, only the three column blocks `jb - 1, jb, jb + 1` that lie inside the matrix are visited (offset `kb = 0, 1, 2`);
    `tBlk` is the entry of  T = W · Bᵀ  computed from those blocks only, and `kerAt` is  (A · T)[p, q]  with the contraction
    over `j` taken block by block.
  The two agree when every entry is a real number and `W` vanishes outside the block tridiagonal.
-/
import Idealize.ShloMosaic.PureOps.Ideal

noncomputable section

namespace Cert.BandSpec

/-- Position `l` of block `b` (8 blocks of 512) of an axis of extent 4096. -/
def blk (b : Fin 8) (l : Fin 512) : Fin 4096 := ⟨512 * b.val + l.val, by omega⟩

/-- The column block visited at offset `kb` from row block `jb`: `jb + kb - 1` clamped into `[0, 7]`. -/
def kblk (jb : Fin 8) (kb : Fin 3) : Fin 8 := ⟨min 7 (jb.val + kb.val - 1), by omega⟩

/-- The offset `kb` from row block `jb` lands inside the matrix: `0 ≤ jb + kb - 1 ≤ 7`. -/
def valid (jb : Fin 8) (kb : Fin 3) : Prop := 1 ≤ jb.val + kb.val ∧ jb.val + kb.val ≤ 8

instance (jb : Fin 8) (kb : Fin 3) : Decidable (valid jb kb) := by unfold valid; infer_instance

/-- The reference's arrangement: `((A · W) · Bᵀ)[p, q]`. -/
def refAt (W : Fin 4096 → Fin 4096 → EReal) (A : Fin 8192 → Fin 4096 → EReal) (B : Fin 4096 → Fin 4096 → EReal)
    (p : Fin 8192) (q : Fin 4096) : EReal :=
  ∑ k : Fin 4096, (∑ j : Fin 4096, A p j * W j k) * B q k

/-- Entry `(blk jb r, blk cb s)` of `T = W · Bᵀ` summed over the visited column blocks only. -/
def tBlk (W : Fin 4096 → Fin 4096 → EReal) (B : Fin 4096 → Fin 4096 → EReal) (jb cb : Fin 8) (r s : Fin 512) : EReal :=
  ∑ kb : Fin 3, if valid jb kb then ∑ l : Fin 512, W (blk jb r) (blk (kblk jb kb) l) * B (blk cb s) (blk (kblk jb kb) l) else 0

/-- The same entry addressed by whole-axis positions. -/
def tAt (W : Fin 4096 → Fin 4096 → EReal) (B : Fin 4096 → Fin 4096 → EReal) (j c : Fin 4096) : EReal :=
  tBlk W B ⟨j.val / 512, by omega⟩ ⟨c.val / 512, by omega⟩ ⟨j.val % 512, by omega⟩ ⟨c.val % 512, by omega⟩

/-- The kernel's arrangement: `(A · T)[p, q]`, the contraction over `j` taken as 8 blocks of 512. -/
def kerAt (W : Fin 4096 → Fin 4096 → EReal) (A : Fin 8192 → Fin 4096 → EReal) (B : Fin 4096 → Fin 4096 → EReal)
    (p : Fin 8192) (q : Fin 4096) : EReal :=
  ∑ kk : Fin 8, ∑ l : Fin 512, A p (blk kk l) * tAt W B (blk kk l) q

end Cert.BandSpec

end
-- ==== Proof.KI.Final0.lean ====
/-
  The banded product's output array, entry by entry, at the ideal instance.

  Per control case the pieces the run found, read back, are the body's payloads: the cleared accumulator, the accumulator
  plus the product of the two staged blocks, and the accumulator narrowed for the store.  At the ideal instance the cleared
  accumulator reads 0, the product at (r, s) is  ∑ₗ x[r, l] · w[s, l],  and narrowing is the identity.  The two staged
  blocks at grid point  t  are the weight matrix's rows of row block  t / 24  and the second argument's rows of column
  block  (t / 3) % 8,  both at the columns of the visited block  min 7 (t / 24 + t % 3 - 1).  So along the three offsets
  of one output block the accumulator collects the contributions of the offsets whose visited block lies inside the
  matrix (an offset outside adds nothing), and the block stored at offset 2 is the block of  T = W · Bᵀ  summed over the
  visited column blocks.  The stored blocks cover the output array, which is therefore that function entry by entry.
-/
import proofs.«167009_j2078764171786_2_alg».proof.Proof.KI.R0Outs
import proofs.«167009_j2078764171786_2_alg».proof.Proof.KI.BlockReads
import proofs.«167009_j2078764171786_2_alg».proof.Proof.KI.Payload
import proofs.«167009_j2078764171786_2_alg».proof.Proof.KI.Access
import proofs.«167009_j2078764171786_2_alg».proof.Proof.KI.Cover
import proofs.«167009_j2078764171786_2_alg».proof.Proof.Spec

set_option maxRecDepth 16384

noncomputable section

namespace Cert.KernelIdeal.Finals.Banded

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.R0 Cert.BandSpec

/-! ## The pieces each case's run found, read back: the payloads -/

section Pieces

variable {F : FTy → Type} [FloatOps F]

theorem hz : (![0, 0] : Fin 2 → Nat) = fun _ => 0 := funext fun a => by fin_cases a <;> rfl

theorem sout_B_eq (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : ¬cond1 i) (hc2 : ¬cond2 i) (x0 : Vec F S512x512 .bf16) (x1 : Vec F S512x512 .f32) :
    sout_B c i arg3 harg3 arg4 harg4 arg5 harg5 arg6 harg6 hc0 hc1 hc2 x0 x1 = k0_pay1 (F := F) := by
  unfold sout_B
  rw [View.read_writes_eq_canon _ _ _ (scover_B c i arg3 harg3 arg4 harg4 arg5 harg5 arg6 harg6 hc0 hc1 hc2 x0 x1)]
  unfold kernelRun_B
  dsimp only
  rw [View.canon_unit_zero hz]

theorem sout_C_eq (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : ¬cond2 i) (x0 : Vec F S512x512 .bf16) (x1 : Vec F S512x512 .f32) (xs : Vec F S512x512 .f32) :
    sout_C c i arg3 harg3 arg4 harg4 arg5 harg5 arg6 harg6 hc0 hc1 hc2 x0 x1 xs = k0_pay2 x1 x0 xs := by
  unfold sout_C
  rw [View.read_writes_eq_canon _ _ _ (scover_C c i arg3 harg3 arg4 harg4 arg5 harg5 arg6 harg6 hc0 hc1 hc2 x0 x1 xs)]
  unfold kernelRun_C
  dsimp only
  rw [View.canon_unit_zero hz]
  simp only [View.readAt_eq_ld, harg3.read_unread, harg4.read_unread, harg6.read_unread, View.ld_unit_zero (S := S512x512) hz]

theorem sout_A_eq (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : cond1 i) (hc2 : ¬cond2 i) (x0 : Vec F S512x512 .bf16) (x1 : Vec F S512x512 .f32) :
    sout_A c i arg3 harg3 arg4 harg4 arg5 harg5 arg6 harg6 hc0 hc1 hc2 x0 x1 = k0_pay2 x1 x0 (k0_pay1 (F := F)) := by
  unfold sout_A
  rw [View.read_writes_eq_canon _ _ _ (scover_A c i arg3 harg3 arg4 harg4 arg5 harg5 arg6 harg6 hc0 hc1 hc2 x0 x1)]
  unfold kernelRun_A
  dsimp only
  sl_unfold_words
  rw [View.canon_cons_unit_zero (S := S512x512) hz, View.readCov_unit_zero (S := S512x512) _ hz]
  simp only [View.readAt_eq_ld, harg3.read_unread, harg4.read_unread, harg6.read_unread, View.ld_unit_zero (S := S512x512) hz]

theorem sout_D_eq (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i) (x0 : Vec F S512x512 .bf16) (x1 : Vec F S512x512 .f32) (xs : Vec F S512x512 .f32) :
    sout_D c i arg3 harg3 arg4 harg4 arg5 harg5 arg6 harg6 hc0 hc1 hc2 x0 x1 xs = k0_pay2 x1 x0 xs := by
  unfold sout_D
  rw [View.read_writes_eq_canon _ _ _ (scover_D c i arg3 harg3 arg4 harg4 arg5 harg5 arg6 harg6 hc0 hc1 hc2 x0 x1 xs)]
  unfold kernelRun_D
  dsimp only
  sl_unfold_words
  rw [View.canon_unit_zero hz]
  simp only [View.readAt_eq_ld, harg3.read_unread, harg4.read_unread, harg6.read_unread, View.ld_unit_zero (S := S512x512) hz]

theorem out_D_eq (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i) (x0 : Vec F S512x512 .bf16) (x1 : Vec F S512x512 .f32) (xs : Vec F S512x512 .f32) :
    out_D c i arg3 harg3 arg4 harg4 arg5 harg5 arg6 harg6 hc0 hc1 hc2 x0 x1 xs = k0_pay3 (k0_pay2 x1 x0 xs) := by
  unfold out_D
  rw [View.read_writes_eq_canon _ _ _ (cover_D c i arg3 harg3 arg4 harg4 arg5 harg5 arg6 harg6 hc0 hc1 hc2 x0 x1 xs)]
  unfold kernelRun_D
  dsimp only
  sl_unfold_words
  rw [View.canon_unit_zero hz, View.readCov_unit_zero (S := S512x512) _ hz]
  simp only [View.readAt_eq_ld, harg3.read_unread, harg4.read_unread, harg6.read_unread, View.ld_unit_zero (S := S512x512) hz]

theorem out_E_eq (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : ¬cond1 i) (hc2 : cond2 i) (x0 : Vec F S512x512 .bf16) (x1 : Vec F S512x512 .f32) (xs : Vec F S512x512 .f32) :
    out_E c i arg3 harg3 arg4 harg4 arg5 harg5 arg6 harg6 hc0 hc1 hc2 x0 x1 xs = k0_pay3 xs := by
  unfold out_E
  rw [View.read_writes_eq_canon _ _ _ (cover_E c i arg3 harg3 arg4 harg4 arg5 harg5 arg6 harg6 hc0 hc1 hc2 x0 x1 xs)]
  unfold kernelRun_E
  dsimp only
  rw [View.canon_unit_zero hz]
  simp only [View.readAt_eq_ld, harg3.read_unread, harg4.read_unread, harg6.read_unread, View.ld_unit_zero (S := S512x512) hz]

end Pieces

/-! ## Each case's contents at an entry, at the ideal instance -/

theorem step_A (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : cond1 i) (hc2 : ¬cond2 i) (x0 : Vec Ideal S512x512 .bf16) (x1 : Vec Ideal S512x512 .f32) (r s : Fin 512) :
    (sout_A c i arg3 harg3 arg4 harg4 arg5 harg5 arg6 harg6 hc0 hc1 hc2 x0 x1 (ix2 r s) : EReal) = ∑ l : Fin 512, x0 (ix2 r l) * x1 (ix2 s l) := by
  rw [sout_A_eq, Payload.pay0_apply, Payload.k0_pay1_apply, zero_add]

theorem step_B (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : cond0 i) (hc1 : ¬cond1 i) (hc2 : ¬cond2 i) (x0 : Vec Ideal S512x512 .bf16) (x1 : Vec Ideal S512x512 .f32) (r s : Fin 512) :
    (sout_B c i arg3 harg3 arg4 harg4 arg5 harg5 arg6 harg6 hc0 hc1 hc2 x0 x1 (ix2 r s) : EReal) = 0 := by
  rw [sout_B_eq, Payload.k0_pay1_apply]

theorem step_C (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : ¬cond2 i) (x0 : Vec Ideal S512x512 .bf16) (x1 : Vec Ideal S512x512 .f32) (xs : Vec Ideal S512x512 .f32) (r s : Fin 512) :
    (sout_C c i arg3 harg3 arg4 harg4 arg5 harg5 arg6 harg6 hc0 hc1 hc2 x0 x1 xs (ix2 r s) : EReal) = xs (ix2 r s) + ∑ l : Fin 512, x0 (ix2 r l) * x1 (ix2 s l) := by
  rw [sout_C_eq, Payload.pay0_apply]

theorem step_D (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i) (x0 : Vec Ideal S512x512 .bf16) (x1 : Vec Ideal S512x512 .f32) (xs : Vec Ideal S512x512 .f32) (r s : Fin 512) :
    (sout_D c i arg3 harg3 arg4 harg4 arg5 harg5 arg6 harg6 hc0 hc1 hc2 x0 x1 xs (ix2 r s) : EReal) = xs (ix2 r s) + ∑ l : Fin 512, x0 (ix2 r l) * x1 (ix2 s l) := by
  rw [sout_D_eq, Payload.pay0_apply]

theorem step_Dout (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : cond1 i) (hc2 : cond2 i) (x0 : Vec Ideal S512x512 .bf16) (x1 : Vec Ideal S512x512 .f32) (xs : Vec Ideal S512x512 .f32) (r s : Fin 512) :
    (out_D c i arg3 harg3 arg4 harg4 arg5 harg5 arg6 harg6 hc0 hc1 hc2 x0 x1 xs (ix2 r s) : EReal) = xs (ix2 r s) + ∑ l : Fin 512, x0 (ix2 r l) * x1 (ix2 s l) := by
  rw [out_D_eq, Payload.pay3_eq, Payload.pay0_apply]

theorem step_Eout (c : Dev nD) (i : grid0.Coords) (arg3 : Memref sig .tc .vmem S512x512 .bf16) (harg3 : arg3.IsWhole) (arg4 : Memref sig .tc .vmem S512x512 .f32) (harg4 : arg4.IsWhole) (arg5 : Memref sig .tc .vmem S512x512 .bf16) (harg5 : arg5.IsWhole) (arg6 : Memref sig .tc .vmem S512x512 .f32) (harg6 : arg6.IsWhole) (hc0 : ¬cond0 i) (hc1 : ¬cond1 i) (hc2 : cond2 i) (x0 : Vec Ideal S512x512 .bf16) (x1 : Vec Ideal S512x512 .f32) (xs : Vec Ideal S512x512 .f32) (r s : Fin 512) :
    (out_E c i arg3 harg3 arg4 harg4 arg5 harg5 arg6 harg6 hc0 hc1 hc2 x0 x1 xs (ix2 r s) : EReal) = xs (ix2 r s) := by
  rw [out_E_eq, Payload.pay3_eq]

/-! ## The contribution of one offset, and the staged blocks' product -/

variable (V : (c : Dev nD) → (b : Ref sig .tc) → Buf (Elt Ideal) ((c : Thread nD τ).loc b))

/-- The row block, column block and offset of a grid point. -/
abbrev jbOf (t : Fin cfg0.N) : Fin 8 := ⟨t.val / 24, by have := Blocks.lt0 t; omega⟩
abbrev cbOf (t : Fin cfg0.N) : Fin 8 := ⟨(t.val / 3) % 8, by omega⟩
abbrev kbOf (t : Fin cfg0.N) : Fin 3 := ⟨t.val % 3, by omega⟩

/-- The contribution of offset kb to entry (r, s) of output block (jb, cb): the visited block's product where it lies inside
    the matrix, nothing otherwise. -/
def term (c : Dev nD) (jb cb : Fin 8) (kb : Fin 3) (r s : Fin 512) : EReal :=
  if valid jb kb then ∑ l : Fin 512, arrW V c (blk jb r) (blk (kblk jb kb) l) * arrB V c (blk cb s) (blk (kblk jb kb) l) else 0

theorem tBlk_eq (c : Dev nD) (jb cb : Fin 8) (r s : Fin 512) :
    tBlk (arrW V c) (arrB V c) jb cb r s = term V c jb cb 0 r s + term V c jb cb 1 r s + term V c jb cb 2 r s := by
  unfold tBlk term
  rw [Fin.sum_univ_three]

/-- Addressing an entry of a block by whole-axis positions. -/
theorem tAt_blk (W B : Fin 4096 → Fin 4096 → EReal) (jb cb : Fin 8) (r s : Fin 512) :
    tAt W B (blk jb r) (blk cb s) = tBlk W B jb cb r s := by
  unfold tAt
  have hr := r.isLt
  have hs := s.isLt
  congr 1
  · exact Fin.ext (by show (512 * jb.val + r.val) / 512 = jb.val; omega)
  · exact Fin.ext (by show (512 * cb.val + s.val) / 512 = cb.val; omega)
  · exact Fin.ext (by show (512 * jb.val + r.val) % 512 = r.val; omega)
  · exact Fin.ext (by show (512 * cb.val + s.val) % 512 = s.val; omega)

/-- At a grid point the product of the two staged blocks, contracted along their second axes, is the sum over the visited
    block's columns of the two arrays' entries. -/
theorem prod_at (c : Dev nD) (t : Fin cfg0.N) (x0 : Vec Ideal S512x512 .bf16) (x1 : Vec Ideal S512x512 .f32)
    (e0 : x0 = R0.iblk V c 0 t) (e1 : x1 = R0.iblk V c 1 t) (r s : Fin 512) :
    ∑ l : Fin 512, x0 (ix2 r l) * x1 (ix2 s l)
      = ∑ l : Fin 512, arrW V c (blk (jbOf t) r) (blk (kblk (jbOf t) (kbOf t)) l) * arrB V c (blk (cbOf t) s) (blk (kblk (jbOf t) (kbOf t)) l) := by
  subst e0 e1
  refine Finset.sum_congr rfl fun l _ => ?_
  rw [Blocks.w_blk V c t r l, Blocks.b_blk V c t s l]
  rfl

/-! ## The accumulation along the three offsets of one output block -/

/-- The point before t. -/
abbrev prevPt (t : Fin cfg0.N) : Fin cfg0.N := ⟨t.val - 1, Nat.lt_of_le_of_lt (Nat.sub_le _ _) t.isLt⟩

/-- After an offset-0 point the accumulator holds the contribution of offset 0. -/
theorem acc0 (c : Dev nD) (t : Fin cfg0.N) (h0 : t.val % 3 = 0) (r s : Fin 512) :
    ((R0.outsAt V c t.val t.isLt).2 (ix2 r s) : EReal) = term V c (jbOf t) (cbOf t) 0 r s := by
  have hk : kbOf t = 0 := Fin.ext h0
  by_cases h1 : 1 ≤ t.val / 24 + t.val % 3 ∧ t.val / 24 + t.val % 3 ≤ 8
  · rw [R0.outsAt_A V c t h0 h1]
    dsimp only
    refine (step_A c (grid0.coords t) (ms_0 t) (hs_0 t) (ms_1 t) (hs_1 t) (ms_2 t) (hs_2 t) scM (Memref.isWhole_whole _) _ _ _ (R0.iblk V c 0 t) (R0.iblk V c 1 t) r s).trans ?_
    rw [prod_at V c t (R0.iblk V c 0 t) (R0.iblk V c 1 t) rfl rfl r s, hk]
    unfold term
    rw [if_pos (show valid (jbOf t) 0 from ⟨by show 1 ≤ t.val / 24 + 0; omega, by show t.val / 24 + 0 ≤ 8; omega⟩)]
  · rw [R0.outsAt_B V c t h0 h1]
    dsimp only
    refine (step_B c (grid0.coords t) (ms_0 t) (hs_0 t) (ms_1 t) (hs_1 t) (ms_2 t) (hs_2 t) scM (Memref.isWhole_whole _) _ _ _ (R0.iblk V c 0 t) (R0.iblk V c 1 t) r s).trans ?_
    unfold term
    rw [if_neg (show ¬valid (jbOf t) 0 from fun hv => h1 ⟨by have h := hv.1; change 1 ≤ t.val / 24 + 0 at h; omega, by have h := hv.2; change t.val / 24 + 0 ≤ 8 at h; omega⟩)]

/-- After an offset-1 point the accumulator holds the contributions of offsets 0 and 1. -/
theorem acc1 (c : Dev nD) (t : Fin cfg0.N) (h1 : t.val % 3 = 1) (r s : Fin 512) :
    ((R0.outsAt V c t.val t.isLt).2 (ix2 r s) : EReal) = term V c (jbOf t) (cbOf t) 0 r s + term V c (jbOf t) (cbOf t) 1 r s := by
  have hlt := Blocks.lt0 t
  have hk : kbOf t = 1 := Fin.ext h1
  have ej : jbOf (prevPt t) = jbOf t := Fin.ext (by show (t.val - 1) / 24 = t.val / 24; omega)
  have ec : cbOf (prevPt t) = cbOf t := Fin.ext (by show ((t.val - 1) / 3) % 8 = (t.val / 3) % 8; omega)
  have hp := acc0 V c (prevPt t) (by show (t.val - 1) % 3 = 0; omega) r s
  rw [ej, ec] at hp
  rw [R0.outsAt_C V c t (by omega) (by omega)]
  dsimp only
  refine (step_C c (grid0.coords t) (ms_0 t) (hs_0 t) (ms_1 t) (hs_1 t) (ms_2 t) (hs_2 t) scM (Memref.isWhole_whole _) _ _ _ (R0.iblk V c 0 t) (R0.iblk V c 1 t) _ r s).trans ?_
  rw [prod_at V c t (R0.iblk V c 0 t) (R0.iblk V c 1 t) rfl rfl r s, hk]
  refine congrArg₂ (· + ·) hp ?_
  unfold term
  rw [if_pos (show valid (jbOf t) 1 from ⟨by show 1 ≤ t.val / 24 + 1; omega, by show t.val / 24 + 1 ≤ 8; omega⟩)]

/-- What the point before an offset-2 point left: the contributions of offsets 0 and 1. -/
theorem acc_prev2 (c : Dev nD) (t : Fin cfg0.N) (h2 : t.val % 3 = 2) (r s : Fin 512) :
    ((R0.outsAt V c (t.val - 1) (Nat.lt_of_le_of_lt (Nat.sub_le _ _) t.isLt)).2 (ix2 r s) : EReal)
      = term V c (jbOf t) (cbOf t) 0 r s + term V c (jbOf t) (cbOf t) 1 r s := by
  have hlt := Blocks.lt0 t
  have ej : jbOf (prevPt t) = jbOf t := Fin.ext (by show (t.val - 1) / 24 = t.val / 24; omega)
  have ec : cbOf (prevPt t) = cbOf t := Fin.ext (by show ((t.val - 1) / 3) % 8 = (t.val / 3) % 8; omega)
  have hp := acc1 V c (prevPt t) (by show (t.val - 1) % 3 = 1; omega) r s
  rw [ej, ec] at hp
  exact hp

/-- The block an offset-2 point stores into the output window: the three offsets' contributions, that is the block of
    T = W · Bᵀ  summed over the visited column blocks. -/
theorem stored (c : Dev nD) (t : Fin cfg0.N) (h2 : t.val % 3 = 2) (r s : Fin 512) :
    ((R0.outsAt V c t.val t.isLt).1 (ix2 r s) : EReal) = tBlk (arrW V c) (arrB V c) (jbOf t) (cbOf t) r s := by
  have hlt := Blocks.lt0 t
  have hk : kbOf t = 2 := Fin.ext h2
  rw [tBlk_eq]
  by_cases h1 : 1 ≤ t.val / 24 + t.val % 3 ∧ t.val / 24 + t.val % 3 ≤ 8
  · rw [R0.outsAt_D V c t (by omega) h1 h2]
    dsimp only
    refine (step_Dout c (grid0.coords t) (ms_0 t) (hs_0 t) (ms_1 t) (hs_1 t) (ms_2 t) (hs_2 t) scM (Memref.isWhole_whole _) _ _ _ (R0.iblk V c 0 t) (R0.iblk V c 1 t) _ r s).trans ?_
    rw [prod_at V c t (R0.iblk V c 0 t) (R0.iblk V c 1 t) rfl rfl r s, hk]
    refine congrArg₂ (· + ·) (acc_prev2 V c t h2 r s) ?_
    unfold term
    rw [if_pos (show valid (jbOf t) 2 from ⟨by show 1 ≤ t.val / 24 + 2; omega, by show t.val / 24 + 2 ≤ 8; omega⟩)]
  · rw [R0.outsAt_E V c t (by omega) h1 h2]
    dsimp only
    refine (step_Eout c (grid0.coords t) (ms_0 t) (hs_0 t) (ms_1 t) (hs_1 t) (ms_2 t) (hs_2 t) scM (Memref.isWhole_whole _) _ _ _ (R0.iblk V c 0 t) (R0.iblk V c 1 t) _ r s).trans ?_
    refine (acc_prev2 V c t h2 r s).trans ?_
    have hz2 : term V c (jbOf t) (cbOf t) 2 r s = 0 := by
      unfold term
      rw [if_neg (show ¬valid (jbOf t) 2 from fun hv => h1 ⟨by omega, by have h := hv.2; change t.val / 24 + 2 ≤ 8 at h; omega⟩)]
    rw [hz2, add_zero]

end Cert.KernelIdeal.Finals.Banded

namespace Cert.KernelIdeal.Finals

open Cert.KernelIdeal Cert.KernelIdeal.Gen Cert.KernelIdeal.R0 Cert.BandSpec Cert.KernelIdeal.Finals.Banded
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The output array -/

/-- The whole output array as one function of the weight matrix and the second argument: entry (j, q) of  T = W · Bᵀ
    summed over the visited column blocks of j's row block. -/
def G0 (c : Dev nD) : S4096x4096.Idx → Elt Ideal .bf16 :=
  fun i => tAt (arrW V c) (arrB V c) ⟨(i 0).val, (i 0).isLt⟩ ⟨(i 1).val, (i 1).isLt⟩

/-- After the region the output array is that function: every storing point's staging buffer is its block of it, and the
    stored blocks cover the array. -/
theorem final0_raw (c : Dev nD) : (R0.dat V c).arrAt 2 cfg0.N = G0 V c :=
  arr_of_blocks0 V c (G0 V c) fun t h2 r s => by
    refine (stored V c t h2 r s).trans ?_
    exact (tAt_blk (arrW V c) (arrB V c) (jbOf t) (cbOf t) r s).symm

/-- Entry (j, q) of the banded product's output array after the region. -/
theorem final0 (c : Dev nD) (j q : Fin 4096) : out0 V c j q = Cert.BandSpec.tAt (arrW V c) (arrB V c) j q := by
  unfold out0
  rw [final0_raw]
  rfl

end Cert.KernelIdeal.Finals

end
-- ==== Proof.KI.Final1.lean ====
/-
  What the second call (the dense product, accumulated over the 8 blocks of the contracted axis) leaves in its output array.

  * Case by case, whatever the float instance: the accumulator after the body is the accumulating payload of the left block,
    the accumulator before (the cleared one at the first block of a row of the grid) and the right block; at the last block
    the stored output block is that same value, read back.
  * At the ideal instance, by induction along a row of the grid: after block  k  of row block  ib  the accumulator at  (r, q)
    is  ∑ over blocks kk ≤ k, ∑ₗ A[256 · ib + r, 512 · kk + l] · T[512 · kk + l, q].
  * The points that write the output back are the last blocks of the rows of the grid; their blocks tile the array (row block
    p / 256  covers row  p), so the array ends holding, at  (p, q),  ∑ over all 8 blocks kk, ∑ₗ A[p, 512 · kk + l] · T[512 · kk + l, q].
-/
import proofs.«167009_j2078764171786_2_alg».proof.Proof.KI.R1Outs
import proofs.«167009_j2078764171786_2_alg».proof.Proof.KI.Payload
import proofs.«167009_j2078764171786_2_alg».proof.Proof.KI.BlockReads
import proofs.«167009_j2078764171786_2_alg».proof.Proof.Spec
import proofs.«167009_j2078764171786_2_alg».proof.Proof.KI.Access
import Idealize.ShloMosaic.Lib.Pipeline.Value
import Idealize.ShloMosaic.Lib.ValueIdx

set_option maxRecDepth 16384

noncomputable section

namespace Cert.KernelIdeal.Finals.Dense

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.R1

theorem hz : (![0, 0] : Fin 2 → Nat) = fun _ => 0 := funext fun a => by fin_cases a <;> rfl

/-! ## Case by case, at any float instance -/

/-- First block of a row: the payload over the cleared accumulator. -/
theorem sout_A_eq (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : cond0 i) (hc1 : ¬cond1 i) (x0 : Vec F S256x512 .f32) (x1 : Vec F S512x4096 .bf16) :
    sout_A c i arg2 harg2 arg3 harg3 arg4 harg4 arg5 harg5 hc0 hc1 x0 x1 = k1_pay2 x0 (k1_pay1 (F := F)) x1 := by
  unfold sout_A
  rw [View.read_writes_eq_canon _ _ _ (scover_A c i arg2 harg2 arg3 harg3 arg4 harg4 arg5 harg5 hc0 hc1 x0 x1)]
  unfold kernelRun_A
  dsimp only
  sl_unfold_words
  rw [View.canon_cons_unit_zero (S := S256x4096) hz, View.readCov_unit_zero (S := S256x4096) _ hz]
  simp only [View.readAt_eq_ld, harg2.read_unread, harg3.read_unread, harg5.read_unread, View.ld_unit_zero (S := S256x512) hz, View.ld_unit_zero (S := S512x4096) hz, View.ld_unit_zero (S := S256x4096) hz]

/-- Middle block: the payload over what the point before left. -/
theorem sout_B_eq (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : ¬cond1 i) (x0 : Vec F S256x512 .f32) (x1 : Vec F S512x4096 .bf16) (xs : Vec F S256x4096 .f32) :
    sout_B c i arg2 harg2 arg3 harg3 arg4 harg4 arg5 harg5 hc0 hc1 x0 x1 xs = k1_pay2 x0 xs x1 := by
  unfold sout_B
  rw [View.read_writes_eq_canon _ _ _ (scover_B c i arg2 harg2 arg3 harg3 arg4 harg4 arg5 harg5 hc0 hc1 x0 x1 xs)]
  unfold kernelRun_B
  dsimp only
  rw [View.canon_unit_zero hz]
  simp only [View.readAt_eq_ld, harg2.read_unread, harg3.read_unread, harg5.read_unread, View.ld_unit_zero (S := S256x512) hz, View.ld_unit_zero (S := S512x4096) hz, View.ld_unit_zero (S := S256x4096) hz]

/-- Last block: the accumulator likewise, -/
theorem sout_C_eq (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : cond1 i) (x0 : Vec F S256x512 .f32) (x1 : Vec F S512x4096 .bf16) (xs : Vec F S256x4096 .f32) :
    sout_C c i arg2 harg2 arg3 harg3 arg4 harg4 arg5 harg5 hc0 hc1 x0 x1 xs = k1_pay2 x0 xs x1 := by
  unfold sout_C
  rw [View.read_writes_eq_canon _ _ _ (scover_C c i arg2 harg2 arg3 harg3 arg4 harg4 arg5 harg5 hc0 hc1 x0 x1 xs)]
  unfold kernelRun_C
  dsimp only
  sl_unfold_words
  rw [View.canon_unit_zero hz]
  simp only [View.readAt_eq_ld, harg2.read_unread, harg3.read_unread, harg5.read_unread, View.ld_unit_zero (S := S256x512) hz, View.ld_unit_zero (S := S512x4096) hz, View.ld_unit_zero (S := S256x4096) hz]

/-- and the stored output block is the accumulator read back. -/
theorem out_C_eq (c : Dev nD) (i : grid1.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0 i) (hc1 : cond1 i) (x0 : Vec F S256x512 .f32) (x1 : Vec F S512x4096 .bf16) (xs : Vec F S256x4096 .f32) :
    out_C c i arg2 harg2 arg3 harg3 arg4 harg4 arg5 harg5 hc0 hc1 x0 x1 xs = k1_pay2 x0 xs x1 := by
  unfold out_C
  rw [View.read_writes_eq_canon _ _ _ (cover_C c i arg2 harg2 arg3 harg3 arg4 harg4 arg5 harg5 hc0 hc1 x0 x1 xs)]
  unfold kernelRun_C
  dsimp only
  sl_unfold_words
  rw [View.canon_unit_zero hz, View.readCov_unit_zero (S := S256x4096) _ hz]
  simp only [View.readAt_eq_ld, harg2.read_unread, harg3.read_unread, harg5.read_unread, View.ld_unit_zero (S := S256x512) hz, View.ld_unit_zero (S := S512x4096) hz, View.ld_unit_zero (S := S256x4096) hz]

/-! ## Sums over the first blocks of the contracted axis -/

/-- Adding the next block's term extends the sum over the blocks `≤ m` to the blocks `≤ m + 1`. -/
theorem sum_upto_step {M : Type*} [AddCommMonoid M] (g : Fin 8 → M) (m m' : ℕ) (hm' : m' < 8) (e : m' = m + 1) :
    (∑ kk : Fin 8, if kk.val ≤ m then g kk else 0) + g ⟨m', hm'⟩ = ∑ kk : Fin 8, if kk.val ≤ m' then g kk else 0 := by
  subst e
  have hpt : ∀ kk : Fin 8, (if kk.val ≤ m + 1 then g kk else 0)
      = (if kk.val ≤ m then g kk else 0) + (if kk = ⟨m + 1, hm'⟩ then g kk else 0) := by
    intro kk
    by_cases h1 : kk.val ≤ m
    · have h2 : kk ≠ ⟨m + 1, hm'⟩ := fun h => by rw [h] at h1; simp at h1
      rw [if_pos h1, if_pos (by omega), if_neg h2, add_zero]
    · by_cases h2 : kk = ⟨m + 1, hm'⟩
      · rw [if_neg h1, if_pos h2, if_pos (by rw [h2]), zero_add]
      · have h3 : ¬kk.val ≤ m + 1 := fun h => h2 (Fin.ext (by simp only; omega))
        rw [if_neg h1, if_neg h2, if_neg h3, add_zero]
  rw [Finset.sum_congr rfl fun kk _ => hpt kk, Finset.sum_add_distrib, Finset.sum_ite_eq' Finset.univ ⟨m + 1, hm'⟩ g,
    if_pos (Finset.mem_univ _)]

/-- The sum over the blocks `≤ 0` is the first block's term. -/
theorem sum_upto_zero {M : Type*} [AddCommMonoid M] (g : Fin 8 → M) :
    (∑ kk : Fin 8, if kk.val ≤ 0 then g kk else 0) = g 0 := by
  have hpt : ∀ kk : Fin 8, (if kk.val ≤ 0 then g kk else 0) = (if kk = 0 then g kk else 0) := by
    intro kk
    by_cases h : kk = 0
    · rw [if_pos h, if_pos (by rw [h]; simp)]
    · rw [if_neg h, if_neg (fun h' => h (Fin.ext (by simp only [Fin.val_zero]; omega)))]
  rw [Finset.sum_congr rfl fun kk _ => hpt kk, Finset.sum_ite_eq' Finset.univ (0 : Fin 8) g, if_pos (Finset.mem_univ _)]

/-- The sum over the blocks `≤ 7` is the sum over all 8 blocks. -/
theorem sum_upto_seven {M : Type*} [AddCommMonoid M] (g : Fin 8 → M) (m : ℕ) (hm : m = 7) :
    (∑ kk : Fin 8, if kk.val ≤ m then g kk else 0) = ∑ kk : Fin 8, g kk :=
  Finset.sum_congr rfl fun kk _ => if_pos (by have := kk.isLt; omega)

/-! ## At the ideal instance: the accumulator along a row of the grid -/

variable (V : (c : Dev nD) → (b : Ref sig .tc) → Buf (Elt Ideal) ((c : Thread nD τ).loc b))

/-- The left operand's array as the call finds it, as a function into the extended reals. -/
abbrev inA (c : Dev nD) : S8192x4096.Idx → EReal := V c main_arg0
/-- The right operand's array as the call finds it, as a function into the extended reals. -/
abbrev inT (c : Dev nD) : S4096x4096.Idx → EReal := V c main_v18

/-- Block `kk`'s term of entry `(p, q)` of the product: `∑ₗ A[p, 512 · kk + l] · T[512 · kk + l, q]`. -/
def term1 (c : Dev nD) (p : Fin 8192) (q : Fin 4096) (kk : Fin 8) : EReal :=
  ∑ l : Fin 512, inA V c (ix2 p (Cert.BandSpec.blk kk l)) * inT V c (ix2 (Cert.BandSpec.blk kk l) q)

/-- One step of the accumulation at point `t`: the accumulator before plus block `t % 8`'s term. -/
theorem step1_apply (c : Dev nD) (t : Fin cfg1.N) (xs : Vec Ideal S256x4096 .f32) (r : Fin 256) (q : Fin 4096)
    (p : Fin 8192) (hp : p.val = 256 * (t.val / 8) + r.val) :
    k1_pay2 (F := Ideal) (R1.iblk V c 0 t) xs (R1.iblk V c 1 t) (ix2 r q)
      = xs (ix2 r q) + term1 V c p q ⟨t.val % 8, Nat.mod_lt _ (by decide)⟩ := by
  rw [Payload.pay1_apply]
  refine congrArg (xs (ix2 r q) + ·) ?_
  unfold term1
  refine Finset.sum_congr rfl fun l _ => ?_
  rw [Blocks.a_blk, Blocks.t_blk]
  refine congrArg₂ (fun a b => inA V c a * inT V c b) ?_ ?_
  · funext a
    match a with
    | ⟨0, _⟩ => exact Fin.ext hp.symm
    | ⟨1, _⟩ => rfl
  · funext a
    match a with
    | ⟨0, _⟩ => rfl
    | ⟨1, _⟩ => rfl

/-- THE ACCUMULATOR after position `n` of the grid's walk, at `(r, q)`: the terms of the blocks `≤ n % 8` of row
    `256 · (n / 8) + r`. -/
theorem acc1_eq (c : Dev nD) : ∀ (n : ℕ) (hn : n < cfg1.N) (r : Fin 256) (q : Fin 4096) (p : Fin 8192)
    (hp : p.val = 256 * (n / 8) + r.val),
    (outsAt V c n hn).2 (ix2 r q) = ∑ kk : Fin 8, if kk.val ≤ n % 8 then term1 V c p q kk else 0 := by
  intro n
  induction n with
  | zero =>
    intro hn r q p hp
    rw [outsAt_A V c ⟨0, hn⟩ (Nat.zero_mod _) (by dsimp only; omega)]
    dsimp only
    rw [sout_A_eq, step1_apply V c ⟨0, hn⟩ _ r q p hp, Payload.k1_pay1_apply, zero_add]
    exact (sum_upto_zero _).symm
  | succ n ih =>
    intro hn r q p hp
    by_cases h0 : (n + 1) % 8 = 0
    · rw [outsAt_A V c ⟨n + 1, hn⟩ h0 (by dsimp only; omega)]
      dsimp only
      rw [sout_A_eq, step1_apply V c ⟨n + 1, hn⟩ _ r q p hp, Payload.k1_pay1_apply, zero_add]
      have e : (⟨(n + 1) % 8, Nat.mod_lt _ (by decide)⟩ : Fin 8) = 0 := Fin.ext h0
      dsimp only at e ⊢
      rw [e, h0]
      exact (sum_upto_zero _).symm
    · have hp' : p.val = 256 * (n / 8) + r.val := by omega
      have ih' := ih (Nat.lt_of_succ_lt hn) r q p hp'
      by_cases h1 : (n + 1) % 8 = 7
      · rw [outsAt_C V c ⟨n + 1, hn⟩ h0 h1]
        dsimp only
        rw [sout_C_eq, step1_apply V c ⟨n + 1, hn⟩ _ r q p hp]
        show (outsAt V c n _).2 (ix2 r q) + _ = _
        rw [ih']
        exact sum_upto_step _ (n % 8) ((n + 1) % 8) _ (by omega)
      · rw [outsAt_B V c ⟨n + 1, hn⟩ h0 h1]
        dsimp only
        rw [sout_B_eq, step1_apply V c ⟨n + 1, hn⟩ _ r q p hp]
        show (outsAt V c n _).2 (ix2 r q) + _ = _
        rw [ih']
        exact sum_upto_step _ (n % 8) ((n + 1) % 8) _ (by omega)

/-! ## The output array after the call -/

/-- What the array ends holding: at `(p, q)` the sum over all 8 blocks of the block's term. -/
def G1 (c : Dev nD) : S8192x4096.Idx → EReal := fun i => ∑ kk : Fin 8, term1 V c (i 0) (i 1) kk

/-- An index of the array is in point `t`'s output block iff each coordinate is in the block's range on its axis. -/
theorem mem_blk1_2 (t : Fin cfg1.N) (i : S8192x4096.Idx) :
    i ∈ ((cfg1.win 2).blk t).view.set ↔ ∀ a : Fin 2, win1_2.index t a * S256x4096.size a ≤ (i a).val
      ∧ (i a).val < win1_2.index t a * S256x4096.size a + S256x4096.size a := by
  show i ∈ ((View.whole main_v19).slice (win1_2.rect t)).set ↔ _
  rw [View.set_slice_whole, Rect.mem_set_unit]
  exact Iff.rfl

/-- What a last block of a row of the grid writes back is its block of `G1`. -/
theorem flushed1_eq (c : Dev nD) (t : Fin cfg1.N) (hf : (cfg1.win 2).flush t = true) :
    (R1.dat V c).flushed 2 t = ((cfg1.win 2).blk t).view.read (Elt Ideal) (G1 V c) := by
  have h7 : t.val % 8 = 7 := (flush1_2 t).mp hf
  have h0 : ¬t.val % 8 = 0 := by omega
  obtain ⟨e0, e1⟩ := Blocks.idx1_2 t
  funext j
  obtain ⟨r, q, rfl⟩ : ∃ (r : Fin 256) (q : Fin 4096), j = ix2 r q := ⟨j 0, j 1, eq_ix2 j⟩
  show (outsAt V c t.val t.isLt).1 (ix2 r q) = G1 V c (((cfg1.win 2).blk t).view.emb (ix2 r q))
  rw [outsAt_C V c t h0 h7]
  dsimp only
  obtain ⟨p, hpe⟩ : ∃ p : Fin 8192, p = (((cfg1.win 2).blk t).view.emb (ix2 r q)) 0 := ⟨_, rfl⟩
  obtain ⟨q', hqe⟩ : ∃ q' : Fin 4096, q' = (((cfg1.win 2).blk t).view.emb (ix2 r q)) 1 := ⟨_, rfl⟩
  have hp : p.val = 256 * (t.val / 8) + r.val := by
    rw [hpe]
    show win1_2.index t 0 * 256 + 1 * r.val = _
    rw [e0]; omega
  have hq : q' = q := by
    rw [hqe]
    exact Fin.ext (by
      show win1_2.index t 1 * 4096 + 1 * q.val = q.val
      rw [e1]; omega)
  have hG : G1 V c (((cfg1.win 2).blk t).view.emb (ix2 r q)) = ∑ kk : Fin 8, term1 V c p q' kk := by
    rw [hpe, hqe]; rfl
  rw [hG, hq, out_C_eq, step1_apply V c t _ r q p hp]
  rw [acc1_eq V c (t.val - 1) _ r q p (by rw [hp]; omega)]
  rw [sum_upto_step _ ((t.val - 1) % 8) (t.val % 8) _ (by omega), sum_upto_seven _ _ h7]

/-- The last blocks' output blocks tile the array: row block `p / 256` covers row `p`. -/
theorem cover1 (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  let t : Fin cfg1.N := ⟨8 * ((i 0).val / 256) + 7, lt_of_lt_of_eq (show 8 * ((i 0).val / 256) + 7 < 256 by omega) N_1.symm⟩
  have ht : t.val = 8 * ((i 0).val / 256) + 7 := rfl
  obtain ⟨e0, e1⟩ := Blocks.idx1_2 t
  refine ⟨t, (flush1_2 t).mpr (by rw [ht]; omega), ?_⟩
  rw [mem_blk1_2]
  intro a
  match a with
  | ⟨0, _⟩ =>
    show win1_2.index t 0 * 256 ≤ (i 0).val ∧ (i 0).val < win1_2.index t 0 * 256 + 256
    rw [e0, ht]; omega
  | ⟨1, _⟩ =>
    show win1_2.index t 1 * 4096 ≤ (i 1).val ∧ (i 1).val < win1_2.index t 1 * 4096 + 4096
    rw [e1]; omega

end Cert.KernelIdeal.Finals.Dense

namespace Cert.KernelIdeal.Finals

open Cert.KernelIdeal Cert.KernelIdeal.Gen Idealize.ShloMosaic Idealize.ShloMosaic.TcCoe Idealize.ShloMosaic.ValueIdx
open Idealize.SL.Sem

/-- THE SECOND CALL'S OUTPUT ARRAY after the call, at the ideal instance, over the buffers' own index functions: entry
    `(p, q)` is the product's entry with the contraction taken as 8 blocks of 512, of the two input arrays as the call
    finds them. -/
theorem final1_raw (V : (c : Dev nD) → (b : Ref sig .tc) → Buf (Elt Ideal) ((c : Thread nD τ).loc b)) (c : Dev nD)
    (p : Fin 8192) (q : Fin 4096) :
    ((R1.dat V c).arrAt 2 cfg1.N : S8192x4096.Idx → EReal) (ix2 p q)
      = ∑ kk : Fin 8, ∑ l : Fin 512, Dense.inA V c (ix2 p (Cert.BandSpec.blk kk l))
          * Dense.inT V c (ix2 (Cert.BandSpec.blk kk l) q) := by
  rw [(R1.dat V c).arrAt_eq_of_cover 2 (Dense.G1 V c) (fun t hf => Dense.flushed1_eq V c t hf) Dense.cover1]
  rfl

/-- THE SECOND CALL'S OUTPUT ARRAY after the call, as functions of two positions: `out[p, q] = ∑ over the 8 blocks kk,
    ∑ₗ A[p, 512 · kk + l] · T[512 · kk + l, q]`. -/
theorem final1 (V : (c : Dev nD) → (b : Ref sig .tc) → Buf (Elt Ideal) ((c : Thread nD τ).loc b)) (c : Dev nD)
    (p : Fin 8192) (q : Fin 4096) :
    out1 V c p q = ∑ kk : Fin 8, ∑ l : Fin 512, arrA V c p (Cert.BandSpec.blk kk l) * arrT V c (Cert.BandSpec.blk kk l) q :=
  final1_raw V c p q

end Cert.KernelIdeal.Finals

end
-- ==== Proof.WEntry.lean ====
/-
  The weight matrix, entry by entry, at the ideal instance.

  Entry `(j, k)` of the weight matrix is  w · w  with  w = e  if  e > 1e-10  and  0  otherwise, where
  e = exp (-(d · d) / 128)  and  d = |k - j|  read as a real number: a Gaussian of the distance from the diagonal,
  cut off below the threshold and squared.  The integer part (`k - j`, its absolute value) is 32-bit word arithmetic on
  the positions; everything after the conversion to a float is exact arithmetic on the extended reals.
-/
import Idealize.ShloMosaic.PureOps.Ideal

noncomputable section

namespace Cert.BandSpec

open Idealize.ShloMosaic

/-- The distance `|k - j|` as the programs compute it: a difference of 32-bit words, its absolute value, converted. -/
def distAt (j k : Fin 4096) : EReal :=
  FloatOps.sitofp (F := Ideal) .f32 (IntOp.absi (IntOp.subi (BitVec.ofNat 32 k.val) (BitVec.ofNat 32 j.val)))

/-- The Gaussian `exp (-(d · d) / 128)` of the distance. -/
def gaussAt (j k : Fin 4096) : EReal :=
  FloatOps.hostUnary (F := Ideal) (φ := .f32) .exp
    (FloatOps.hostDivf (F := Ideal) (φ := .f32) (FloatOps.hostNegf (F := Ideal) (φ := .f32) (FloatOps.mulf (F := Ideal) (φ := .f32) (distAt j k) (distAt j k)))
      (FloatOps.ofBits (F := Ideal) .f32 0x43000000#32))

/-- The Gaussian cut off at the threshold: itself where it exceeds the threshold word, zero elsewhere. -/
def cutAt (j k : Fin 4096) : EReal :=
  Scalar.select (FloatOps.cmpf (F := Ideal) (φ := .f32) .ogt (gaussAt j k) (FloatOps.ofBits (F := Ideal) .f32 0x2EDBE6FF#32))
    (gaussAt j k) (FloatOps.ofBits (F := Ideal) .f32 0x00000000#32)

/-- Entry `(j, k)` of the weight matrix: the cut-off Gaussian squared. -/
def wEntry (j k : Fin 4096) : EReal :=
  FloatOps.mulf (F := Ideal) (φ := .f32) (cutAt j k) (cutAt j k)

end Cert.BandSpec

end
-- ==== Proof.HostValue.lean ====
/-
  The weight matrix the kernel program's host operations leave, entry by entry, and the arguments they leave alone.

  The 23 host operations before the two kernel regions compute, on every core, a 4096 × 4096 array: the column position
  minus the row position on 32-bit words, its absolute value converted to a float `d`, the Gaussian `exp (-(d · d) / 128)`,
  that value where it exceeds the threshold and zero elsewhere, squared, and converted to bf16 — at the ideal instance the
  conversion is the identity. `w_host`: after the three host stretches, entry `(j, k)` of the bf16 buffer the first region
  reads is `Cert.BandSpec.wEntry j k`. `arg0_kept`, `arg1_kept`: no host operation writes an argument.

  Each operation's value is named (`val_<buffer>`) and read at an index from its operands at an index
  (`val_<buffer>_apply`): an elementwise operation reads its operands at the same index, a broadcast reads its operand at
  the index with the new axes dropped.
-/
import proofs.«167009_j2078764171786_2_alg».proof.Proof.Gen.KernelIdeal.Regions
import proofs.«167009_j2078764171786_2_alg».proof.Proof.WEntry
import Idealize.ShloMosaic.Lib.StableHlo.Run
import Idealize.ShloMosaic.Lib.Pipeline.Value
import Idealize.ShloMosaic.Lib.ValueIdx

noncomputable section

namespace Cert.KernelIdeal.HostValue

open Cert.KernelIdeal Cert.KernelIdeal.Gen Idealize.ShloMosaic Idealize.ShloMosaic.TcCoe Idealize.ShloMosaic.StableHlo

variable {F : FTy → Type} [FloatOps F]

/-! ## The host operations, one value each

`val_<buffer>` is the value the operation writing that buffer computes, `val_<buffer>_apply` reads it at an index from the
operands at an index. -/

section Stages
-- %0 = stablehlo.iota dim = 0 : tensor<4096xi32>
def val_main_v0 : (⟨S4096, .i32⟩ : BufTy).Contents (Elt F) :=
  iotaInDim S4096 32 0
theorem val_main_v0_apply (i : S4096.Idx) :
    val_main_v0 (F := F) i = BitVec.ofNat 32 (i 0).val := rfl

-- %1 = stablehlo.broadcast_in_dim %0, dims = [1] : (tensor<4096xi32>) -> tensor<1x4096xi32>
def val_main_v1 : (⟨S1x4096, .i32⟩ : BufTy).Contents (Elt F) :=
  broadcastInDim S1x4096 ![1] bcast_S4096_S1x4096_1 (val_main_v0 (F := F))
abbrev idx_main_v1 (i : S1x4096.Idx) : S4096.Idx := fun a => match a with
  | ⟨0, _⟩ => ⟨(i 1).val, (i 1).isLt⟩
theorem val_main_v1_apply (i : S1x4096.Idx) :
    val_main_v1 (F := F) i = val_main_v0 (F := F) (idx_main_v1 i) := by
  unfold val_main_v1
  generalize val_main_v0 (F := F) = y
  exact broadcastInDim_apply _ bcast_S4096_S1x4096_1 y i (idx_main_v1 i) (fun a => match a with
    | ⟨0, _⟩ => by show (i 1).val = if (4096 : Nat) = 1 then 0 else (i 1).val; rw [if_neg (by decide)])

-- %2 = stablehlo.broadcast_in_dim %0, dims = [0] : (tensor<4096xi32>) -> tensor<4096x1xi32>
def val_main_v2 : (⟨S4096x1, .i32⟩ : BufTy).Contents (Elt F) :=
  broadcastInDim S4096x1 ![0] bcast_S4096_S4096x1_0 (val_main_v0 (F := F))
abbrev idx_main_v2 (i : S4096x1.Idx) : S4096.Idx := fun a => match a with
  | ⟨0, _⟩ => ⟨(i 0).val, (i 0).isLt⟩
theorem val_main_v2_apply (i : S4096x1.Idx) :
    val_main_v2 (F := F) i = val_main_v0 (F := F) (idx_main_v2 i) := by
  unfold val_main_v2
  generalize val_main_v0 (F := F) = y
  exact broadcastInDim_apply _ bcast_S4096_S4096x1_0 y i (idx_main_v2 i) (fun a => match a with
    | ⟨0, _⟩ => by show (i 0).val = if (4096 : Nat) = 1 then 0 else (i 0).val; rw [if_neg (by decide)])

-- %3 = stablehlo.broadcast_in_dim %1, dims = [0, 1] : (tensor<1x4096xi32>) -> tensor<4096x4096xi32>
def val_main_v3 : (⟨S4096x4096, .i32⟩ : BufTy).Contents (Elt F) :=
  broadcastInDim S4096x4096 ![0, 1] bcast_S1x4096_S4096x4096_0_1 (val_main_v1 (F := F))
abbrev idx_main_v3 (i : S4096x4096.Idx) : S1x4096.Idx := fun a => match a with
  | ⟨0, _⟩ => ⟨0, Nat.one_pos⟩
  | ⟨1, _⟩ => ⟨(i 1).val, (i 1).isLt⟩
theorem val_main_v3_apply (i : S4096x4096.Idx) :
    val_main_v3 (F := F) i = val_main_v1 (F := F) (idx_main_v3 i) := by
  unfold val_main_v3
  generalize val_main_v1 (F := F) = y
  exact broadcastInDim_apply _ bcast_S1x4096_S4096x4096_0_1 y i (idx_main_v3 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])

-- %4 = stablehlo.broadcast_in_dim %2, dims = [0, 1] : (tensor<4096x1xi32>) -> tensor<4096x4096xi32>
def val_main_v4 : (⟨S4096x4096, .i32⟩ : BufTy).Contents (Elt F) :=
  broadcastInDim S4096x4096 ![0, 1] bcast_S4096x1_S4096x4096_0_1 (val_main_v2 (F := F))
abbrev idx_main_v4 (i : S4096x4096.Idx) : S4096x1.Idx := fun a => match a with
  | ⟨0, _⟩ => ⟨(i 0).val, (i 0).isLt⟩
  | ⟨1, _⟩ => ⟨0, Nat.one_pos⟩
theorem val_main_v4_apply (i : S4096x4096.Idx) :
    val_main_v4 (F := F) i = val_main_v2 (F := F) (idx_main_v4 i) := by
  unfold val_main_v4
  generalize val_main_v2 (F := F) = y
  exact broadcastInDim_apply _ bcast_S4096x1_S4096x4096_0_1 y i (idx_main_v4 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %5 = stablehlo.subtract %3, %4 : tensor<4096x4096xi32>
def val_main_v5 : (⟨S4096x4096, .i32⟩ : BufTy).Contents (Elt F) :=
  subi (val_main_v3 (F := F)) (val_main_v4 (F := F))
theorem val_main_v5_apply (i : S4096x4096.Idx) :
    val_main_v5 (F := F) i = IntOp.subi (val_main_v3 (F := F) i) (val_main_v4 (F := F) i) := rfl

-- %6 = stablehlo.abs %5 : tensor<4096x4096xi32>
def val_main_v6 : (⟨S4096x4096, .i32⟩ : BufTy).Contents (Elt F) :=
  absi (val_main_v5 (F := F))
theorem val_main_v6_apply (i : S4096x4096.Idx) :
    val_main_v6 (F := F) i = IntOp.absi (val_main_v5 (F := F) i) := rfl

-- %7 = stablehlo.convert %6 : (tensor<4096x4096xi32>) -> tensor<4096x4096xf32>
def val_main_v7 : (⟨S4096x4096, .f32⟩ : BufTy).Contents (Elt F) :=
  sitofp .f32 (val_main_v6 (F := F))
theorem val_main_v7_apply (i : S4096x4096.Idx) :
    val_main_v7 (F := F) i = FloatOps.sitofp .f32 (val_main_v6 (F := F) i) := rfl

-- %8 = stablehlo.multiply %7, %7 : tensor<4096x4096xf32>
def val_main_v8 : (⟨S4096x4096, .f32⟩ : BufTy).Contents (Elt F) :=
  mulf (val_main_v7 (F := F)) (val_main_v7 (F := F))
theorem val_main_v8_apply (i : S4096x4096.Idx) :
    val_main_v8 (F := F) i = FloatOps.mulf (val_main_v7 (F := F) i) (val_main_v7 (F := F) i) := rfl

-- %9 = stablehlo.negate %8 : tensor<4096x4096xf32>
def val_main_v9 : (⟨S4096x4096, .f32⟩ : BufTy).Contents (Elt F) :=
  Host.negf (val_main_v8 (F := F))
theorem val_main_v9_apply (i : S4096x4096.Idx) :
    val_main_v9 (F := F) i = FloatOps.hostNegf (val_main_v8 (F := F) i) := rfl

-- %cst = stablehlo.constant dense<1.280000e+02> : tensor<f32>
def val_main_cst : (⟨S_, .f32⟩ : BufTy).Contents (Elt F) :=
  constant S_ .f32 0x43000000#32
theorem val_main_cst_apply (i : S_.Idx) :
    val_main_cst (F := F) i = FloatOps.ofBits .f32 0x43000000#32 := rfl

-- %10 = stablehlo.broadcast_in_dim %cst, dims = [] : (tensor<f32>) -> tensor<4096x4096xf32>
def val_main_v10 : (⟨S4096x4096, .f32⟩ : BufTy).Contents (Elt F) :=
  broadcastInDim S4096x4096 ![] bcast_S_S4096x4096 (val_main_cst (F := F))
abbrev idx_main_v10 (i : S4096x4096.Idx) : S_.Idx := fun a => a.elim0
theorem val_main_v10_apply (i : S4096x4096.Idx) :
    val_main_v10 (F := F) i = val_main_cst (F := F) (idx_main_v10 i) := by
  unfold val_main_v10
  generalize val_main_cst (F := F) = y
  exact broadcastInDim_apply _ bcast_S_S4096x4096 y i (idx_main_v10 i) (fun a => a.elim0)

-- %11 = stablehlo.divide %9, %10 : tensor<4096x4096xf32>
def val_main_v11 : (⟨S4096x4096, .f32⟩ : BufTy).Contents (Elt F) :=
  Host.divf (val_main_v9 (F := F)) (val_main_v10 (F := F))
theorem val_main_v11_apply (i : S4096x4096.Idx) :
    val_main_v11 (F := F) i = FloatOps.hostDivf (val_main_v9 (F := F) i) (val_main_v10 (F := F) i) := rfl

-- %12 = stablehlo.exponential %11 : tensor<4096x4096xf32>
def val_main_v12 : (⟨S4096x4096, .f32⟩ : BufTy).Contents (Elt F) :=
  Host.exp (val_main_v11 (F := F))
theorem val_main_v12_apply (i : S4096x4096.Idx) :
    val_main_v12 (F := F) i = FloatOps.hostUnary .exp (val_main_v11 (F := F) i) := rfl

-- %cst_0 = stablehlo.constant dense<1.000000e-10> : tensor<f32>
def val_main_cst_0 : (⟨S_, .f32⟩ : BufTy).Contents (Elt F) :=
  constant S_ .f32 0x2EDBE6FF#32
theorem val_main_cst_0_apply (i : S_.Idx) :
    val_main_cst_0 (F := F) i = FloatOps.ofBits .f32 0x2EDBE6FF#32 := rfl

-- %13 = stablehlo.broadcast_in_dim %cst_0, dims = [] : (tensor<f32>) -> tensor<4096x4096xf32>
def val_main_v13 : (⟨S4096x4096, .f32⟩ : BufTy).Contents (Elt F) :=
  broadcastInDim S4096x4096 ![] bcast_S_S4096x4096 (val_main_cst_0 (F := F))
abbrev idx_main_v13 (i : S4096x4096.Idx) : S_.Idx := fun a => a.elim0
theorem val_main_v13_apply (i : S4096x4096.Idx) :
    val_main_v13 (F := F) i = val_main_cst_0 (F := F) (idx_main_v13 i) := by
  unfold val_main_v13
  generalize val_main_cst_0 (F := F) = y
  exact broadcastInDim_apply _ bcast_S_S4096x4096 y i (idx_main_v13 i) (fun a => a.elim0)

-- %14 = stablehlo.compare GT, %12, %13, FLOAT : (tensor<4096x4096xf32>, tensor<4096x4096xf32>) -> tensor<4096x4096xi1>
def val_main_v14 : (⟨S4096x4096, .i1⟩ : BufTy).Contents (Elt F) :=
  cmpf .ogt (val_main_v12 (F := F)) (val_main_v13 (F := F))
theorem val_main_v14_apply (i : S4096x4096.Idx) :
    val_main_v14 (F := F) i = FloatOps.cmpf .ogt (val_main_v12 (F := F) i) (val_main_v13 (F := F) i) := rfl

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- @_where's %0 = stablehlo.convert %arg2 : tensor<f32>, in %15 = func.call @_where(…) (record main_call0)
def val_main_call0_v0 : (⟨S_, .f32⟩ : BufTy).Contents (Elt F) :=
  id (val_main_cst_1 (F := F))
theorem val_main_call0_v0_apply (i : S_.Idx) :
    val_main_call0_v0 (F := F) i = (val_main_cst_1 (F := F) i) := rfl

-- @_where's %1 = stablehlo.broadcast_in_dim %0, dims = [] : (tensor<f32>) -> tensor<4096x4096xf32>, in %15 = func.call @_where(…) (record main_call0)
def val_main_call0_v1 : (⟨S4096x4096, .f32⟩ : BufTy).Contents (Elt F) :=
  broadcastInDim S4096x4096 ![] bcast_S_S4096x4096 (val_main_call0_v0 (F := F))
abbrev idx_main_call0_v1 (i : S4096x4096.Idx) : S_.Idx := fun a => a.elim0
theorem val_main_call0_v1_apply (i : S4096x4096.Idx) :
    val_main_call0_v1 (F := F) i = val_main_call0_v0 (F := F) (idx_main_call0_v1 i) := by
  unfold val_main_call0_v1
  generalize val_main_call0_v0 (F := F) = y
  exact broadcastInDim_apply _ bcast_S_S4096x4096 y i (idx_main_call0_v1 i) (fun a => a.elim0)

-- %15 = func.call @_where(…) (record main_call0) result 0: @_where's %2 = stablehlo.select %arg0, %arg1, %1 : tensor<4096x4096xi1>, tensor<4096x4096xf32>
def val_main_v15 : (⟨S4096x4096, .f32⟩ : BufTy).Contents (Elt F) :=
  select (val_main_v14 (F := F)) (val_main_v12 (F := F)) (val_main_call0_v1 (F := F))
theorem val_main_v15_apply (i : S4096x4096.Idx) :
    val_main_v15 (F := F) i = Scalar.select (val_main_v14 (F := F) i) (val_main_v12 (F := F) i) (val_main_call0_v1 (F := F) i) := rfl

-- %16 = stablehlo.multiply %15, %15 : tensor<4096x4096xf32>
def val_main_v16 : (⟨S4096x4096, .f32⟩ : BufTy).Contents (Elt F) :=
  mulf (val_main_v15 (F := F)) (val_main_v15 (F := F))
theorem val_main_v16_apply (i : S4096x4096.Idx) :
    val_main_v16 (F := F) i = FloatOps.mulf (val_main_v15 (F := F) i) (val_main_v15 (F := F) i) := rfl

-- %17 = stablehlo.convert %16 : (tensor<4096x4096xf32>) -> tensor<4096x4096xbf16>
def val_main_v17 : (⟨S4096x4096, .bf16⟩ : BufTy).Contents (Elt F) :=
  truncf .bf16 (val_main_v16 (F := F)) bitsLt_bf16_f32
theorem val_main_v17_apply (i : S4096x4096.Idx) :
    val_main_v17 (F := F) i = FloatOps.truncf .bf16 bitsLt_bf16_f32 (val_main_v16 (F := F) i) := rfl

end Stages

/-! ## The weight matrix the host stretches leave -/

variable (m : (ℓ : Loc nD τ sig) → Buf (Elt Ideal) ℓ) (c : Dev nD)

set_option maxHeartbeats 2000000 in
/-- After the three host stretches the bf16 weight buffer holds the last operation's value: each operation's result read
    at its own buffer, every other buffer as it was. -/
theorem v17_eq : (V3 m c (Proc.devRef .tc main_v17) : S4096x4096.Idx → EReal) = val_main_v17 (F := Ideal) := by
  dsimp only [V3, V2, V1, V0]
  simp only [hostOps0, hostOps0_1, hostOps0_2]
  after_results
  rfl

/-- The converted distance at `(j, k)`: the column position is broadcast along rows, the row position along columns, so
    the difference read at `(j, k)` is `k - j` on 32-bit words. -/
theorem dist_apply (j k : Fin 4096) : val_main_v7 (F := Ideal) (ValueIdx.ix2 j k) = Cert.BandSpec.distAt j k := by
  rw [val_main_v7_apply, val_main_v6_apply, val_main_v5_apply, val_main_v3_apply, val_main_v1_apply, val_main_v0_apply,
    val_main_v4_apply, val_main_v2_apply, val_main_v0_apply]
  rfl

/-- The Gaussian at `(j, k)`: the square, the negation, the division by the broadcast constant 128 and the exponential
    are elementwise. -/
theorem gauss_apply (j k : Fin 4096) : val_main_v12 (F := Ideal) (ValueIdx.ix2 j k) = Cert.BandSpec.gaussAt j k := by
  rw [val_main_v12_apply, val_main_v11_apply, val_main_v10_apply, val_main_cst_apply, val_main_v9_apply, val_main_v8_apply,
    dist_apply]
  rfl

/-- The cut-off Gaussian at `(j, k)`: the comparison with the broadcast threshold selects the Gaussian or the broadcast
    zero, elementwise. -/
theorem cut_apply (j k : Fin 4096) : val_main_v15 (F := Ideal) (ValueIdx.ix2 j k) = Cert.BandSpec.cutAt j k := by
  rw [val_main_v15_apply, val_main_v14_apply, val_main_v13_apply, val_main_cst_0_apply, val_main_call0_v1_apply,
    val_main_call0_v0_apply, val_main_cst_1_apply, gauss_apply]
  rfl

/-- ENTRY `(j, k)` OF THE WEIGHT BUFFER the regions read is the weight matrix's entry: the square of the cut-off
    Gaussian, the conversion to bf16 being the identity on extended reals. -/
theorem w_host (j k : Fin 4096) :
    (V3 m c (Proc.devRef .tc main_v17) : S4096x4096.Idx → EReal) (ValueIdx.ix2 j k) = Cert.BandSpec.wEntry j k := by
  refine (congrFun (v17_eq m c) (ValueIdx.ix2 j k)).trans ?_
  rw [val_main_v17_apply, Ideal.truncf_def, val_main_v16_apply, cut_apply]
  rfl

/-! ## The arguments are as launched -/

/-- No host stretch writes the second argument: it is as launched when the regions start. -/
theorem arg1_kept : V3 m c (Proc.devRef .tc main_arg1) = m ((c : Thread nD τ).loc main_arg1) :=
  (V3_of m c main_arg1 (by decide)).trans <| (V2_of m c main_arg1 (by decide)).trans <| (V1_of m c main_arg1 (by decide)).trans rfl

/-- No host stretch writes the first argument: it is as launched when the regions start. -/
theorem arg0_kept : V3 m c (Proc.devRef .tc main_arg0) = m ((c : Thread nD τ).loc main_arg0) :=
  (V3_of m c main_arg0 (by decide)).trans <| (V2_of m c main_arg0 (by decide)).trans <| (V1_of m c main_arg0 (by decide)).trans rfl

end Cert.KernelIdeal.HostValue

end
-- ==== Proof.KI.Value.lean ====
/-
  The kernel program's result, entry by entry, at the ideal instance.  The dense product's output array holds, at (p, q), the sum
  over the 8 blocks of the contracted axis of  A[p, ·] · T[·, q];  T is the banded product's output array, whose entry (j, q) is
  the sum over the visited neighbouring blocks of  W[j, ·] · B[q, ·];  W is the host-built weight matrix, A and B the
  arguments as launched.  So the result is the banded arrangement `kerAt` of the weight matrix and the arguments.
-/
import proofs.«167009_j2078764171786_2_alg».proof.Proof.KI.Frame
import proofs.«167009_j2078764171786_2_alg».proof.Proof.KI.Access
import proofs.«167009_j2078764171786_2_alg».proof.Proof.KI.Final0
import proofs.«167009_j2078764171786_2_alg».proof.Proof.KI.Final1
import proofs.«167009_j2078764171786_2_alg».proof.Proof.HostValue
import proofs.«167009_j2078764171786_2_alg».proof.Proof.Spec

noncomputable section

namespace Cert.KernelIdeal.Value

open Cert.KernelIdeal Cert.KernelIdeal.Gen Cert.KernelIdeal.Whole Cert.KernelIdeal.Finals Cert.BandSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The arguments as launched, as plain functions of two positions. -/
def argA (c : Dev nD) : Fin 8192 → Fin 4096 → EReal := fun i j => m ((c : Thread nD τ).loc main_arg0) (ix2 i j)
def argB (c : Dev nD) : Fin 4096 → Fin 4096 → EReal := fun q k => m ((c : Thread nD τ).loc main_arg1) (ix2 q k)

/-- The first argument reaches the dense product as launched. -/
theorem mid_arg0 (c : Dev nD) : arrA (Vmid m ρ) c = argA m c := by
  funext p j
  exact congrFun ((W4_of_ne (fun V c => R0.dat V c) m ρ c main_arg0 (by decide)).trans (W3_main_arg0 m ρ c)) (ix2 p j)

/-- The banded product reads the host-built weight matrix and the second argument as launched. -/
theorem ent_w (c : Dev nD) : arrW (V3 m ρ) c = wEntry := by
  funext j k; exact HostValue.w_host m c j k
theorem ent_b (c : Dev nD) : arrB (V3 m ρ) c = argB m c := by
  funext q k; exact congrFun (W3_main_arg1 m ρ c) (ix2 q k)

/-- The dense product reads the banded product's output array: entry (j, q) of `T`. -/
theorem mid_t (c : Dev nD) : arrT (Vmid m ρ) c = fun j q => tAt wEntry (argB m c) j q := by
  funext j q
  have h4 : Vmid m ρ c main_v18 = (R0.dat (V3 m ρ) c).arrAt 2 cfg0.N := W4_arr (fun V c => R0.dat V c) m ρ c 2
  have e : arrT (Vmid m ρ) c j q = out0 (V3 m ρ) c j q := congrFun h4 (ix2 j q)
  rw [e, final0 (V3 m ρ) c j q, ent_w, ent_b]

/-- Entry (p, q) of the program's result. -/
theorem result_apply (c : Dev nD) (p : Fin 8192) (q : Fin 4096) :
    (Wend m ρ c (Proc.devRef .tc main_v19) : S8192x4096.Idx → EReal) (ix2 p q) = kerAt wEntry (argA m c) (argB m c) p q := by
  have h5 : Wend m ρ c (Proc.devRef .tc main_v19) = (R1.dat (Vmid m ρ) c).arrAt 2 cfg1.N :=
    W5_arr (fun V c => R0.dat V c) (fun V c => R1.dat V c) m ρ c 2
  have e : (Wend m ρ c (Proc.devRef .tc main_v19) : S8192x4096.Idx → EReal) (ix2 p q) = out1 (Vmid m ρ) c p q := congrFun h5 (ix2 p q)
  rw [e, final1 (Vmid m ρ) c p q, mid_arg0, mid_t]
  rfl

end Cert.KernelIdeal.Value

end
-- ==== Proof.PreFinite.lean ====
/-
  The precondition read back: both argument arrays hold real numbers.

  The precondition says that `all (|A| < +∞)` and `all (|B| < +∞)` are both true on every core: a conjunction of two
  reductions by `and` over every index of a comparison. A conjunction of bits that is 1 has both bits 1; a reduction by
  `and` into one result that is 1 met a 1 at every index; and an extended real `x` with `max x (-x) < ⊤` is neither `⊤`
  nor `⊥`, hence a real number. So every entry of either argument is the coercion of a real.
-/
import proofs.«167009_j2078764171786_2_alg».proof.Defs
import Idealize.ShloMosaic.Lib.ReduceAll
import Idealize.ShloMosaic.Lib.Pipeline.Value
import Idealize.ShloMosaic.Lib.ValueIdx

noncomputable section

namespace Cert.KernelIdeal.PreFinite

open Cert.KernelIdeal Idealize.ShloMosaic Idealize.ShloMosaic.TcCoe

/-- The rank-0 shape has one index. -/
instance : Subsingleton Cert.Pre_finite_inputs.S_.Idx := ⟨fun a b => funext fun d => d.elim0⟩

/-- The word `0x7F800000` read as a float is `+∞`: all-ones exponent, zero fraction, sign clear. -/
theorem ofBits_inf : Ideal.ofBits .f32 0x7F800000#32 = ⊤ := by
  simp [Ideal.ofBits, Ideal.ieee]

/-- An extended real whose absolute value compares below `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  induction x using EReal.rec with
  | bot => exact absurd h' (by simp [Ideal.cmp])
  | coe r => exact ⟨r, rfl⟩
  | top => exact absurd h' (by simp [Ideal.cmp])

variable [hP : Cert.Pre_finite_inputs.Facts]

/-- THE PRECONDITION DECODED: on every core each entry of the first argument (8192 × 4096) and of the second (4096 × 4096)
    is a real number. -/
theorem finite_of_pre (m : (ℓ : Loc nD τ sig) → Buf (Elt Ideal) ℓ) (h : Cert.Pre_KernelIdeal m) (c : Dev nD) :
    (∃ a : Fin 8192 → Fin 4096 → ℝ, ∀ p j,
        (m ((c.tc : Thread nD τ).loc main_arg0) : S8192x4096.Idx → EReal) (ValueIdx.ix2 p j) = ((a p j : ℝ) : EReal))
    ∧ (∃ b : Fin 4096 → Fin 4096 → ℝ, ∀ q k,
        (m ((c.tc : Thread nD τ).loc main_arg1) : S4096x4096.Idx → EReal) (ValueIdx.ix2 q k) = ((b q k : ℝ) : EReal)) := by
  have e := congrFun (h c) ValueIdx.ix0
  dsimp only [Cert.Pre_finite_inputs.fn] at e
  change IntOp.andi _ _ = 1#1 at e
  obtain ⟨eA, eB⟩ := IntOp.andi_eq_one.1 e
  have hA := fun i => Host.reduce_andi_all _ _ _ _ _ eA i
  have hB := fun i => Host.reduce_andi_all _ _ _ _ _ eB i
  refine ⟨?_, ?_⟩
  · choose a ha using fun i => real_of_abs_lt _ (hA i)
    exact ⟨fun p j => a (ValueIdx.ix2 p j), fun p j => ha (ValueIdx.ix2 p j)⟩
  · choose b hb using fun i => real_of_abs_lt _ (hB i)
    exact ⟨fun q k => b (ValueIdx.ix2 q k), fun q k => hb (ValueIdx.ix2 q k)⟩

end Cert.KernelIdeal.PreFinite

end
-- ==== Proof.RefSide.lean ====
/-
  The reference program's result, read entry by entry.

  The weight matrix the reference builds (an iota along each axis, their difference, its absolute value, the conversion,
  the Gaussian, the cut-off and the square) has at position (j, k) exactly the scalar expression that defines the weight
  entry: the row broadcast reads the iota at the column k, the column broadcast reads it at the row j, and every later
  operation acts entry by entry.  The result is the product of the first argument with that matrix followed by the
  product with the transpose of the second argument; each product's entry is the sum over the contracted axis, so the
  entry (p, q) of the result is  ∑ₖ (∑ⱼ A[p, j] · W[j, k]) · B[q, k].
-/
import proofs.«167009_j2078764171786_2_alg».proof.Proof.RefRead
import proofs.«167009_j2078764171786_2_alg».proof.Proof.Spec
import proofs.«167009_j2078764171786_2_alg».proof.Proof.WEntry
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.ReadP Idealize.ShloMosaic

/-- Entry (j, k) of the weight matrix the reference builds is the weight entry. -/
theorem w_apply (j k : Fin 4096) :
    Cert.ReferenceIdeal.ReadP.val_main_v16 (F := Ideal) (ValueIdx.ix2 j k) = Cert.BandSpec.wEntry j k := by
  simp only [val_main_v16_apply, val_main_v15_apply, val_main_v14_apply, val_main_v12_apply, val_main_v11_apply,
    val_main_v9_apply, val_main_v8_apply, val_main_v7_apply, val_main_v6_apply, val_main_v5_apply, val_main_v3_apply,
    val_main_v1_apply, val_main_v0_apply, val_main_v4_apply, val_main_v2_apply, val_main_v10_apply, val_main_cst_apply,
    val_main_v13_apply, val_main_cst_0_apply, val_main_call0_v1_apply, val_main_call0_v0_apply, val_main_cst_1_apply]
  rfl

/-- Entry (p, q) of the reference's result is the left-to-right product  ((A · W) · Bᵀ)[p, q]. -/
theorem ref_apply (x0 : Cert.ReferenceIdeal.S8192x4096.Idx → EReal) (x1 : Cert.ReferenceIdeal.S4096x4096.Idx → EReal)
    (p : Fin 8192) (q : Fin 4096) :
    Cert.ReferenceIdeal.ReadP.val_main_v19 (F := Ideal) x0 x1 (ValueIdx.ix2 p q)
      = Cert.BandSpec.refAt Cert.BandSpec.wEntry (fun i j => x0 (ValueIdx.ix2 i j)) (fun c k => x1 (ValueIdx.ix2 c k)) p q := by
  rw [val_main_v19_apply]
  unfold Cert.BandSpec.refAt
  refine Finset.sum_congr rfl fun k _ => ?_
  rw [val_main_v17_apply, val_main_v18_apply]
  have e3 : idx_main_v18 (ridx_main_v19 (ValueIdx.ix2 p q) k) = ValueIdx.ix2 q k :=
    funext fun a => match a with
      | ⟨0, _⟩ => rfl
      | ⟨1, _⟩ => rfl
  rw [e3]
  congr 1
  refine Finset.sum_congr rfl fun j _ => ?_
  have e1 : lidx_main_v17 (lidx_main_v19 (ValueIdx.ix2 p q) k) j = ValueIdx.ix2 p j :=
    funext fun a => match a with
      | ⟨0, _⟩ => rfl
      | ⟨1, _⟩ => rfl
  have e2 : ridx_main_v17 (lidx_main_v19 (ValueIdx.ix2 p q) k) j = ValueIdx.ix2 j k :=
    funext fun a => match a with
      | ⟨0, _⟩ => rfl
      | ⟨1, _⟩ => rfl
  rw [e1, e2, w_apply]

end Cert.ReferenceIdeal.RefValue

end
-- ==== Proof.ExpBound.lean ====
/-
  The Gaussian weight  exp (-(d * d) / 128)  is below the truncation threshold  14411519 / 2 ^ 57  once the distance
  from the diagonal is at least 513:  d * d / 128 ≥ 34,  exp is monotone,  exp (-34) = (exp 1)⁻¹ ^ 34 ≤ (1 / 2) ^ 34
  because  2 ≤ exp 1,  and  (1 / 2) ^ 34 = 2 ^ 23 / 2 ^ 57 < 14411519 / 2 ^ 57.
-/
import Mathlib.Analysis.SpecialFunctions.Exp
import Mathlib.Analysis.SpecialFunctions.Pow.Real

namespace Cert.BandSpec

/-- `exp (-34) ≤ (1 / 2) ^ 34`, from `2 ≤ exp 1`. -/
theorem exp_neg_34_le : Real.exp (-34) ≤ (1 / 2 : ℝ) ^ 34 := by
  have h2 : (2 : ℝ) ≤ Real.exp 1 := by
    have := Real.add_one_le_exp (1 : ℝ)
    linarith
  have hpos : (0 : ℝ) < Real.exp 1 := Real.exp_pos 1
  have hinv : (Real.exp 1)⁻¹ ≤ (1 / 2 : ℝ) := by
    rw [one_div]
    exact inv_anti₀ (by norm_num) h2
  have hexp : Real.exp (-34) = ((Real.exp 1)⁻¹) ^ 34 := by
    rw [← Real.exp_neg, ← Real.exp_nat_mul]
    norm_num
  rw [hexp]
  exact pow_le_pow_left₀ (inv_nonneg.mpr hpos.le) hinv 34

/-- Strict form: far from the diagonal the Gaussian weight is strictly below the threshold. -/
theorem exp_far_lt (d : ℕ) (hd : 513 ≤ d) : Real.exp (-((d : ℝ) * (d : ℝ)) / 128) < (14411519 : ℝ) / 2 ^ 57 := by
  have hd' : (513 : ℝ) ≤ (d : ℝ) := by exact_mod_cast hd
  have hsq : (513 : ℝ) * 513 ≤ (d : ℝ) * (d : ℝ) := by nlinarith
  have harg : -((d : ℝ) * (d : ℝ)) / 128 ≤ -34 := by
    rw [div_le_iff₀ (by norm_num : (0 : ℝ) < 128)]
    linarith
  calc Real.exp (-((d : ℝ) * (d : ℝ)) / 128) ≤ Real.exp (-34) := Real.exp_le_exp.mpr harg
    _ ≤ (1 / 2 : ℝ) ^ 34 := exp_neg_34_le
    _ < (14411519 : ℝ) / 2 ^ 57 := by norm_num

/-- Far from the diagonal the Gaussian weight is at most the threshold. -/
theorem exp_far_le (d : ℕ) (hd : 513 ≤ d) : Real.exp (-((d : ℝ) * (d : ℝ)) / 128) ≤ (14411519 : ℝ) / 2 ^ 57 :=
  (exp_far_lt d hd).le

end Cert.BandSpec
-- ==== Proof.WFacts.lean ====
/-
  The weight matrix, entry by entry, as real numbers.

  Entry (j, k) of the weight matrix is  c · c  with  c = e  if  e > 14411519 / 2 ^ 57  and  0  otherwise, where
  e = exp (-(d · d) / 128)  and  d = |k - j|.  The positions are below 4096, so the 32-bit difference and its absolute
  value do not wrap and  d  is the natural number |k - j|; the three float words denote 128, 14411519 / 2 ^ 57 and 0;
  division by the nonzero real 128, the exponential of a real and the comparison of two reals stay inside the reals.
  Hence every entry is the coercion of a real number.  If the 512-blocks of  j  and  k  are at least two apart then
  d ≥ 513, the Gaussian is at most the threshold, the cut-off gives 0 and so does its square: the matrix vanishes
  outside the block tridiagonal.
-/
import proofs.«167009_j2078764171786_2_alg».proof.Proof.WEntry
import proofs.«167009_j2078764171786_2_alg».proof.Proof.ExpBound

noncomputable section

namespace Cert.BandSpec

open Idealize.ShloMosaic

/-- The word for a position below 4096 reads back, as a signed integer, as the position. -/
theorem toInt_ofNat_small (n : ℕ) (h : n < 4096) : (BitVec.ofNat 32 n).toInt = (n : ℤ) := by
  have hn : (BitVec.ofNat 32 n).toNat = n := by
    rw [BitVec.toNat_ofNat]; exact Nat.mod_eq_of_lt (by omega)
  rw [BitVec.toInt_eq_toNat_of_lt (by rw [hn]; omega), hn]

/-- On positions below 4096 the 32-bit difference and its absolute value do not wrap: the result is |k - j|. -/
theorem absi_subi_toInt (j k : ℕ) (hj : j < 4096) (hk : k < 4096) :
    (IntOp.absi (IntOp.subi (BitVec.ofNat 32 k) (BitVec.ofNat 32 j))).toInt = |(k : ℤ) - (j : ℤ)| := by
  unfold IntOp.absi IntOp.subi
  by_cases h : j ≤ k
  · have hx : BitVec.ofNat 32 k - BitVec.ofNat 32 j = BitVec.ofNat 32 (k - j) := by
      apply BitVec.eq_of_toNat_eq
      simp only [BitVec.toNat_sub, BitVec.toNat_ofNat]
      omega
    have hm : (BitVec.ofNat 32 (k - j)).msb = false := by
      rw [BitVec.msb_eq_decide, BitVec.toNat_ofNat, decide_eq_false_iff_not]
      omega
    rw [hx, hm, if_neg (by decide), toInt_ofNat_small _ (by omega), abs_of_nonneg (by omega)]
    omega
  · have hx : -(BitVec.ofNat 32 k - BitVec.ofNat 32 j) = BitVec.ofNat 32 (j - k) := by
      apply BitVec.eq_of_toNat_eq
      simp only [BitVec.toNat_neg, BitVec.toNat_sub, BitVec.toNat_ofNat]
      omega
    have hm : (BitVec.ofNat 32 k - BitVec.ofNat 32 j).msb = true := by
      rw [BitVec.msb_eq_decide, BitVec.toNat_sub, BitVec.toNat_ofNat, BitVec.toNat_ofNat, decide_eq_true_iff]
      omega
    rw [hm, if_pos rfl, hx, toInt_ofNat_small _ (by omega), abs_of_nonpos (by omega)]
    omega

/-- The word 0x43000000 denotes 128. -/
theorem ofBits_128 : Ideal.ofBits .f32 0x43000000#32 = ((128 : ℝ) : EReal) := by
  simp [Ideal.ofBits, Ideal.ieee, -EReal.coe_mul]; norm_num

/-- The threshold word 0x2EDBE6FF denotes 14411519 / 2 ^ 57. -/
theorem ofBits_thr : Ideal.ofBits .f32 0x2EDBE6FF#32 = (((14411519 : ℝ) / 2 ^ 57 : ℝ) : EReal) := by
  simp [Ideal.ofBits, Ideal.ieee, -EReal.coe_mul]; norm_num

/-- The word 0x00000000 denotes 0. -/
theorem ofBits_zero : Ideal.ofBits .f32 0x00000000#32 = 0 := by
  simp [Ideal.ofBits, Ideal.ieee]

/-- The distance from the diagonal, as a natural number. -/
def dist (j k : Fin 4096) : ℕ := Int.natAbs ((k.val : ℤ) - (j.val : ℤ))

/-- The Gaussian of the distance, as a real number. -/
def gaussR (j k : Fin 4096) : ℝ := Real.exp (-((dist j k : ℝ) * (dist j k : ℝ)) / 128)

/-- The cut-off Gaussian, as a real number. -/
def cutR (j k : Fin 4096) : ℝ := if (14411519 : ℝ) / 2 ^ 57 < gaussR j k then gaussR j k else 0

theorem distAt_eq (j k : Fin 4096) : distAt j k = (((dist j k : ℕ) : ℝ) : EReal) := by
  unfold distAt dist
  show (((IntOp.absi (IntOp.subi (BitVec.ofNat 32 k.val) (BitVec.ofNat 32 j.val))).toInt : ℝ) : EReal) = _
  rw [absi_subi_toInt _ _ j.isLt k.isLt, ← Int.natCast_natAbs, Int.cast_natCast]

theorem gaussAt_eq (j k : Fin 4096) : gaussAt j k = ((gaussR j k : ℝ) : EReal) := by
  unfold gaussAt gaussR
  rw [distAt_eq]
  simp only [Ideal.hostUnary_exp_def, Ideal.hostDivf_def, Ideal.hostNegf_def, Ideal.negf_def, Ideal.mulf_def, Ideal.ofBits_def]
  rw [ofBits_128, Ideal.div_coe (by norm_num : (128 : ℝ) ≠ 0), ← EReal.coe_mul, ← EReal.coe_neg, ← EReal.coe_mul, Ideal.exp_coe]
  congr 2
  ring

theorem cutAt_eq (j k : Fin 4096) : cutAt j k = ((cutR j k : ℝ) : EReal) := by
  unfold cutAt cutR
  rw [gaussAt_eq]
  show Scalar.select (Ideal.cmp .ogt ((gaussR j k : ℝ) : EReal) (Ideal.ofBits .f32 0x2EDBE6FF#32)) ((gaussR j k : ℝ) : EReal) (Ideal.ofBits .f32 0x00000000#32) = _
  rw [ofBits_thr, ofBits_zero]
  unfold Scalar.select Ideal.cmp
  by_cases h : (14411519 : ℝ) / 2 ^ 57 < gaussR j k
  · rw [if_pos h, if_pos]
    show BitVec.ofBool (decide ((((14411519 : ℝ) / 2 ^ 57 : ℝ) : EReal) < ((gaussR j k : ℝ) : EReal))) = 1
    rw [decide_eq_true (EReal.coe_lt_coe_iff.mpr h)]; rfl
  · rw [if_neg h, if_neg]
    · rfl
    · show ¬ BitVec.ofBool (decide ((((14411519 : ℝ) / 2 ^ 57 : ℝ) : EReal) < ((gaussR j k : ℝ) : EReal))) = 1
      rw [decide_eq_false (fun hh => h (EReal.coe_lt_coe_iff.mp hh))]; decide

theorem wEntry_eq (j k : Fin 4096) : wEntry j k = ((cutR j k * cutR j k : ℝ) : EReal) := by
  unfold wEntry
  rw [cutAt_eq, Ideal.mulf_def, EReal.coe_mul]

/-- Two positions whose 512-blocks are at least two apart are at distance at least 513. -/
theorem dist_far (j k : Fin 4096) (h : j.val / 512 + 2 ≤ k.val / 512 ∨ k.val / 512 + 2 ≤ j.val / 512) : 513 ≤ dist j k := by
  unfold dist
  have hj := j.isLt
  have hk := k.isLt
  omega

theorem cutR_far (j k : Fin 4096) (h : j.val / 512 + 2 ≤ k.val / 512 ∨ k.val / 512 + 2 ≤ j.val / 512) : cutR j k = 0 := by
  have hle : gaussR j k ≤ (14411519 : ℝ) / 2 ^ 57 := exp_far_le (dist j k) (dist_far j k h)
  unfold cutR
  rw [if_neg (not_lt.mpr hle)]

/-- Every entry of the weight matrix is a real number, and the entries vanish outside the block tridiagonal. -/
theorem wEntry_real : ∃ w : Fin 4096 → Fin 4096 → ℝ, (∀ j k, wEntry j k = ((w j k : ℝ) : EReal)) ∧
    (∀ j k : Fin 4096, (j.val / 512 + 2 ≤ k.val / 512 ∨ k.val / 512 + 2 ≤ j.val / 512) → w j k = 0) :=
  ⟨fun j k => cutR j k * cutR j k, wEntry_eq, fun j k h => by
    show cutR j k * cutR j k = 0
    rw [cutR_far j k h, mul_zero]⟩

end Cert.BandSpec

end
-- ==== Proof.LibSumChunks.lean ====
/-
  Sums over a range of length n * m taken chunk by chunk.

  In any commutative additive monoid, a sum over `Fin N` with `N = n * m` is the sum over the `n` consecutive
  chunks of length `m`: position `m * c + k` is entry `k` of chunk `c`. This is the re-association that turns
  a contraction computed as a few partial contractions over consecutive slices of the contracted axis, added up
  in order, into the one contraction over the whole axis. Only associativity and commutativity of `+` are used,
  so it holds in the extended reals with no finiteness assumption.
-/
import Mathlib.Algebra.BigOperators.Fin
import Mathlib.Logic.Equiv.Fin.Basic

namespace LibSumChunks

open Finset

/-- Entry `k` of chunk `c` sits at position `m * c + k`, inside the range. -/
theorem chunk_lt {N n m : ℕ} (h : N = n * m) (c : Fin n) (k : Fin m) : m * c.val + k.val < N := by
  subst h
  calc m * c.val + k.val < m * c.val + m := Nat.add_lt_add_left k.isLt _
    _ = m * (c.val + 1) := (Nat.mul_succ m c.val).symm
    _ ≤ m * n := Nat.mul_le_mul_left m c.isLt
    _ = n * m := Nat.mul_comm m n

/-- A sum over `Fin N`, `N = n * m`, is the sum over the `n` chunks of the sums over each chunk's `m` entries. -/
theorem sum_chunks {M : Type*} [AddCommMonoid M] {N : ℕ} (n m : ℕ) (h : N = n * m) (f : Fin N → M) :
    ∑ i : Fin N, f i = ∑ c : Fin n, ∑ k : Fin m, f ⟨m * c.val + k.val, chunk_lt h c k⟩ := by
  subst h
  rw [← (finProdFinEquiv (m := n) (n := m)).sum_comp, Fintype.sum_prod_type]
  refine Finset.sum_congr rfl fun c _ => Finset.sum_congr rfl fun k _ => congrArg f (Fin.ext ?_)
  show (k.val + m * c.val : ℕ) = m * c.val + k.val
  exact Nat.add_comm _ _

/-- Four chunks, written out in the order a left-to-right accumulation adds them, starting from zero. -/
theorem sum_four_chunks {M : Type*} [AddCommMonoid M] {N : ℕ} (m : ℕ) (h : N = 4 * m) (f : Fin N → M) :
    ∑ i : Fin N, f i
      = (((0 + ∑ k : Fin m, f ⟨m * 0 + k.val, chunk_lt h 0 k⟩) + ∑ k : Fin m, f ⟨m * 1 + k.val, chunk_lt h 1 k⟩)
          + ∑ k : Fin m, f ⟨m * 2 + k.val, chunk_lt h 2 k⟩) + ∑ k : Fin m, f ⟨m * 3 + k.val, chunk_lt h 3 k⟩ := by
  rw [sum_chunks 4 m h f, Fin.sum_univ_four, zero_add]
  rfl

end LibSumChunks
-- ==== Proof.BandAlgebra.lean ====
/-
  The banded arrangement of  out = A · W · Bᵀ  agrees with the left-to-right product when every entry is a real number
  and  W  vanishes outside the block tridiagonal.

  * For a row  j  in row block  jb,  the visited column blocks  jb - 1, jb, jb + 1  (those inside the matrix) carry every
    nonzero entry of row  j  of  W,  so the sum over the visited blocks is the sum over all 8 blocks, which is the sum
    over the whole axis:  T[j, c] = ∑ₖ W[j, k] · B[c, k].  Only  0 · x = 0  and the associativity and commutativity of
    +  are used, so this step holds in the extended reals.
  * The contraction over  j  taken as 8 blocks of 512 is the contraction over the whole axis.
  * What remains is  ∑ⱼ A[p, j] · (∑ₖ W[j, k] · B[q, k]) = ∑ₖ (∑ⱼ A[p, j] · W[j, k]) · B[q, k],  which needs
    distributivity: it is proved over the reals and carried into the extended reals by the coercion, which commutes with
    finite sums and with products.
-/
import proofs.«167009_j2078764171786_2_alg».proof.Proof.Spec
import proofs.«167009_j2078764171786_2_alg».proof.Proof.LibSumChunks
import Mathlib.Algebra.BigOperators.Fin
import Mathlib.Tactic.FinCases

noncomputable section

namespace Cert.BandSpec

open Finset

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  refine Finset.induction_on s ?_ ?_
  · simp
  · intro i s hi ih
    rw [Finset.sum_insert hi, Finset.sum_insert hi, EReal.coe_add, ih]

/-- Block and offset of position `l` of block `b`. -/
theorem blk_div (b : Fin 8) (l : Fin 512) : (blk b l).val / 512 = b.val := by
  simp only [blk]; omega

theorem blk_mod (b : Fin 8) (l : Fin 512) : (blk b l).val % 512 = l.val := by
  simp only [blk]; omega

/-- Every position is the position of its offset in its block. -/
theorem blk_div_mod (j : Fin 4096) (h₁ : j.val / 512 < 8) (h₂ : j.val % 512 < 512) :
    blk ⟨j.val / 512, h₁⟩ ⟨j.val % 512, h₂⟩ = j := by
  apply Fin.ext; simp only [blk]; omega

/-- A sum over the whole axis of extent 4096 is the sum over its 8 blocks of 512. -/
theorem sum_blk {M : Type*} [AddCommMonoid M] (f : Fin 4096 → M) :
    ∑ k : Fin 4096, f k = ∑ kc : Fin 8, ∑ l : Fin 512, f (blk kc l) :=
  LibSumChunks.sum_chunks 8 512 rfl f

/-- For a row block `jb`, if `g` vanishes on every column block at distance at least 2 from `jb`, the sum of `g` over
the visited column blocks (offsets `kb = 0, 1, 2` that land inside the matrix) is the sum of `g` over all 8 blocks. -/
theorem band_sum {M : Type*} [AddCommMonoid M] (jb : Fin 8) (g : Fin 8 → M)
    (hg : ∀ kc : Fin 8, (kc.val + 2 ≤ jb.val ∨ jb.val + 2 ≤ kc.val) → g kc = 0) :
    (∑ kb : Fin 3, if valid jb kb then g (kblk jb kb) else 0) = ∑ kc : Fin 8, g kc := by
  rw [Fin.sum_univ_three, Fin.sum_univ_eight]
  have h0 := hg 0
  have h1 := hg 1
  have h2 := hg 2
  have h3 := hg 3
  have h4 := hg 4
  have h5 := hg 5
  have h6 := hg 6
  have h7 := hg 7
  clear hg
  fin_cases jb <;> simp [valid, kblk] at * <;> simp [*]

/-- When `W` vanishes outside the block tridiagonal, the banded entry of `T = W · Bᵀ` is the full contraction. -/
theorem tAt_eq_sum (W : Fin 4096 → Fin 4096 → EReal) (B : Fin 4096 → Fin 4096 → EReal)
    (hW : ∀ j k : Fin 4096, (j.val / 512 + 2 ≤ k.val / 512 ∨ k.val / 512 + 2 ≤ j.val / 512) → W j k = 0)
    (j c : Fin 4096) : tAt W B j c = ∑ k : Fin 4096, W j k * B c k := by
  unfold tAt tBlk
  rw [blk_div_mod j, blk_div_mod c]
  rw [band_sum ⟨j.val / 512, by omega⟩ (fun kc => ∑ l : Fin 512, W j (blk kc l) * B c (blk kc l))]
  · exact (sum_blk fun k => W j k * B c k).symm
  · intro kc hkc
    refine Finset.sum_eq_zero fun l _ => ?_
    rw [hW j (blk kc l) (by rw [blk_div]; simp only at hkc; omega), zero_mul]

/-- When `W` vanishes outside the block tridiagonal, the kernel's arrangement is `A · (W · Bᵀ)`. -/
theorem kerAt_eq_sum (W : Fin 4096 → Fin 4096 → EReal) (A : Fin 8192 → Fin 4096 → EReal)
    (B : Fin 4096 → Fin 4096 → EReal)
    (hW : ∀ j k : Fin 4096, (j.val / 512 + 2 ≤ k.val / 512 ∨ k.val / 512 + 2 ≤ j.val / 512) → W j k = 0)
    (p : Fin 8192) (q : Fin 4096) :
    kerAt W A B p q = ∑ j : Fin 4096, A p j * ∑ k : Fin 4096, W j k * B q k := by
  unfold kerAt
  rw [sum_blk fun j => A p j * ∑ k : Fin 4096, W j k * B q k]
  refine Finset.sum_congr rfl fun kk _ => Finset.sum_congr rfl fun l _ => ?_
  rw [tAt_eq_sum W B hW]

/-- Over the reals, `A · (W · Bᵀ) = (A · W) · Bᵀ` entry by entry. -/
theorem real_assoc {m n : ℕ} (w : Fin n → Fin n → ℝ) (a : Fin m → Fin n → ℝ) (b : Fin n → Fin n → ℝ)
    (p : Fin m) (q : Fin n) :
    ∑ j : Fin n, a p j * ∑ k : Fin n, w j k * b q k = ∑ k : Fin n, (∑ j : Fin n, a p j * w j k) * b q k := by
  simp only [Finset.mul_sum, Finset.sum_mul]
  rw [Finset.sum_comm]
  refine Finset.sum_congr rfl fun k _ => Finset.sum_congr rfl fun j _ => ?_
  rw [mul_assoc]

/-- The banded arrangement and the left-to-right product agree on real matrices whose `W` vanishes outside the block
tridiagonal. -/
theorem kerAt_eq_refAt (w : Fin 4096 → Fin 4096 → ℝ) (a : Fin 8192 → Fin 4096 → ℝ) (b : Fin 4096 → Fin 4096 → ℝ)
    (hband : ∀ j k : Fin 4096, (j.val / 512 + 2 ≤ k.val / 512 ∨ k.val / 512 + 2 ≤ j.val / 512) → w j k = 0)
    (p : Fin 8192) (q : Fin 4096) :
    kerAt (fun j k => ((w j k : ℝ) : EReal)) (fun i j => ((a i j : ℝ) : EReal)) (fun c k => ((b c k : ℝ) : EReal)) p q
      = refAt (fun j k => ((w j k : ℝ) : EReal)) (fun i j => ((a i j : ℝ) : EReal)) (fun c k => ((b c k : ℝ) : EReal)) p q := by
  rw [kerAt_eq_sum _ _ _ (fun j k h => by simp only [hband j k h, EReal.coe_zero])]
  unfold refAt
  simp only [← EReal.coe_mul, ← coe_sum]
  rw [real_assoc w a b p q]

end Cert.BandSpec

end
-- ==== Proof.Bridge.lean ====
/-
  The join.  An array whose entry (p, q) is the banded arrangement `kerAt` of the weight matrix and two arrays `A`, `B` with
  real entries IS the reference's result on `A`, `B`: the weight matrix has real entries and vanishes outside the block
  tridiagonal, so the banded sum is the full sum, and with every entry real the product  A · (W · Bᵀ)  re-associates to
  (A · W) · Bᵀ.
-/
import proofs.«167009_j2078764171786_2_alg».proof.Proof.RefSide
import proofs.«167009_j2078764171786_2_alg».proof.Proof.WFacts
import proofs.«167009_j2078764171786_2_alg».proof.Proof.BandAlgebra

noncomputable section

namespace Cert.BandSpec

open Idealize.ShloMosaic Idealize.ShloMosaic.ValueIdx

theorem bridge (A : (⟨2, ![8192, 4096]⟩ : Shape).Idx → EReal) (B : (⟨2, ![4096, 4096]⟩ : Shape).Idx → EReal)
    (a : Fin 8192 → Fin 4096 → ℝ) (b : Fin 4096 → Fin 4096 → ℝ)
    (ha : ∀ p j, A (ix2 p j) = ((a p j : ℝ) : EReal)) (hb : ∀ q k, B (ix2 q k) = ((b q k : ℝ) : EReal))
    (R : (⟨2, ![8192, 4096]⟩ : Shape).Idx → EReal)
    (hR : ∀ p q, R (ix2 p q) = kerAt wEntry (fun i j => A (ix2 i j)) (fun q k => B (ix2 q k)) p q) :
    R = Cert.ReferenceIdeal.ReadP.val_main_v19 (F := Ideal) A B := by
  funext i
  obtain ⟨p, q, rfl⟩ : ∃ (p : Fin 8192) (q : Fin 4096), i = ix2 p q := ⟨i 0, i 1, eq_ix2 i⟩
  obtain ⟨w, hw, hband⟩ := wEntry_real
  have eW : wEntry = fun j k => ((w j k : ℝ) : EReal) := funext fun j => funext fun k => hw j k
  have eA : (fun i j => A (ix2 i j)) = fun i j => ((a i j : ℝ) : EReal) := funext fun i => funext fun j => ha i j
  have eB : (fun q k => B (ix2 q k)) = fun q k => ((b q k : ℝ) : EReal) := funext fun q => funext fun k => hb q k
  rw [hR p q, Cert.ReferenceIdeal.RefValue.ref_apply A B p q, eW, eA, eB]
  exact kerAt_eq_refAt w a b hband p q

end Cert.BandSpec

end
-- ==== Proof.lean ====
/-
  The certificate of  out = A · W · Bᵀ  computed two ways.

  The kernel program builds the weight matrix W on the host (a Gaussian of the distance from the diagonal, cut off below a
  threshold and squared, so that W vanishes outside a band of half-width 54 — in particular outside the block tridiagonal of
  8 × 8 blocks of 512), computes  T = W · Bᵀ  in a first pallas_call that visits only the three neighbouring blocks of each
  row block, and  out = A · T  in a second one that accumulates over 8 blocks of the contracted axis.  The reference computes
  (A · W) · Bᵀ  with two whole products.  At the ideal instance (floats are extended reals, roundings the identity) the two
  agree when the arguments are finite: the banded sum is the full sum because the skipped blocks of W are zero, and with every
  entry a real number the product re-associates.

  The frames: each kernel region's body is run once per control case over a symbolic grid point, the accumulator carried
  between the points of one output block; the two regions and the host stretches are then composed in order.  The word-level
  program and its idealization are the same text, so their frames are the same proof at the two float instances.  The
  reference's frame is its run with the result dropped.  The idealization rewrote nothing, so `preserves` holds trivially.
-/
import proofs.«167009_j2078764171786_2_alg».proof.Defs
import proofs.«167009_j2078764171786_2_alg».proof.Proof.Gen.Kernel
import proofs.«167009_j2078764171786_2_alg».proof.Proof.Gen.KernelIdeal
import proofs.«167009_j2078764171786_2_alg».proof.Proof.Gen.ReferenceIdeal
import proofs.«167009_j2078764171786_2_alg».proof.Proof.Gen.Pre_finite_inputs
import proofs.«167009_j2078764171786_2_alg».proof.Proof.KB.Frame
import proofs.«167009_j2078764171786_2_alg».proof.Proof.KI.Frame
import proofs.«167009_j2078764171786_2_alg».proof.Proof.KI.Value
import proofs.«167009_j2078764171786_2_alg».proof.Proof.PreFinite
import proofs.«167009_j2078764171786_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Whole.frame m ρ

theorem frame_ki : Cert.frame_KernelIdeal (hKernelIdeal := Cert.KernelIdeal.Gen.facts) (hPre_finite_inputs := Cert.Pre_finite_inputs.Gen.facts) :=
  fun m ρ _ => Cert.KernelIdeal.Whole.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

theorem preserves : Cert.preserves_Kernel_KernelIdeal := trivial

/-- With finite arguments the kernel program's result array is the reference's result on the same arguments. -/
theorem result_eq (m : (ℓ : Loc Cert.KernelIdeal.nD Cert.KernelIdeal.τ Cert.KernelIdeal.sig) → Buf (Elt Ideal) ℓ) (ρ : Dev Cert.KernelIdeal.nD → PrngReg)
    (hpre : Cert.Pre_KernelIdeal (hPre_finite_inputs := Cert.Pre_finite_inputs.Gen.facts) m) (c : Dev Cert.KernelIdeal.nD) :
    (Cert.KernelIdeal.Whole.Wend m ρ c (Proc.devRef .tc Cert.KernelIdeal.main_v19) : Cert.KernelIdeal.S8192x4096.Idx → EReal)
      = Cert.ReferenceIdeal.ReadP.val_main_v19 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  obtain ⟨⟨a, ha⟩, ⟨b, hb⟩⟩ := Cert.KernelIdeal.PreFinite.finite_of_pre (hP := Cert.Pre_finite_inputs.Gen.facts) m hpre c
  exact Cert.BandSpec.bridge _ _ a b ha hb _ (fun p q => Cert.KernelIdeal.Value.result_apply m ρ c p q)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Whole.Wend m ρ c (Proc.devRef .tc Cert.KernelIdeal.main_v19), ?_, ?_⟩
  · exact (θ_run Cert.KernelIdeal.defs _ _).mono (fun _ h c =>
      ⟨h c _ (Cert.KernelIdeal.Whole.mem_uc Cert.KernelIdeal.main_v19 (by decide)),
       (h c _ (Cert.KernelIdeal.Whole.mem_uc Cert.KernelIdeal.main_arg0 (by decide))).trans (Cert.KernelIdeal.Whole.Wend_main_arg0 m ρ c),
       (h c _ (Cert.KernelIdeal.Whole.mem_uc Cert.KernelIdeal.main_arg1 (by decide))).trans (Cert.KernelIdeal.Whole.Wend_main_arg1 m ρ c)⟩)
      (Cert.KernelIdeal.Whole.run_main m ρ)
  · refine (θ_run Cert.ReferenceIdeal.defs _ _).mono (fun _ h c => ⟨(h c).1.trans ?_, (h c).2⟩)
      (Cert.ReferenceIdeal.ValueP.run (F := Ideal) m' ρ')
    rw [(hagree c).1, (hagree c).2]
    exact ((Cert.ReferenceIdeal.ReadP.val_main_v19_eq (F := Ideal) _ _).trans (result_eq m ρ hpre c).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
